-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x800000 : Shape := ⟨2, ![2, 800000]⟩
abbrev S32x128 : Shape := ⟨2, ![32, 128]⟩
abbrev S128 : Shape := ⟨1, ![128]⟩
abbrev S128x128 : Shape := ⟨2, ![128, 128]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg12 : FVec F S128x128 .f32) (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_v63 main_v67

def fn_part2 {F : FTy → Type} [FloatOps F] (main_arg8 : FVec F S128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x32 .f32) (main_arg1 : IVec S2x800000 32) (main_arg2 : FVec F S32x128 .f32) (main_arg3 : FVec F S128 .f32) (main_arg4 : FVec F S128x128 .f32) (main_arg5 : FVec F S128 .f32) (main_arg6 : FVec F S128x128 .f32) (main_arg7 : FVec F S128 .f32) (main_arg8 : FVec F S128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x32 : Shape := ⟨2, ![50000, 32]⟩
abbrev S2x800000 : Shape := ⟨2, ![2, 800000]⟩
abbrev S32x128 : Shape := ⟨2, ![32, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S50000x128 : Shape := ⟨2, ![50000, 128]⟩
abbrev S2000x32 : Shape := ⟨2, ![2000, 32]⟩
abbrev S2000x128 : Shape := ⟨2, ![2000, 128]⟩
abbrev S800000x128 : Shape := ⟨2, ![800000, 128]⟩
abbrev S2000 : Shape := ⟨1, ![2000]⟩
abbrev S2000x1 : Shape := ⟨2, ![2000, 1]⟩

abbrev nBuf : Space → Nat
  | .hbm => 75
  | .vmem => 32
  | .smem => 0
  | _ => 0

abbrev bufTy : (tb : Table) → Fin (tcTables nBuf tb) → BufTy
  | .hbm, ⟨0, _⟩ => ⟨S50000x32, .f32⟩
  | .hbm, ⟨1, _⟩ => ⟨S2x800000, .i32⟩
  | .hbm, ⟨2, _⟩ => ⟨S32x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S50000x1, .f32⟩
  | .hbm, ⟨27, _⟩ => ⟨S_, .f32⟩
  | .hbm, ⟨28, _⟩ => ⟨S50000x1, .f32⟩
  | .hbm, ⟨29, _⟩ => ⟨S50000x1, .f32⟩
  | .hbm, ⟨30, _⟩ => ⟨S_, .f32⟩
  | .hbm, ⟨31, _⟩ => ⟨S50000x1, .f32⟩
  | .hbm, ⟨32, _⟩ => ⟨S50000x1, .f32⟩
  | .hbm, ⟨33, _⟩ => ⟨S1x128, .f32⟩
  | .hbm, ⟨34, _⟩ => ⟨S50000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S50000x128, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S50000x128, .f32⟩
  | .local _ .vmem, ⟨0, _⟩ => ⟨S2000x32, .f32⟩
  | .local _ .vmem, ⟨1, _⟩ => ⟨S2000x32, .f32⟩
  | .local _ .vmem, ⟨2, _⟩ => ⟨S32x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg8_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem8_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  shapeCasts_S128_S1x128 : S128.ShapeCasts S1x128
  inb_S2000x32_S2000x32_0_0 : ∀ a, (![0, 0] : Fin 2 → Nat) a + S2000x32.size a ≤ S2000x32.size a
  h_S2000x32 : 0 < S2000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  reduces_S2000x128_S2000 : S2000x128.Reduces [1] S2000
  shapeCasts_S2000_S2000x1 : S2000.ShapeCasts S2000x1
  broadcasts_S2000x1_S2000x128 : S2000x1.Broadcasts S2000x128
  scatter_S50000_S800000x1_S800000_n_0_0_1_wf : ScatterDims.WF S50000 S800000x1 S800000 [] [0] [0] 1
  dot_S2000x32_S32x128_S2000x128_1_0_0_1_n_n_wf : DotDims.WF S2000x32 S32x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S50000x32.size a
  hwx0_0 : ∀ i : grid0.Coords, EltTy.bits .f32 = 32 ∨ (Rect.block (s := S50000x32) S2000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S50000x128.size a
  hwx2_8 : ∀ i : grid2.Coords, EltTy.bits .f32 = 32 ∨ (Rect.block (s := S50000x128) S2000x128.size (cc2_transform_8 i) (hinb2_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x32_S32x128_S2000x128_1_0_0_1_n_n : DotDims S2000x32 S32x128 S2000x128 where
  lhsContracting := [1]
  rhsContracting := [0]
  lhsNonContracting := [0]
  rhsNonContracting := [1]
  lhsBatch := []
  rhsBatch := []
  wf := dot_S2000x32_S32x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v31) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v31) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v47) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v48) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x32 : Shape := ⟨2, ![50000, 32]⟩
abbrev S2x800000 : Shape := ⟨2, ![2, 800000]⟩
abbrev S32x128 : Shape := ⟨2, ![32, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S50000x128 : Shape := ⟨2, ![50000, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩

abbrev nBuf : Space → Nat
  | .hbm => 157
  | .vmem => 0
  | .smem => 0
  | _ => 0

abbrev hbmTy0_0 (i : Nat) : BufTy := match i % 128 with
  | 0 => ⟨S50000x32, .f32⟩
  | 1 => ⟨S2x800000, .i32⟩
  | 2 => ⟨S32x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128, .f32⟩
  | 15 => ⟨S128, .f32⟩
  | 16 => ⟨S1x800000, .i32⟩
  | 17 => ⟨S800000, .i32⟩
  | 18 => ⟨S1x800000, .i32⟩
  | 19 => ⟨S800000, .i32⟩
  | 20 => ⟨S50000x128, .f32⟩
  | 21 => ⟨S1x128, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S_, .f32⟩
  | 41 => ⟨S50000x128, .f32⟩
  | 42 => ⟨S800000x1, .i32⟩
  | 43 => ⟨S50000x128, .f32⟩
  | 44 => ⟨S_, .f32⟩
  | 45 => ⟨S800000, .f32⟩
  | 46 => ⟨S_, .f32⟩
  | 47 => ⟨S50000, .f32⟩
  | 48 => ⟨S800000x1, .i32⟩
  | 49 => ⟨S50000, .f32⟩
  | 50 => ⟨S50000x1, .f32⟩
  | 51 => ⟨S_, .f32⟩
  | 52 => ⟨S50000x1, .f32⟩
  | 53 => ⟨S50000x1, .f32⟩
  | 54 => ⟨S50000x128, .f32⟩
  | 55 => ⟨S50000x128, .f32⟩
  | 56 => ⟨S50000x128, .f32⟩
  | 57 => ⟨S50000x128, .f32⟩
  | 58 => ⟨S1x128, .f32⟩
  | 59 => ⟨S50000x128, .f32⟩
  | 60 => ⟨S50000x128, .f32⟩
  | 61 => ⟨S_, .f32⟩
  | 62 => ⟨S50000, .f32⟩
  | 63 => ⟨S50000x1, .f32⟩
  | 64 => ⟨S_, .f32⟩
  | 65 => ⟨S50000x1, .f32⟩
  | 66 => ⟨S50000x1, .f32⟩
  | 67 => ⟨S50000x128, .f32⟩
  | 68 => ⟨S50000x128, .f32⟩
  | 69 => ⟨S50000x128, .f32⟩
  | 70 => ⟨S_, .f32⟩
  | 71 => ⟨S50000, .f32⟩
  | 72 => ⟨S50000x1, .f32⟩
  | 73 => ⟨S_, .f32⟩
  | 74 => ⟨S50000x1, .f32⟩
  | 75 => ⟨S50000x1, .f32⟩
  | 76 => ⟨S50000x128, .f32⟩
  | 77 => ⟨S50000x128, .f32⟩
  | 78 => ⟨S_, .f32⟩
  | 79 => ⟨S50000x1, .f32⟩
  | 80 => ⟨S50000x1, .f32⟩
  | 81 => ⟨S50000x1, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S1x128, .f32⟩
  | 88 => ⟨S50000x128, .f32⟩
  | 89 => ⟨S50000x128, .f32⟩
  | 90 => ⟨S_, .f32⟩
  | 91 => ⟨S50000x128, .f32⟩
  | 92 => ⟨S50000x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .f32⟩
  | 107 => ⟨S_, .f32⟩
  | 108 => ⟨S50000x128, .f32⟩
  | 109 => ⟨S800000x1, .i32⟩
  | 110 => ⟨S50000x128, .f32⟩
  | 111 => ⟨S_, .f32⟩
  | 112 => ⟨S800000, .f32⟩
  | 113 => ⟨S_, .f32⟩
  | 114 => ⟨S50000, .f32⟩
  | 115 => ⟨S800000x1, .i32⟩
  | 116 => ⟨S50000, .f32⟩
  | 117 => ⟨S50000x1, .f32⟩
  | 118 => ⟨S_, .f32⟩
  | 119 => ⟨S50000x1, .f32⟩
  | 120 => ⟨S50000x1, .f32⟩
  | 121 => ⟨S50000x128, .f32⟩
  | 122 => ⟨S50000x128, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x32, .f32⟩

abbrev hbmTy0_1 (i : Nat) : BufTy := match i % 128 with
  | 0 => ⟨S_, .f32⟩
  | 1 => ⟨S50000, .f32⟩
  | 2 => ⟨S50000x1, .f32⟩
  | 3 => ⟨S_, .f32⟩
  | 4 => ⟨S50000x1, .f32⟩
  | 5 => ⟨S50000x1, .f32⟩
  | 6 => ⟨S50000x128, .f32⟩
  | 7 => ⟨S50000x128, .f32⟩
  | 8 => ⟨S50000x128, .f32⟩
  | 9 => ⟨S_, .f32⟩
  | 10 => ⟨S50000, .f32⟩
  | 11 => ⟨S50000x1, .f32⟩
  | 12 => ⟨S_, .f32⟩
  | 13 => ⟨S50000x1, .f32⟩
  | 14 => ⟨S50000x1, .f32⟩
  | 15 => ⟨S50000x128, .f32⟩
  | 16 => ⟨S50000x128, .f32⟩
  | 17 => ⟨S_, .f32⟩
  | 18 => ⟨S50000x1, .f32⟩
  | 19 => ⟨S50000x1, .f32⟩
  | 20 => ⟨S50000x1, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call0_cst : Ref sig .tc := ⟨.hbm, 24, rfl⟩
abbrev main_call0_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_v23 : Ref sig .tc := ⟨.hbm, 45, rfl⟩
abbrev main_cst_2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_v38 : Ref sig .tc := ⟨.hbm, 63, rfl⟩
abbrev main_cst_5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_call1_cst : Ref sig .tc := ⟨.hbm, 90, rfl⟩
abbrev main_call1_v0 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_9 : Ref sig .tc := ⟨.hbm, 98, rfl⟩
abbrev main_v67 : Ref sig .tc := ⟨.hbm, 99, rfl⟩
abbrev main_v68 : Ref sig .tc := ⟨.hbm, 100, rfl⟩
abbrev main_c_10 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_11 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_12 : Ref sig .tc := ⟨.hbm, 111, rfl⟩
abbrev main_v77 : Ref sig .tc := ⟨.hbm, 112, rfl⟩
abbrev main_cst_13 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_14 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_15 : Ref sig .tc := ⟨.hbm, 128, rfl⟩
abbrev main_v91 : Ref sig .tc := ⟨.hbm, 129, rfl⟩
abbrev main_v92 : Ref sig .tc := ⟨.hbm, 130, rfl⟩
abbrev main_cst_16 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_17 : Ref sig .tc := ⟨.hbm, 137, rfl⟩
abbrev main_v98 : Ref sig .tc := ⟨.hbm, 138, rfl⟩
abbrev main_v99 : Ref sig .tc := ⟨.hbm, 139, rfl⟩
abbrev main_cst_18 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_19 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  reducesTo_S50000x128_S50000_d1 : S50000x128.ReducesTo [1] S50000
  h_S_ : 0 < S_.numel
  dot_S50000x32_S32x128_S50000x128_1_0_0_1_n_n_wf : DotDims.WF S50000x32 S32x128 S50000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def dot_S50000x32_S32x128_S50000x128_1_0_0_1_n_n : DotDims S50000x32 S32x128 S50000x128 where
  lhsContracting := [1]
  rhsContracting := [0]
  lhsNonContracting := [0]
  rhsNonContracting := [1]
  lhsBatch := []
  rhsBatch := []
  wf := dot_S50000x32_S32x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.Shared1.lean ====
/-
  The middle call hands ONE array (the node features h) to two of its input windows: the rows it
  multiplies and the rows it adds back as the residual. The pipeline holds each window's array at a
  share of its own, so the one buffer behind the two windows is held by halves: the left half of the
  full share for the first window, the right half for the third, and the two halves are exactly the
  full share. Every other window has an array of its own at the full share.

  This file proves that the nine distinct buffers behind the ten windows, each whole at the full
  share, ARE the ten windows' arrays at those shares (in both directions), for any proof data with
  that choice of shares and any contents that agree window by window.
-/
import proofs.«176153_j4715874091025_1_alg».proof.Proof.Gen.KernelIdeal.Launch
import Idealize.ShloMosaic.Lib.Pipeline.Frame
import Idealize.ShloMosaic.Lib.Pipeline.Regions

noncomputable section

namespace Cert.KernelIdeal.Shared

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.KernelIdeal Cert.KernelIdeal.Gen

variable {F : FTy → Type} [FloatOps F]

local notation "𝕄" => MT nD τ sig Unit (Elt F) ℕ (UR sig nD τ) ℕ

theorem image_arrRef1 : (Finset.univ.image (Pipeline.arrRef spec1) : Finset (Ref sig .tc))
    = ([main_v14, main_v26, main_arg4, main_v27, main_arg6, main_v28, main_v29, main_v30, main_v31] : List (Ref sig .tc)).toFinset := by
  decide

variable (c : Dev nD) (dat : Dat τ (Elt F) Unit ℕ (UR sig nD τ) ℕ cfg1 c)

theorem arrBufs1_eq (V : (b : Ref sig .tc) → Buf (Elt F) ((c.tc : Thread nD τ).loc b)) :
    (Pipeline.arrBufs spec1 c V : sProp 𝕄)
      = iprop((((c.tc : Thread nD τ).loc main_v14) ↦{fullShare} V main_v14) ∗ (((c.tc : Thread nD τ).loc main_v26) ↦{fullShare} V main_v26)
          ∗ (((c.tc : Thread nD τ).loc main_arg4) ↦{fullShare} V main_arg4) ∗ (((c.tc : Thread nD τ).loc main_v27) ↦{fullShare} V main_v27)
          ∗ (((c.tc : Thread nD τ).loc main_arg6) ↦{fullShare} V main_arg6) ∗ (((c.tc : Thread nD τ).loc main_v28) ↦{fullShare} V main_v28)
          ∗ (((c.tc : Thread nD τ).loc main_v29) ↦{fullShare} V main_v29) ∗ (((c.tc : Thread nD τ).loc main_v30) ↦{fullShare} V main_v30)
          ∗ (((c.tc : Thread nD τ).loc main_v31) ↦{fullShare} V main_v31)) := by
  unfold Pipeline.arrBufs
  exact bigSep_eq_bigSepL_of_eq _ image_arrRef1 (by decide) _

/-- Each window's share: the halves for the two windows on the node features, the full share elsewhere. -/
theorem share1 (hq0 : dat.q 0 = fullShare.left) (hq2 : dat.q 2 = fullShare.right) (hq : ∀ w, w ≠ 0 → w ≠ 2 → dat.q w = fullShare) :
    dat.share 0 = fullShare.left ∧ dat.share 1 = fullShare ∧ dat.share 2 = fullShare.right ∧ dat.share 3 = fullShare ∧ dat.share 4 = fullShare
      ∧ dat.share 5 = fullShare ∧ dat.share 6 = fullShare ∧ dat.share 7 = fullShare ∧ dat.share 8 = fullShare ∧ dat.share 9 = fullShare := by
  have s (w : Fin cfg1.W) (h : (cfg1.win w).isOut = false) : dat.share w = dat.q w := by
    unfold Dat.share; rw [h]; rfl
  have s9 : dat.share 9 = fullShare := by
    unfold Dat.share; rw [show (cfg1.win 9).isOut = true from rfl]; rfl
  exact ⟨(s 0 rfl).trans hq0, (s 1 rfl).trans (hq 1 (by decide) (by decide)), (s 2 rfl).trans hq2, (s 3 rfl).trans (hq 3 (by decide) (by decide)),
    (s 4 rfl).trans (hq 4 (by decide) (by decide)), (s 5 rfl).trans (hq 5 (by decide) (by decide)), (s 6 rfl).trans (hq 6 (by decide) (by decide)),
    (s 7 rfl).trans (hq 7 (by decide) (by decide)), (s 8 rfl).trans (hq 8 (by decide) (by decide)), s9⟩

set_option maxHeartbeats 1000000 in
/-- The ten windows' arrays at contents read off V, window by window, as a chain over the buffers. -/
theorem arrays1_eq (hq0 : dat.q 0 = fullShare.left) (hq2 : dat.q 2 = fullShare.right) (hq : ∀ w, w ≠ 0 → w ≠ 2 → dat.q w = fullShare)
    (V : (b : Ref sig .tc) → Buf (Elt F) ((c.tc : Thread nD τ).loc b)) :
    (dat.arrays (fun w => V (Pipeline.arrRef spec1 w)) : sProp 𝕄)
      = iprop((((c.tc : Thread nD τ).loc main_v14) ↦{fullShare.left} V main_v14) ∗ (((c.tc : Thread nD τ).loc main_v26) ↦{fullShare} V main_v26)
          ∗ (((c.tc : Thread nD τ).loc main_v14) ↦{fullShare.right} V main_v14) ∗ (((c.tc : Thread nD τ).loc main_arg4) ↦{fullShare} V main_arg4)
          ∗ (((c.tc : Thread nD τ).loc main_v27) ↦{fullShare} V main_v27) ∗ (((c.tc : Thread nD τ).loc main_arg6) ↦{fullShare} V main_arg6)
          ∗ (((c.tc : Thread nD τ).loc main_v28) ↦{fullShare} V main_v28) ∗ (((c.tc : Thread nD τ).loc main_v29) ↦{fullShare} V main_v29)
          ∗ (((c.tc : Thread nD τ).loc main_v30) ↦{fullShare} V main_v30) ∗ (((c.tc : Thread nD τ).loc main_v31) ↦{fullShare} V main_v31)) := by
  obtain ⟨s0, s1, s2, s3, s4, s5, s6, s7, s8, s9⟩ := share1 c dat hq0 hq2 hq
  have h : (dat.arrays (fun w => V (Pipeline.arrRef spec1 w)) : sProp 𝕄)
      = bigSep Finset.univ fun w : Fin 10 => (((c.tc : Thread nD τ).loc (Pipeline.arrRef spec1 w)) ↦{dat.share w} V (Pipeline.arrRef spec1 w) : sProp 𝕄) := by
    unfold Dat.arrays
    exact bigSep_congr fun w _ => by rw [(arr_whole1 w).set_eq_univ]
  rw [h, bigSep_W1, s0, s1, s2, s3, s4, s5, s6, s7, s8, s9]

/-- Entry: the nine buffers at contents V make the ten windows' arrays at the contents read off V; the node features are
    split by halves between the two windows that read them. -/
theorem arrays_of_arrBufs1 (hq0 : dat.q 0 = fullShare.left) (hq2 : dat.q 2 = fullShare.right) (hq : ∀ w, w ≠ 0 → w ≠ 2 → dat.q w = fullShare)
    (V : (b : Ref sig .tc) → Buf (Elt F) ((c.tc : Thread nD τ).loc b)) :
    (Pipeline.arrBufs spec1 c V : sProp 𝕄) ⊢ dat.arrays (fun w => V (Pipeline.arrRef spec1 w)) := by
  rw [arrBufs1_eq, arrays1_eq c dat hq0 hq2 hq]
  have hs : ((((c.tc : Thread nD τ).loc main_v14) ↦{fullShare} V main_v14 : sProp 𝕄))
      ⊢ iprop((((c.tc : Thread nD τ).loc main_v14) ↦{fullShare.left} V main_v14) ∗ (((c.tc : Thread nD τ).loc main_v14) ↦{fullShare.right} V main_v14)) :=
    (pointsTo_share (PosShare.mem_left_op_right fullShare)).1
  iintro ⟨H14, H26, H4, H27, H6, H28, H29, H30, H31⟩
  ihave H := hs $$ H14
  icases H with ⟨Ha, Hb⟩
  isplitl [Ha]; · iexact Ha
  isplitl [H26]; · iexact H26
  isplitl [Hb]; · iexact Hb
  isplitl [H4]; · iexact H4
  isplitl [H27]; · iexact H27
  isplitl [H6]; · iexact H6
  isplitl [H28]; · iexact H28
  isplitl [H29]; · iexact H29
  isplitl [H30]; · iexact H30
  iexact H31

/-- Exit: the ten windows' arrays at the contents read off V' make the nine buffers at V'; the two halves of the node
    features, at equal contents, are the full share again. -/
theorem arrBufs_of_arrays1 (hq0 : dat.q 0 = fullShare.left) (hq2 : dat.q 2 = fullShare.right) (hq : ∀ w, w ≠ 0 → w ≠ 2 → dat.q w = fullShare)
    (V' : (b : Ref sig .tc) → Buf (Elt F) ((c.tc : Thread nD τ).loc b)) :
    (dat.arrays (fun w => V' (Pipeline.arrRef spec1 w)) : sProp 𝕄) ⊢ Pipeline.arrBufs spec1 c V' := by
  rw [arrBufs1_eq, arrays1_eq c dat hq0 hq2 hq]
  have hj : iprop((((c.tc : Thread nD τ).loc main_v14) ↦{fullShare.left} V' main_v14) ∗ (((c.tc : Thread nD τ).loc main_v14) ↦{fullShare.right} V' main_v14))
      ⊢ ((((c.tc : Thread nD τ).loc main_v14) ↦{fullShare} V' main_v14 : sProp 𝕄)) :=
    (pointsTo_share (PosShare.mem_left_op_right fullShare)).2
  iintro ⟨Ha, H26, Hb, H4, H27, H6, H28, H29, H30, H31⟩
  isplitl [Ha Hb]
  · iapply hj
    isplitl [Ha]; · iexact Ha
    iexact Hb
  isplitl [H26]; · iexact H26
  isplitl [H4]; · iexact H4
  isplitl [H27]; · iexact H27
  isplitl [H6]; · iexact H6
  isplitl [H28]; · iexact H28
  isplitl [H29]; · iexact H29
  isplitl [H30]; · iexact H30
  iexact H31

end Cert.KernelIdeal.Shared

end
-- ==== Proof.Body0.lean ====
/-
  Region 0 (the input projection), at a generic point of its grid of 25 row blocks.

  The body reads three staging buffers whole — a block x of 2000 rows of 32 entries, the weight matrix W
  (32 by 128) and the bias b as one row of 128 — and overwrites the fourth, the output block of 2000 rows
  of 128 entries, with one whole-buffer store of max(x·W + b, 0). Reading a buffer whole returns its
  contents, and one whole-buffer store leaves exactly its payload, so the output block after the body is
  the payload evaluated at the three input blocks (out0_3_eq). Every window's block at a point is read off
  its array as the region finds it; an input window holds its block at every point whether or not it was
  fetched there, because an unfetched window's block index has not moved.
-/
import proofs.«176153_j4715874091025_1_alg».proof.Proof.Gen.KernelIdeal.Launch
import proofs.«176153_j4715874091025_1_alg».proof.Proof.Gen.KernelIdeal.Skeleton
import proofs.«176153_j4715874091025_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer access of a matrix are zero in both coordinates. -/
theorem hz0 : (![0, 0] : Fin 2 → Nat) = fun _ => 0 := by
  funext a; fin_cases a <;> rfl

section Region0
-- the buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the block of x) holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix) holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row) holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2000x32 := Rect.unit (s := S2000x32) ![0, 0] S2000x32.size inb_S2000x32_S2000x32_0_0
abbrev r0_1 : Rect S32x128 := Rect.unit (s := S32x128) ![0, 0] S32x128.size inb_S32x128_S32x128_0_0
abbrev r0_2 : Rect S1x128 := Rect.unit (s := S1x128) ![0, 0] S1x128.size inb_S1x128_S1x128_0_0
abbrev r0_3 : Rect S2000x128 := Rect.unit (s := S2000x128) ![0, 0] S2000x128.size inb_S2000x128_S2000x128_0_0

/-! ## What the body leaves in the output window's buffer -/

/-- The output buffer after the body, from the three input blocks: its one store, whose payload is
    max(x·W + b, 0) of the blocks as the body reads them. -/
def out0_3 (x0 : Vec F S2000x32 .f32) (x1 : Vec F S32x128 .f32) (x2 : Vec F S1x128 .f32) : Vec F S2000x128 .f32 :=
  View.canon [⟨r0_3, k0_pay1 (View.ld x0 r0_0) (View.ld x1 r0_1) (View.ld x2 r0_2)⟩]

/-- The one store covers the whole buffer. -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

/-- Whole-buffer reads return the contents and the one whole-buffer store leaves its payload: the output
    block is the payload at the input blocks. -/
theorem out0_3_eq (x0 : Vec F S2000x32 .f32) (x1 : Vec F S32x128 .f32) (x2 : Vec F S1x128 .f32) :
    out0_3 x0 x1 x2 = k0_pay1 x0 x1 x2 := by
  unfold out0_3
  rw [View.canon_unit_zero hz0, View.ld_unit_zero hz0, View.ld_unit_zero hz0, View.ld_unit_zero hz0]

/-! ## The body's triple -/

set_option maxHeartbeats 1000000 in
/-- The body on whole staging buffers, the inputs' at contents x0 x1 x2 and the output's at anything, runs
    to the continuation holding the inputs' as they were and the output's at out0_3 of them. -/
theorem sound_kernel0 (c : Dev nD) (E : Set ℕ) (i : grid0.Coords)
    (arg1 : Memref sig .tc .vmem S2000x32 .f32) (harg1 : arg1.IsWhole) (arg2 : Memref sig .tc .vmem S32x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x32 .f32) (x1 : Vec F S32x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__input_proj_kernel i arg1 harg1 arg2 harg2 arg3 harg3 arg4 harg4) K := by
  simp only [cc0__input_proj_kernel_eq_skeleton]; unfold cc0__input_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of region 0 on core c: the arrays as the region finds them; after the body at point t
    each input's buffer at its block and the output's at out0_3 of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Body

end
-- ==== Proof.Body1.lean ====
/-
  Region 1 (the first layer), at a generic point of its grid of 25 row blocks.

  The body reads nine staging buffers whole — a block h of 2000 rows of 128 entries, the block a of their
  averaged neighbour rows, the same block of h once more as the residual, the weight matrices Ws and Wn
  (128 by 128) and the rows bs, bn, g, be of 128 entries — and overwrites the tenth, the output block, with
  one whole-buffer store: row by row, v = (h·Ws + bs) + (a·Wn + bn) is formed and, with mu the row's mean and var the mean of the squared deviations, entry j of the sum v becomes
  (v j - mu) · rsqrt(var + eps) · g j + be j; the result is rectified and the residual row is added. Reading a buffer whole returns
  its contents, and one whole-buffer store leaves exactly its payload, so the output block after the body is
  the payload evaluated at the nine input blocks (out1_9_eq). Windows 0 and 2 read one array; their staging
  buffers are distinct, so the body's triple is unaffected, and the array itself is held as two halves of the
  full share, one per window. Every window's block at a point is read off its array as the region finds it;
  an input window holds its block at every point whether or not it was fetched there, because an unfetched
  window's block index has not moved.
-/
import proofs.«176153_j4715874091025_1_alg».proof.Proof.Gen.KernelIdeal.Launch
import proofs.«176153_j4715874091025_1_alg».proof.Proof.Gen.KernelIdeal.Skeleton
import proofs.«176153_j4715874091025_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer access of a matrix are zero in both coordinates. -/
theorem hz1 : (![0, 0] : Fin 2 → Nat) = fun _ => 0 := by
  funext a; fin_cases a <;> rfl

section Region1
-- the buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the block of rows h) holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the block of averaged neighbour rows) holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the same block of rows h, read again as the residual) holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the self weight matrix) holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the self bias row) holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 (the neighbour weight matrix) holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6 (the neighbour bias row) holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7 (the scale row g) holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8 (the shift row be) holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S2000x128 := Rect.unit (s := S2000x128) ![0, 0] S2000x128.size inb_S2000x128_S2000x128_0_0
abbrev r1_1 : Rect S2000x128 := Rect.unit (s := S2000x128) ![0, 0] S2000x128.size inb_S2000x128_S2000x128_0_0
abbrev r1_2 : Rect S2000x128 := Rect.unit (s := S2000x128) ![0, 0] S2000x128.size inb_S2000x128_S2000x128_0_0
abbrev r1_3 : Rect S128x128 := Rect.unit (s := S128x128) ![0, 0] S128x128.size inb_S128x128_S128x128_0_0
abbrev r1_4 : Rect S1x128 := Rect.unit (s := S1x128) ![0, 0] S1x128.size inb_S1x128_S1x128_0_0
abbrev r1_5 : Rect S128x128 := Rect.unit (s := S128x128) ![0, 0] S128x128.size inb_S128x128_S128x128_0_0
abbrev r1_6 : Rect S1x128 := Rect.unit (s := S1x128) ![0, 0] S1x128.size inb_S1x128_S1x128_0_0
abbrev r1_7 : Rect S1x128 := Rect.unit (s := S1x128) ![0, 0] S1x128.size inb_S1x128_S1x128_0_0
abbrev r1_8 : Rect S1x128 := Rect.unit (s := S1x128) ![0, 0] S1x128.size inb_S1x128_S1x128_0_0
abbrev r1_9 : Rect S2000x128 := Rect.unit (s := S2000x128) ![0, 0] S2000x128.size inb_S2000x128_S2000x128_0_0

/-! ## What the body leaves in the output window's buffer -/

/-- The output buffer after the body, from the input blocks: its one store, whose payload is
    row by row max((v j - mu) · rsqrt(var + eps) · g j + be j, 0) + h j for v = (h·Ws + bs) + (a·Wn + bn), mu its mean and var the mean of its squared deviations, of the blocks as the body reads them. -/
def out1_9 (x0 : Vec F S2000x128 .f32) (x1 : Vec F S2000x128 .f32) (x2 : Vec F S2000x128 .f32) (x3 : Vec F S128x128 .f32) (x4 : Vec F S1x128 .f32) (x5 : Vec F S128x128 .f32) (x6 : Vec F S1x128 .f32) (x7 : Vec F S1x128 .f32) (x8 : Vec F S1x128 .f32) : Vec F S2000x128 .f32 :=
  View.canon [⟨r1_9, k1_pay1 (k1_pay2 (View.ld x0 r1_0) (View.ld x1 r1_1) (View.ld x3 r1_3) (View.ld x5 r1_5) (View.ld x4 r1_4) (View.ld x6 r1_6)) (View.ld x7 r1_7) (View.ld x8 r1_8) (View.ld x2 r1_2)⟩]

/-- The one store covers the whole buffer. -/
theorem cover1_9 (p0 : Vec F S2000x128 .f32) (y : S2000x128.Idx) :
    ∃ pc ∈ ([⟨r1_9, p0⟩] : List (View.Piece (Elt F) S2000x128 .f32)), y ∈ pc.1.set :=
  View.cover_of_tiled [⟨r1_9, p0⟩] S2000x128.size (by rfl) y

/-- Whole-buffer reads return the contents and the one whole-buffer store leaves its payload: the output
    block is the payload at the input blocks. -/
theorem out1_9_eq (x0 : Vec F S2000x128 .f32) (x1 : Vec F S2000x128 .f32) (x2 : Vec F S2000x128 .f32) (x3 : Vec F S128x128 .f32) (x4 : Vec F S1x128 .f32) (x5 : Vec F S128x128 .f32) (x6 : Vec F S1x128 .f32) (x7 : Vec F S1x128 .f32) (x8 : Vec F S1x128 .f32) :
    out1_9 x0 x1 x2 x3 x4 x5 x6 x7 x8 = k1_pay1 (k1_pay2 x0 x1 x3 x5 x4 x6) x7 x8 x2 := by
  unfold out1_9
  rw [View.canon_unit_zero hz1, View.ld_unit_zero hz1, View.ld_unit_zero hz1, View.ld_unit_zero hz1, View.ld_unit_zero hz1, View.ld_unit_zero hz1, View.ld_unit_zero hz1, View.ld_unit_zero hz1, View.ld_unit_zero hz1, View.ld_unit_zero hz1]

/-! ## The body's triple -/

set_option maxHeartbeats 1000000 in
/-- The body on whole staging buffers, the inputs' at contents x0 x1 x2 x3 x4 x5 x6 x7 x8 and the output's at anything,
    runs to the continuation holding the inputs' as they were and the output's at out1_9 of them. -/
theorem sound_kernel1 (c : Dev nD) (E : Set ℕ) (i : grid1.Coords)
    (arg1 : Memref sig .tc .vmem S2000x128 .f32) (harg1 : arg1.IsWhole)
    (arg2 : Memref sig .tc .vmem S2000x128 .f32) (harg2 : arg2.IsWhole)
    (arg3 : Memref sig .tc .vmem S2000x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S128x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S1x128 .f32) (harg9 : arg9.IsWhole)
    (arg10 : Memref sig .tc .vmem S2000x128 .f32) (harg10 : arg10.IsWhole)
    (x0 : Vec F S2000x128 .f32) (x1 : Vec F S2000x128 .f32) (x2 : Vec F S2000x128 .f32) (x3 : Vec F S128x128 .f32) (x4 : Vec F S1x128 .f32) (x5 : Vec F S128x128 .f32) (x6 : Vec F S1x128 .f32) (x7 : Vec F S1x128 .f32) (x8 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare (out1_9 x0 x1 x2 x3 x4 x5 x6 x7 x8)) -∗ K ⟨⟩))
      ⊢ wp frame (wpE (defs₀ (F := F)) Variants.none c none) E (cc1__gcn_ln_relu_residual_kernel i arg1 harg1 arg2 harg2 arg3 harg3 arg4 harg4 arg5 harg5 arg6 harg6 arg7 harg7 arg8 harg8 arg9 harg9 arg10 harg10) K := by
  simp only [cc1__gcn_ln_relu_residual_kernel_eq_skeleton]; unfold cc1__gcn_ln_relu_residual_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The pipeline's proof data -/

/-- The proof data of region 1 on core c: the arrays as the region finds them; after the body at point t
    each input's buffer at its block and the output's at out1_9 of the input blocks; nothing owed; the array that windows 0 and 2 both read is held in two halves, the left half for window 0 and the right half for window 2, every other array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q w := match w with
    | ⟨0, _⟩ => fullShare.left
    | ⟨1, _⟩ => fullShare
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) :
    (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' buffers hold their blocks, so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Body

end
-- ==== Proof.Body2.lean ====
/-
  Region 2 (the last layer), at a generic point of its grid of 25 row blocks.

  The body reads eight staging buffers whole — a block h of 2000 rows of 128 entries, the block a of their
  averaged neighbour rows, the weight matrices Ws and Wn (128 by 128) and the rows bs, bn, g, be of 128
  entries — and overwrites the ninth, the output block, with one whole-buffer store: row by row, the sum
  v = (h·Ws + bs) + (a·Wn + bn) is formed and, with mu the row's mean and var the mean of the squared deviations, entry j of the sum v becomes
  (v j - mu) · rsqrt(var + eps) · g j + be j.
  Reading a buffer whole returns its contents, and one whole-buffer store leaves exactly its payload, so
  the output block after the body is the payload evaluated at the eight input blocks (out2_8_eq). Every
  window's block at a point is read off its array as the region finds it; an input window holds its block
  at every point whether or not it was fetched there, because an unfetched window's block index has not moved.
-/
import proofs.«176153_j4715874091025_1_alg».proof.Proof.Gen.KernelIdeal.Launch
import proofs.«176153_j4715874091025_1_alg».proof.Proof.Gen.KernelIdeal.Skeleton
import proofs.«176153_j4715874091025_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer access of a matrix are zero in both coordinates. -/
theorem hz2 : (![0, 0] : Fin 2 → Nat) = fun _ => 0 := by
  funext a; fin_cases a <;> rfl

section Region2
-- the buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the block of rows h) holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the block of averaged neighbour rows) holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the self weight matrix) holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the self bias row) holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (the neighbour weight matrix) holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5 (the neighbour bias row) holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6 (the scale row g) holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7 (the shift row be) holds its block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S2000x128 := Rect.unit (s := S2000x128) ![0, 0] S2000x128.size inb_S2000x128_S2000x128_0_0
abbrev r2_1 : Rect S2000x128 := Rect.unit (s := S2000x128) ![0, 0] S2000x128.size inb_S2000x128_S2000x128_0_0
abbrev r2_2 : Rect S128x128 := Rect.unit (s := S128x128) ![0, 0] S128x128.size inb_S128x128_S128x128_0_0
abbrev r2_3 : Rect S1x128 := Rect.unit (s := S1x128) ![0, 0] S1x128.size inb_S1x128_S1x128_0_0
abbrev r2_4 : Rect S128x128 := Rect.unit (s := S128x128) ![0, 0] S128x128.size inb_S128x128_S128x128_0_0
abbrev r2_5 : Rect S1x128 := Rect.unit (s := S1x128) ![0, 0] S1x128.size inb_S1x128_S1x128_0_0
abbrev r2_6 : Rect S1x128 := Rect.unit (s := S1x128) ![0, 0] S1x128.size inb_S1x128_S1x128_0_0
abbrev r2_7 : Rect S1x128 := Rect.unit (s := S1x128) ![0, 0] S1x128.size inb_S1x128_S1x128_0_0
abbrev r2_8 : Rect S2000x128 := Rect.unit (s := S2000x128) ![0, 0] S2000x128.size inb_S2000x128_S2000x128_0_0

/-! ## What the body leaves in the output window's buffer -/

/-- The output buffer after the body, from the input blocks: its one store, whose payload is
    row by row (v j - mu) · rsqrt(var + eps) · g j + be j for v = (h·Ws + bs) + (a·Wn + bn), mu its mean and var the mean of its squared deviations, of the blocks as the body reads them. -/
def out2_8 (x0 : Vec F S2000x128 .f32) (x1 : Vec F S2000x128 .f32) (x2 : Vec F S128x128 .f32) (x3 : Vec F S1x128 .f32) (x4 : Vec F S128x128 .f32) (x5 : Vec F S1x128 .f32) (x6 : Vec F S1x128 .f32) (x7 : Vec F S1x128 .f32) : Vec F S2000x128 .f32 :=
  View.canon [⟨r2_8, k2_pay1 (k2_pay2 (View.ld x0 r2_0) (View.ld x1 r2_1) (View.ld x2 r2_2) (View.ld x4 r2_4) (View.ld x3 r2_3) (View.ld x5 r2_5)) (View.ld x6 r2_6) (View.ld x7 r2_7)⟩]

/-- The one store covers the whole buffer. -/
theorem cover2_8 (p0 : Vec F S2000x128 .f32) (y : S2000x128.Idx) :
    ∃ pc ∈ ([⟨r2_8, p0⟩] : List (View.Piece (Elt F) S2000x128 .f32)), y ∈ pc.1.set :=
  View.cover_of_tiled [⟨r2_8, p0⟩] S2000x128.size (by rfl) y

/-- Whole-buffer reads return the contents and the one whole-buffer store leaves its payload: the output
    block is the payload at the input blocks. -/
theorem out2_8_eq (x0 : Vec F S2000x128 .f32) (x1 : Vec F S2000x128 .f32) (x2 : Vec F S128x128 .f32) (x3 : Vec F S1x128 .f32) (x4 : Vec F S128x128 .f32) (x5 : Vec F S1x128 .f32) (x6 : Vec F S1x128 .f32) (x7 : Vec F S1x128 .f32) :
    out2_8 x0 x1 x2 x3 x4 x5 x6 x7 = k2_pay1 (k2_pay2 x0 x1 x2 x4 x3 x5) x6 x7 := by
  unfold out2_8
  rw [View.canon_unit_zero hz2, View.ld_unit_zero hz2, View.ld_unit_zero hz2, View.ld_unit_zero hz2, View.ld_unit_zero hz2, View.ld_unit_zero hz2, View.ld_unit_zero hz2, View.ld_unit_zero hz2, View.ld_unit_zero hz2]

/-! ## The body's triple -/

set_option maxHeartbeats 1000000 in
/-- The body on whole staging buffers, the inputs' at contents x0 x1 x2 x3 x4 x5 x6 x7 and the output's at anything,
    runs to the continuation holding the inputs' as they were and the output's at out2_8 of them. -/
theorem sound_kernel2 (c : Dev nD) (E : Set ℕ) (i : grid2.Coords)
    (arg1 : Memref sig .tc .vmem S2000x128 .f32) (harg1 : arg1.IsWhole)
    (arg2 : Memref sig .tc .vmem S2000x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S2000x128 .f32) (harg9 : arg9.IsWhole)
    (x0 : Vec F S2000x128 .f32) (x1 : Vec F S2000x128 .f32) (x2 : Vec F S128x128 .f32) (x3 : Vec F S1x128 .f32) (x4 : Vec F S128x128 .f32) (x5 : Vec F S1x128 .f32) (x6 : Vec F S1x128 .f32) (x7 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (out2_8 x0 x1 x2 x3 x4 x5 x6 x7)) -∗ K ⟨⟩))
      ⊢ wp frame (wpE (defs₀ (F := F)) Variants.none c none) E (cc2__gcn_ln_kernel i arg1 harg1 arg2 harg2 arg3 harg3 arg4 harg4 arg5 harg5 arg6 harg6 arg7 harg7 arg8 harg8 arg9 harg9) K := by
  simp only [cc2__gcn_ln_kernel_eq_skeleton]; unfold cc2__gcn_ln_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-! ## The pipeline's proof data -/

/-- The proof data of region 2 on core c: the arrays as the region finds them; after the body at point t
    each input's buffer at its block and the output's at out2_8 of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) :
    (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' buffers hold their blocks, so the body's triple applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Body

end
-- ==== Proof.Run.lean ====
/-
  The whole run of @main, region by region.

  @main is: a stretch of host operations (the in-degree of every node, its clamped reciprocal, the
  bias as a row), the input projection over 25 blocks of 2000 nodes, a stretch that aggregates the
  neighbours' rows (gather by source, scatter-add by target, times the reciprocal), the first layer
  over the same 25 blocks, the same aggregation of the first layer's rows, and the last layer.

  Between two items every unscoped buffer of the TensorCore is held whole at known contents: the
  launch memory, then the host operations' results, then, after a call, the same contents with the
  call's output array replaced by what its 25 write-backs leave. Each call enters with its windows'
  arrays split out of those buffers and leaves with them put back; the first layer reads the node
  features through two windows, so that one buffer is split by halves of the full share between
  them. The last valuation gives every argument array as launched and the result array at what the
  last call's write-backs leave.
-/
import proofs.«176153_j4715874091025_1_alg».proof.Proof.Gen.KernelIdeal.Launch
import proofs.«176153_j4715874091025_1_alg».proof.Proof.Gen.KernelIdeal.Skeleton
import proofs.«176153_j4715874091025_1_alg».proof.Proof.Gen.KernelIdeal.Points
import proofs.«176153_j4715874091025_1_alg».proof.Proof.Gen.KernelIdeal.Regions
import proofs.«176153_j4715874091025_1_alg».proof.Proof.Shared1
import proofs.«176153_j4715874091025_1_alg».proof.Proof.Body0
import proofs.«176153_j4715874091025_1_alg».proof.Proof.Body1
import proofs.«176153_j4715874091025_1_alg».proof.Proof.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the TensorCore's buffers a call is entered at. -/
abbrev Entry (F : FTy → Type) [FloatOps F] : Type := (c : Dev nD) → (b : Ref sig .tc) → Buf (Elt F) ((c : Thread nD τ).loc b)

/-! ## The buffer contents at each boundary -/

/-- At launch. -/
abbrev W0 : Dev nD → Valuation τ sig (Elt F) := fun c b => m ((c : Dev nD), b)
/-- After the first host stretch: the input projection's entry. -/
abbrev W1 : Dev nD → Valuation τ sig (Elt F) := fun c => StableHlo.after hostOps0 (W0 m c)
abbrev Vt1 : Entry F := fun c b => W1 m c b
/-- After the input projection: its output array at what the 25 write-backs leave. -/
def W2 (c : Dev nD) : Valuation τ sig (Elt F) :=
  Function.update (W1 m c) (Proc.devRef .tc main_v14) ((dat0 (Vt1 m) c).arrAt 3 cfg0.N)
abbrev Vt2 : Entry F := fun c b => W2 m c b
/-- After the first aggregation: the first layer's entry. -/
abbrev W3 : Dev nD → Valuation τ sig (Elt F) := fun c => StableHlo.after hostOps1 (W2 m c)
abbrev Vt3 : Entry F := fun c b => W3 m c b
/-- After the first layer. -/
def W4 (c : Dev nD) : Valuation τ sig (Elt F) :=
  Function.update (W3 m c) (Proc.devRef .tc main_v31) ((dat1 (Vt3 m) c).arrAt 9 cfg1.N)
abbrev Vt4 : Entry F := fun c b => W4 m c b
/-- After the second aggregation: the last layer's entry. -/
abbrev W5 : Dev nD → Valuation τ sig (Elt F) := fun c => StableHlo.after hostOps2 (W4 m c)
abbrev Vt5 : Entry F := fun c b => W5 m c b
/-- After the last layer: the end. -/
def W6 (c : Dev nD) : Valuation τ sig (Elt F) :=
  Function.update (W5 m c) (Proc.devRef .tc main_v48) ((dat2 (Vt5 m) c).arrAt 8 cfg2.N)
abbrev Vt6 : Entry F := fun c b => W6 m c b

theorem W2_out (c : Dev nD) : W2 m c (Proc.devRef .tc main_v14) = (dat0 (Vt1 m) c).arrAt 3 cfg0.N := by
  unfold W2; exact Function.update_self _ _ _
theorem W2_of_ne (c : Dev nD) (b : Ref sig .tc) (hb : b ≠ main_v14) : W2 m c (Proc.devRef .tc b) = W1 m c (Proc.devRef .tc b) := by
  unfold W2; exact Function.update_of_ne (StableHlo.devRef_ne_of_ne hb) _ _
theorem W4_out (c : Dev nD) : W4 m c (Proc.devRef .tc main_v31) = (dat1 (Vt3 m) c).arrAt 9 cfg1.N := by
  unfold W4; exact Function.update_self _ _ _
theorem W4_of_ne (c : Dev nD) (b : Ref sig .tc) (hb : b ≠ main_v31) : W4 m c (Proc.devRef .tc b) = W3 m c (Proc.devRef .tc b) := by
  unfold W4; exact Function.update_of_ne (StableHlo.devRef_ne_of_ne hb) _ _
theorem W6_out (c : Dev nD) : W6 m c (Proc.devRef .tc main_v48) = (dat2 (Vt5 m) c).arrAt 8 cfg2.N := by
  unfold W6; exact Function.update_self _ _ _
theorem W6_of_ne (c : Dev nD) (b : Ref sig .tc) (hb : b ≠ main_v48) : W6 m c (Proc.devRef .tc b) = W5 m c (Proc.devRef .tc b) := by
  unfold W6; exact Function.update_of_ne (StableHlo.devRef_ne_of_ne hb) _ _

/-! ### At a call's exit each of its arrays holds what the pipeline leaves, every other buffer what it held at entry -/

theorem hF0 (c : Dev nD) : ∀ w : Fin cfg0.W, (dat0 (Vt1 m) c).arrAt w cfg0.N = Vt2 m c (Pipeline.arrRef spec0 w)
  | ⟨0, _⟩ => ((dat0 (Vt1 m) c).arrAt_in 0 rfl _).trans ((A_eq0 (Vt1 m) c 0).trans (W2_of_ne m c _ (by decide)).symm)
  | ⟨1, _⟩ => ((dat0 (Vt1 m) c).arrAt_in 1 rfl _).trans ((A_eq0 (Vt1 m) c 1).trans (W2_of_ne m c _ (by decide)).symm)
  | ⟨2, _⟩ => ((dat0 (Vt1 m) c).arrAt_in 2 rfl _).trans ((A_eq0 (Vt1 m) c 2).trans (W2_of_ne m c _ (by decide)).symm)
  | ⟨3, _⟩ => (W2_out m c).symm
theorem hrest0 (c : Dev nD) : ∀ b, b ∉ Finset.univ.image (Pipeline.arrRef spec0) → Vt2 m c b = Vt1 m c b :=
  fun b hb => W2_of_ne m c b fun e => hb (Finset.mem_image.mpr ⟨3, Finset.mem_univ _, e.symm⟩)

set_option maxHeartbeats 4000000 in
theorem hF1 (c : Dev nD) : ∀ w : Fin cfg1.W, (dat1 (Vt3 m) c).arrAt w cfg1.N = Vt4 m c (Pipeline.arrRef spec1 w)
  | ⟨0, _⟩ => ((dat1 (Vt3 m) c).arrAt_in 0 rfl _).trans ((A_eq1 (Vt3 m) c 0).trans (W4_of_ne m c (Pipeline.arrRef spec1 0) (by decide)).symm)
  | ⟨1, _⟩ => ((dat1 (Vt3 m) c).arrAt_in 1 rfl _).trans ((A_eq1 (Vt3 m) c 1).trans (W4_of_ne m c (Pipeline.arrRef spec1 1) (by decide)).symm)
  | ⟨2, _⟩ => ((dat1 (Vt3 m) c).arrAt_in 2 rfl _).trans ((A_eq1 (Vt3 m) c 2).trans (W4_of_ne m c (Pipeline.arrRef spec1 2) (by decide)).symm)
  | ⟨3, _⟩ => ((dat1 (Vt3 m) c).arrAt_in 3 rfl _).trans ((A_eq1 (Vt3 m) c 3).trans (W4_of_ne m c (Pipeline.arrRef spec1 3) (by decide)).symm)
  | ⟨4, _⟩ => ((dat1 (Vt3 m) c).arrAt_in 4 rfl _).trans ((A_eq1 (Vt3 m) c 4).trans (W4_of_ne m c (Pipeline.arrRef spec1 4) (by decide)).symm)
  | ⟨5, _⟩ => ((dat1 (Vt3 m) c).arrAt_in 5 rfl _).trans ((A_eq1 (Vt3 m) c 5).trans (W4_of_ne m c (Pipeline.arrRef spec1 5) (by decide)).symm)
  | ⟨6, _⟩ => ((dat1 (Vt3 m) c).arrAt_in 6 rfl _).trans ((A_eq1 (Vt3 m) c 6).trans (W4_of_ne m c (Pipeline.arrRef spec1 6) (by decide)).symm)
  | ⟨7, _⟩ => ((dat1 (Vt3 m) c).arrAt_in 7 rfl _).trans ((A_eq1 (Vt3 m) c 7).trans (W4_of_ne m c (Pipeline.arrRef spec1 7) (by decide)).symm)
  | ⟨8, _⟩ => ((dat1 (Vt3 m) c).arrAt_in 8 rfl _).trans ((A_eq1 (Vt3 m) c 8).trans (W4_of_ne m c (Pipeline.arrRef spec1 8) (by decide)).symm)
  | ⟨9, _⟩ => (W4_out m c).symm
theorem hrest1 (c : Dev nD) : ∀ b, b ∉ Finset.univ.image (Pipeline.arrRef spec1) → Vt4 m c b = Vt3 m c b :=
  fun b hb => W4_of_ne m c b fun e => hb (Finset.mem_image.mpr ⟨9, Finset.mem_univ _, e.symm⟩)

set_option maxHeartbeats 4000000 in
theorem hF2 (c : Dev nD) : ∀ w : Fin cfg2.W, (dat2 (Vt5 m) c).arrAt w cfg2.N = Vt6 m c (Pipeline.arrRef spec2 w)
  | ⟨0, _⟩ => ((dat2 (Vt5 m) c).arrAt_in 0 rfl _).trans ((A_eq2 (Vt5 m) c 0).trans (W6_of_ne m c (Pipeline.arrRef spec2 0) (by decide)).symm)
  | ⟨1, _⟩ => ((dat2 (Vt5 m) c).arrAt_in 1 rfl _).trans ((A_eq2 (Vt5 m) c 1).trans (W6_of_ne m c (Pipeline.arrRef spec2 1) (by decide)).symm)
  | ⟨2, _⟩ => ((dat2 (Vt5 m) c).arrAt_in 2 rfl _).trans ((A_eq2 (Vt5 m) c 2).trans (W6_of_ne m c (Pipeline.arrRef spec2 2) (by decide)).symm)
  | ⟨3, _⟩ => ((dat2 (Vt5 m) c).arrAt_in 3 rfl _).trans ((A_eq2 (Vt5 m) c 3).trans (W6_of_ne m c (Pipeline.arrRef spec2 3) (by decide)).symm)
  | ⟨4, _⟩ => ((dat2 (Vt5 m) c).arrAt_in 4 rfl _).trans ((A_eq2 (Vt5 m) c 4).trans (W6_of_ne m c (Pipeline.arrRef spec2 4) (by decide)).symm)
  | ⟨5, _⟩ => ((dat2 (Vt5 m) c).arrAt_in 5 rfl _).trans ((A_eq2 (Vt5 m) c 5).trans (W6_of_ne m c (Pipeline.arrRef spec2 5) (by decide)).symm)
  | ⟨6, _⟩ => ((dat2 (Vt5 m) c).arrAt_in 6 rfl _).trans ((A_eq2 (Vt5 m) c 6).trans (W6_of_ne m c (Pipeline.arrRef spec2 6) (by decide)).symm)
  | ⟨7, _⟩ => ((dat2 (Vt5 m) c).arrAt_in 7 rfl _).trans ((A_eq2 (Vt5 m) c 7).trans (W6_of_ne m c (Pipeline.arrRef spec2 7) (by decide)).symm)
  | ⟨8, _⟩ => (W6_out m c).symm
theorem hrest2 (c : Dev nD) : ∀ b, b ∉ Finset.univ.image (Pipeline.arrRef spec2) → Vt6 m c b = Vt5 m c b :=
  fun b hb => W6_of_ne m c b fun e => hb (Finset.mem_image.mpr ⟨8, Finset.mem_univ _, e.symm⟩)

/-! ## The proof data family and the thread state -/

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (Vt1 m) c
  | ⟨1, _⟩ => fun c => dat1 (Vt3 m) c
  | ⟨2, _⟩ => fun c => dat2 (Vt5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W6 m c) ∗ ∃ r, prngReg c r)

/-! ## The calls as segments -/

set_option backward.isDefEq.respectTransparency.types false in
/-- Call 0: entered from every unscoped buffer at the contents before it, left at the contents after it. Its arrays are
    split out of the unscoped buffers and put back with the output array at what the write-backs leave; the generator
    register goes into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vt1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vt1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vt1 m c) (Vt2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The middle call's shares: the left and right halves on the two windows over the node features, full elsewhere. -/
theorem q1_rest (V : Entry F) (c : Dev nD) : ∀ w : Fin cfg1.W, w ≠ 0 → w ≠ 2 → (dat1 V c).q w = fullShare
  | ⟨0, _⟩ => fun h _ => absurd rfl h
  | ⟨1, _⟩ => fun _ _ => rfl
  | ⟨2, _⟩ => fun _ h => absurd rfl h
  | ⟨3, _⟩ => fun _ _ => rfl
  | ⟨4, _⟩ => fun _ _ => rfl
  | ⟨5, _⟩ => fun _ _ => rfl
  | ⟨6, _⟩ => fun _ _ => rfl
  | ⟨7, _⟩ => fun _ _ => rfl
  | ⟨8, _⟩ => fun _ _ => rfl
  | ⟨9, _⟩ => fun _ _ => rfl

set_option backward.isDefEq.respectTransparency.types false in
/-- Call 1 (the first layer): as the others, except that two of its windows read one array. The nine distinct buffers behind
    its ten windows are split out of the unscoped buffers, the node features by halves between the two windows, and joined
    again at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vt3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (Vt3 m c)
  hentry c := by
    rw [Pipeline.ownSems0_none]
    have hsplit : (unscopedBufs c (Vt3 m c) : sProp 𝕄)
        ⊢ iprop((pdats m 1 c).arrays ((pdats m 1 c).arrAt · 0) ∗ Pipeline.unscopedRest spec1 c (Vt3 m c)) := by
      rw [Pipeline.unscopedBufs_split₀ (p := 1) cfgs winFacts₀1.arr_unscoped c (Vt3 m c)]
      refine sep_mono ?_ .rfl
      rw [show ((pdats m 1 c).arrAt · 0) = fun w => Vt3 m c (Pipeline.arrRef spec1 w) from funext (A_eq1 (Vt3 m) c)]
      exact Shared.arrays_of_arrBufs1 c (pdats m 1 c) rfl rfl (q1_rest (Vt3 m) c) (Vt3 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Vt3 m c))
        ⊢ (unscopedBufs c (Vt4 m c) : sProp 𝕄) := by
      rw [Pipeline.unscopedBufs_split₀ (p := 1) cfgs winFacts₀1.arr_unscoped c (Vt4 m c)]
      refine sep_mono ?_ (Entails.of_eq ?_)
      · rw [show ((pdats m 1 c).arrAt · cfg1.N) = fun w => Vt4 m c (Pipeline.arrRef spec1 w) from funext (hF1 m c)]
        exact Shared.arrBufs_of_arrays1 c (pdats m 1 c) rfl rfl (q1_rest (Vt3 m) c) (Vt4 m c)
      · unfold Pipeline.unscopedRest
        exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2: entered from every unscoped buffer at the contents before it, left at the contents after it. Its arrays are
    split out of the unscoped buffers and put back with the output array at what the write-backs leave; the generator
    register goes into the invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vt5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (Vt5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vt5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vt5 m c) (Vt6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six items in order. -/
abbrev segsW : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
/-- @main is the run of the segments. -/
theorem main_run (c : Dev nD) : main (F := F) c = Pipeline.Seg.run (segsW m) := (main_chain c).trans (by chain_rfl)

set_option backward.isDefEq.respectTransparency.types false in
/-- THE RUN: from any memory with zero counters every weakly fair execution of @main terminates, nothing faulting, and in
    every final state each unscoped buffer of the TensorCore holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segsW m)
    (fun c Q => by rw [main_run m c])
    (by simp only [segsW, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c =>
      (show iprop(StableHlo.held (c : Thread nD τ) (Pipeline.ucRefs τ sig) (W6 m c) ∗ R c)
          ⊢ (iprop(Tₙ m c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-! ## What the last boundary holds -/

/-- A buffer no host stretch writes and no call's output replaces holds its launch contents at the end. -/
theorem W6_kept (c : Dev nD) (r : Ref sig .tc) (h0 : r ∉ hostOps0_W) (h1 : r ∉ hostOps1_W) (h2 : r ∉ hostOps2_W)
    (h14 : r ≠ main_v14) (h31 : r ≠ main_v31) (h48 : r ≠ main_v48) :
    W6 m c (Proc.devRef .tc r) = m ((c : Thread nD τ).loc r) :=
  (W6_of_ne m c r h48).trans <| (StableHlo.after_of_writes_sub hostOps2 _ hostOps2_writes h2).trans <|
    (W4_of_ne m c r h31).trans <| (StableHlo.after_of_writes_sub hostOps1 _ hostOps1_writes h1).trans <|
    (W2_of_ne m c r h14).trans <| (StableHlo.after_of_writes_sub hostOps0 _ hostOps0_writes h0).trans rfl

end Cert.KernelIdeal.Whole

end
-- ==== Proof.Shared1K.lean ====
/-
  The middle call hands ONE array (the node features h) to two of its input windows: the rows it
  multiplies and the rows it adds back as the residual. The pipeline holds each window's array at a
  share of its own, so the one buffer behind the two windows is held by halves: the left half of the
  full share for the first window, the right half for the third, and the two halves are exactly the
  full share. Every other window has an array of its own at the full share.

  This file proves that the nine distinct buffers behind the ten windows, each whole at the full
  share, ARE the ten windows' arrays at those shares (in both directions), for any proof data with
  that choice of shares and any contents that agree window by window.
-/
import proofs.«176153_j4715874091025_1_alg».proof.Proof.Gen.Kernel.Launch
import Idealize.ShloMosaic.Lib.Pipeline.Frame
import Idealize.ShloMosaic.Lib.Pipeline.Regions

noncomputable section

namespace Cert.Kernel.Shared

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Kernel Cert.Kernel.Gen

variable {F : FTy → Type} [FloatOps F]

local notation "𝕄" => MT nD τ sig Unit (Elt F) ℕ (UR sig nD τ) ℕ

theorem image_arrRef1 : (Finset.univ.image (Pipeline.arrRef spec1) : Finset (Ref sig .tc))
    = ([main_v14, main_v26, main_arg4, main_v27, main_arg6, main_v28, main_v29, main_v30, main_v31] : List (Ref sig .tc)).toFinset := by
  decide

variable (c : Dev nD) (dat : Dat τ (Elt F) Unit ℕ (UR sig nD τ) ℕ cfg1 c)

theorem arrBufs1_eq (V : (b : Ref sig .tc) → Buf (Elt F) ((c.tc : Thread nD τ).loc b)) :
    (Pipeline.arrBufs spec1 c V : sProp 𝕄)
      = iprop((((c.tc : Thread nD τ).loc main_v14) ↦{fullShare} V main_v14) ∗ (((c.tc : Thread nD τ).loc main_v26) ↦{fullShare} V main_v26)
          ∗ (((c.tc : Thread nD τ).loc main_arg4) ↦{fullShare} V main_arg4) ∗ (((c.tc : Thread nD τ).loc main_v27) ↦{fullShare} V main_v27)
          ∗ (((c.tc : Thread nD τ).loc main_arg6) ↦{fullShare} V main_arg6) ∗ (((c.tc : Thread nD τ).loc main_v28) ↦{fullShare} V main_v28)
          ∗ (((c.tc : Thread nD τ).loc main_v29) ↦{fullShare} V main_v29) ∗ (((c.tc : Thread nD τ).loc main_v30) ↦{fullShare} V main_v30)
          ∗ (((c.tc : Thread nD τ).loc main_v31) ↦{fullShare} V main_v31)) := by
  unfold Pipeline.arrBufs
  exact bigSep_eq_bigSepL_of_eq _ image_arrRef1 (by decide) _

/-- Each window's share: the halves for the two windows on the node features, the full share elsewhere. -/
theorem share1 (hq0 : dat.q 0 = fullShare.left) (hq2 : dat.q 2 = fullShare.right) (hq : ∀ w, w ≠ 0 → w ≠ 2 → dat.q w = fullShare) :
    dat.share 0 = fullShare.left ∧ dat.share 1 = fullShare ∧ dat.share 2 = fullShare.right ∧ dat.share 3 = fullShare ∧ dat.share 4 = fullShare
      ∧ dat.share 5 = fullShare ∧ dat.share 6 = fullShare ∧ dat.share 7 = fullShare ∧ dat.share 8 = fullShare ∧ dat.share 9 = fullShare := by
  have s (w : Fin cfg1.W) (h : (cfg1.win w).isOut = false) : dat.share w = dat.q w := by
    unfold Dat.share; rw [h]; rfl
  have s9 : dat.share 9 = fullShare := by
    unfold Dat.share; rw [show (cfg1.win 9).isOut = true from rfl]; rfl
  exact ⟨(s 0 rfl).trans hq0, (s 1 rfl).trans (hq 1 (by decide) (by decide)), (s 2 rfl).trans hq2, (s 3 rfl).trans (hq 3 (by decide) (by decide)),
    (s 4 rfl).trans (hq 4 (by decide) (by decide)), (s 5 rfl).trans (hq 5 (by decide) (by decide)), (s 6 rfl).trans (hq 6 (by decide) (by decide)),
    (s 7 rfl).trans (hq 7 (by decide) (by decide)), (s 8 rfl).trans (hq 8 (by decide) (by decide)), s9⟩

set_option maxHeartbeats 1000000 in
/-- The ten windows' arrays at contents read off V, window by window, as a chain over the buffers. -/
theorem arrays1_eq (hq0 : dat.q 0 = fullShare.left) (hq2 : dat.q 2 = fullShare.right) (hq : ∀ w, w ≠ 0 → w ≠ 2 → dat.q w = fullShare)
    (V : (b : Ref sig .tc) → Buf (Elt F) ((c.tc : Thread nD τ).loc b)) :
    (dat.arrays (fun w => V (Pipeline.arrRef spec1 w)) : sProp 𝕄)
      = iprop((((c.tc : Thread nD τ).loc main_v14) ↦{fullShare.left} V main_v14) ∗ (((c.tc : Thread nD τ).loc main_v26) ↦{fullShare} V main_v26)
          ∗ (((c.tc : Thread nD τ).loc main_v14) ↦{fullShare.right} V main_v14) ∗ (((c.tc : Thread nD τ).loc main_arg4) ↦{fullShare} V main_arg4)
          ∗ (((c.tc : Thread nD τ).loc main_v27) ↦{fullShare} V main_v27) ∗ (((c.tc : Thread nD τ).loc main_arg6) ↦{fullShare} V main_arg6)
          ∗ (((c.tc : Thread nD τ).loc main_v28) ↦{fullShare} V main_v28) ∗ (((c.tc : Thread nD τ).loc main_v29) ↦{fullShare} V main_v29)
          ∗ (((c.tc : Thread nD τ).loc main_v30) ↦{fullShare} V main_v30) ∗ (((c.tc : Thread nD τ).loc main_v31) ↦{fullShare} V main_v31)) := by
  obtain ⟨s0, s1, s2, s3, s4, s5, s6, s7, s8, s9⟩ := share1 c dat hq0 hq2 hq
  have h : (dat.arrays (fun w => V (Pipeline.arrRef spec1 w)) : sProp 𝕄)
      = bigSep Finset.univ fun w : Fin 10 => (((c.tc : Thread nD τ).loc (Pipeline.arrRef spec1 w)) ↦{dat.share w} V (Pipeline.arrRef spec1 w) : sProp 𝕄) := by
    unfold Dat.arrays
    exact bigSep_congr fun w _ => by rw [(arr_whole1 w).set_eq_univ]
  rw [h, bigSep_W1, s0, s1, s2, s3, s4, s5, s6, s7, s8, s9]

/-- Entry: the nine buffers at contents V make the ten windows' arrays at the contents read off V; the node features are
    split by halves between the two windows that read them. -/
theorem arrays_of_arrBufs1 (hq0 : dat.q 0 = fullShare.left) (hq2 : dat.q 2 = fullShare.right) (hq : ∀ w, w ≠ 0 → w ≠ 2 → dat.q w = fullShare)
    (V : (b : Ref sig .tc) → Buf (Elt F) ((c.tc : Thread nD τ).loc b)) :
    (Pipeline.arrBufs spec1 c V : sProp 𝕄) ⊢ dat.arrays (fun w => V (Pipeline.arrRef spec1 w)) := by
  rw [arrBufs1_eq, arrays1_eq c dat hq0 hq2 hq]
  have hs : ((((c.tc : Thread nD τ).loc main_v14) ↦{fullShare} V main_v14 : sProp 𝕄))
      ⊢ iprop((((c.tc : Thread nD τ).loc main_v14) ↦{fullShare.left} V main_v14) ∗ (((c.tc : Thread nD τ).loc main_v14) ↦{fullShare.right} V main_v14)) :=
    (pointsTo_share (PosShare.mem_left_op_right fullShare)).1
  iintro ⟨H14, H26, H4, H27, H6, H28, H29, H30, H31⟩
  ihave H := hs $$ H14
  icases H with ⟨Ha, Hb⟩
  isplitl [Ha]; · iexact Ha
  isplitl [H26]; · iexact H26
  isplitl [Hb]; · iexact Hb
  isplitl [H4]; · iexact H4
  isplitl [H27]; · iexact H27
  isplitl [H6]; · iexact H6
  isplitl [H28]; · iexact H28
  isplitl [H29]; · iexact H29
  isplitl [H30]; · iexact H30
  iexact H31

/-- Exit: the ten windows' arrays at the contents read off V' make the nine buffers at V'; the two halves of the node
    features, at equal contents, are the full share again. -/
theorem arrBufs_of_arrays1 (hq0 : dat.q 0 = fullShare.left) (hq2 : dat.q 2 = fullShare.right) (hq : ∀ w, w ≠ 0 → w ≠ 2 → dat.q w = fullShare)
    (V' : (b : Ref sig .tc) → Buf (Elt F) ((c.tc : Thread nD τ).loc b)) :
    (dat.arrays (fun w => V' (Pipeline.arrRef spec1 w)) : sProp 𝕄) ⊢ Pipeline.arrBufs spec1 c V' := by
  rw [arrBufs1_eq, arrays1_eq c dat hq0 hq2 hq]
  have hj : iprop((((c.tc : Thread nD τ).loc main_v14) ↦{fullShare.left} V' main_v14) ∗ (((c.tc : Thread nD τ).loc main_v14) ↦{fullShare.right} V' main_v14))
      ⊢ ((((c.tc : Thread nD τ).loc main_v14) ↦{fullShare} V' main_v14 : sProp 𝕄)) :=
    (pointsTo_share (PosShare.mem_left_op_right fullShare)).2
  iintro ⟨Ha, H26, Hb, H4, H27, H6, H28, H29, H30, H31⟩
  isplitl [Ha Hb]
  · iapply hj
    isplitl [Ha]; · iexact Ha
    iexact Hb
  isplitl [H26]; · iexact H26
  isplitl [H4]; · iexact H4
  isplitl [H27]; · iexact H27
  isplitl [H6]; · iexact H6
  isplitl [H28]; · iexact H28
  isplitl [H29]; · iexact H29
  isplitl [H30]; · iexact H30
  iexact H31

end Cert.Kernel.Shared

end
-- ==== Proof.BodyK0.lean ====
/-
  Region 0 (the input projection), at a generic point of its grid of 25 row blocks.

  The body reads three staging buffers whole — a block x of 2000 rows of 32 entries, the weight matrix W
  (32 by 128) and the bias b as one row of 128 — and overwrites the fourth, the output block of 2000 rows
  of 128 entries, with one whole-buffer store of max(x·W + b, 0). Reading a buffer whole returns its
  contents, and one whole-buffer store leaves exactly its payload, so the output block after the body is
  the payload evaluated at the three input blocks (out0_3_eq). Every window's block at a point is read off
  its array as the region finds it; an input window holds its block at every point whether or not it was
  fetched there, because an unfetched window's block index has not moved.
-/
import proofs.«176153_j4715874091025_1_alg».proof.Proof.Gen.Kernel.Launch
import proofs.«176153_j4715874091025_1_alg».proof.Proof.Gen.Kernel.Skeleton
import proofs.«176153_j4715874091025_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer access of a matrix are zero in both coordinates. -/
theorem hz0 : (![0, 0] : Fin 2 → Nat) = fun _ => 0 := by
  funext a; fin_cases a <;> rfl

section Region0
-- the buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the block of x) holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix) holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row) holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2000x32 := Rect.unit (s := S2000x32) ![0, 0] S2000x32.size inb_S2000x32_S2000x32_0_0
abbrev r0_1 : Rect S32x128 := Rect.unit (s := S32x128) ![0, 0] S32x128.size inb_S32x128_S32x128_0_0
abbrev r0_2 : Rect S1x128 := Rect.unit (s := S1x128) ![0, 0] S1x128.size inb_S1x128_S1x128_0_0
abbrev r0_3 : Rect S2000x128 := Rect.unit (s := S2000x128) ![0, 0] S2000x128.size inb_S2000x128_S2000x128_0_0

/-! ## What the body leaves in the output window's buffer -/

/-- The output buffer after the body, from the three input blocks: its one store, whose payload is
    max(x·W + b, 0) of the blocks as the body reads them. -/
def out0_3 (x0 : Vec F S2000x32 .f32) (x1 : Vec F S32x128 .f32) (x2 : Vec F S1x128 .f32) : Vec F S2000x128 .f32 :=
  View.canon [⟨r0_3, k0_pay1 (View.ld x0 r0_0) (View.ld x1 r0_1) (View.ld x2 r0_2)⟩]

/-- The one store covers the whole buffer. -/
theorem cover0_3 (p0 : Vec F S2000x128 .f32) (y : S2000x128.Idx) :
    ∃ pc ∈ ([⟨r0_3, p0⟩] : List (View.Piece (Elt F) S2000x128 .f32)), y ∈ pc.1.set :=
  View.cover_of_tiled [⟨r0_3, p0⟩] S2000x128.size (by rfl) y

/-- Whole-buffer reads return the contents and the one whole-buffer store leaves its payload: the output
    block is the payload at the input blocks. -/
theorem out0_3_eq (x0 : Vec F S2000x32 .f32) (x1 : Vec F S32x128 .f32) (x2 : Vec F S1x128 .f32) :
    out0_3 x0 x1 x2 = k0_pay1 x0 x1 x2 := by
  unfold out0_3
  rw [View.canon_unit_zero hz0, View.ld_unit_zero hz0, View.ld_unit_zero hz0, View.ld_unit_zero hz0]

/-! ## The body's triple -/

set_option maxHeartbeats 1000000 in
/-- The body on whole staging buffers, the inputs' at contents x0 x1 x2 and the output's at anything, runs
    to the continuation holding the inputs' as they were and the output's at out0_3 of them. -/
theorem sound_kernel0 (c : Dev nD) (E : Set ℕ) (i : grid0.Coords)
    (arg1 : Memref sig .tc .vmem S2000x32 .f32) (harg1 : arg1.IsWhole) (arg2 : Memref sig .tc .vmem S32x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x32 .f32) (x1 : Vec F S32x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__input_proj_kernel i arg1 harg1 arg2 harg2 arg3 harg3 arg4 harg4) K := by
  simp only [cc0__input_proj_kernel_eq_skeleton]; unfold cc0__input_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of region 0 on core c: the arrays as the region finds them; after the body at point t
    each input's buffer at its block and the output's at out0_3 of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Body

end
-- ==== Proof.BodyK1.lean ====
/-
  Region 1 (the first layer), at a generic point of its grid of 25 row blocks.

  The body reads nine staging buffers whole — a block h of 2000 rows of 128 entries, the block a of their
  averaged neighbour rows, the same block of h once more as the residual, the weight matrices Ws and Wn
  (128 by 128) and the rows bs, bn, g, be of 128 entries — and overwrites the tenth, the output block, with
  one whole-buffer store: row by row, v = (h·Ws + bs) + (a·Wn + bn) is formed and, with mu the row's mean and var the mean of the squared deviations, entry j of the sum v becomes
  (v j - mu) · rsqrt(var + eps) · g j + be j; the result is rectified and the residual row is added. Reading a buffer whole returns
  its contents, and one whole-buffer store leaves exactly its payload, so the output block after the body is
  the payload evaluated at the nine input blocks (out1_9_eq). Windows 0 and 2 read one array; their staging
  buffers are distinct, so the body's triple is unaffected, and the array itself is held as two halves of the
  full share, one per window. Every window's block at a point is read off its array as the region finds it;
  an input window holds its block at every point whether or not it was fetched there, because an unfetched
  window's block index has not moved.
-/
import proofs.«176153_j4715874091025_1_alg».proof.Proof.Gen.Kernel.Launch
import proofs.«176153_j4715874091025_1_alg».proof.Proof.Gen.Kernel.Skeleton
import proofs.«176153_j4715874091025_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer access of a matrix are zero in both coordinates. -/
theorem hz1 : (![0, 0] : Fin 2 → Nat) = fun _ => 0 := by
  funext a; fin_cases a <;> rfl

section Region1
-- the buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the block of rows h) holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the block of averaged neighbour rows) holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the same block of rows h, read again as the residual) holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the self weight matrix) holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the self bias row) holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 (the neighbour weight matrix) holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6 (the neighbour bias row) holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7 (the scale row g) holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8 (the shift row be) holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S2000x128 := Rect.unit (s := S2000x128) ![0, 0] S2000x128.size inb_S2000x128_S2000x128_0_0
abbrev r1_1 : Rect S2000x128 := Rect.unit (s := S2000x128) ![0, 0] S2000x128.size inb_S2000x128_S2000x128_0_0
abbrev r1_2 : Rect S2000x128 := Rect.unit (s := S2000x128) ![0, 0] S2000x128.size inb_S2000x128_S2000x128_0_0
abbrev r1_3 : Rect S128x128 := Rect.unit (s := S128x128) ![0, 0] S128x128.size inb_S128x128_S128x128_0_0
abbrev r1_4 : Rect S1x128 := Rect.unit (s := S1x128) ![0, 0] S1x128.size inb_S1x128_S1x128_0_0
abbrev r1_5 : Rect S128x128 := Rect.unit (s := S128x128) ![0, 0] S128x128.size inb_S128x128_S128x128_0_0
abbrev r1_6 : Rect S1x128 := Rect.unit (s := S1x128) ![0, 0] S1x128.size inb_S1x128_S1x128_0_0
abbrev r1_7 : Rect S1x128 := Rect.unit (s := S1x128) ![0, 0] S1x128.size inb_S1x128_S1x128_0_0
abbrev r1_8 : Rect S1x128 := Rect.unit (s := S1x128) ![0, 0] S1x128.size inb_S1x128_S1x128_0_0
abbrev r1_9 : Rect S2000x128 := Rect.unit (s := S2000x128) ![0, 0] S2000x128.size inb_S2000x128_S2000x128_0_0

/-! ## What the body leaves in the output window's buffer -/

/-- The output buffer after the body, from the input blocks: its one store, whose payload is
    row by row max((v j - mu) · rsqrt(var + eps) · g j + be j, 0) + h j for v = (h·Ws + bs) + (a·Wn + bn), mu its mean and var the mean of its squared deviations, of the blocks as the body reads them. -/
def out1_9 (x0 : Vec F S2000x128 .f32) (x1 : Vec F S2000x128 .f32) (x2 : Vec F S2000x128 .f32) (x3 : Vec F S128x128 .f32) (x4 : Vec F S1x128 .f32) (x5 : Vec F S128x128 .f32) (x6 : Vec F S1x128 .f32) (x7 : Vec F S1x128 .f32) (x8 : Vec F S1x128 .f32) : Vec F S2000x128 .f32 :=
  View.canon [⟨r1_9, k1_pay1 (k1_pay2 (View.ld x0 r1_0) (View.ld x1 r1_1) (View.ld x3 r1_3) (View.ld x5 r1_5) (View.ld x4 r1_4) (View.ld x6 r1_6)) (View.ld x7 r1_7) (View.ld x8 r1_8) (View.ld x2 r1_2)⟩]

/-- The one store covers the whole buffer. -/
theorem cover1_9 (p0 : Vec F S2000x128 .f32) (y : S2000x128.Idx) :
    ∃ pc ∈ ([⟨r1_9, p0⟩] : List (View.Piece (Elt F) S2000x128 .f32)), y ∈ pc.1.set :=
  View.cover_of_tiled [⟨r1_9, p0⟩] S2000x128.size (by rfl) y

/-- Whole-buffer reads return the contents and the one whole-buffer store leaves its payload: the output
    block is the payload at the input blocks. -/
theorem out1_9_eq (x0 : Vec F S2000x128 .f32) (x1 : Vec F S2000x128 .f32) (x2 : Vec F S2000x128 .f32) (x3 : Vec F S128x128 .f32) (x4 : Vec F S1x128 .f32) (x5 : Vec F S128x128 .f32) (x6 : Vec F S1x128 .f32) (x7 : Vec F S1x128 .f32) (x8 : Vec F S1x128 .f32) :
    out1_9 x0 x1 x2 x3 x4 x5 x6 x7 x8 = k1_pay1 (k1_pay2 x0 x1 x3 x5 x4 x6) x7 x8 x2 := by
  unfold out1_9
  rw [View.canon_unit_zero hz1, View.ld_unit_zero hz1, View.ld_unit_zero hz1, View.ld_unit_zero hz1, View.ld_unit_zero hz1, View.ld_unit_zero hz1, View.ld_unit_zero hz1, View.ld_unit_zero hz1, View.ld_unit_zero hz1, View.ld_unit_zero hz1]

/-! ## The body's triple -/

set_option maxHeartbeats 1000000 in
/-- The body on whole staging buffers, the inputs' at contents x0 x1 x2 x3 x4 x5 x6 x7 x8 and the output's at anything,
    runs to the continuation holding the inputs' as they were and the output's at out1_9 of them. -/
theorem sound_kernel1 (c : Dev nD) (E : Set ℕ) (i : grid1.Coords)
    (arg1 : Memref sig .tc .vmem S2000x128 .f32) (harg1 : arg1.IsWhole)
    (arg2 : Memref sig .tc .vmem S2000x128 .f32) (harg2 : arg2.IsWhole)
    (arg3 : Memref sig .tc .vmem S2000x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S128x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S1x128 .f32) (harg9 : arg9.IsWhole)
    (arg10 : Memref sig .tc .vmem S2000x128 .f32) (harg10 : arg10.IsWhole)
    (x0 : Vec F S2000x128 .f32) (x1 : Vec F S2000x128 .f32) (x2 : Vec F S2000x128 .f32) (x3 : Vec F S128x128 .f32) (x4 : Vec F S1x128 .f32) (x5 : Vec F S128x128 .f32) (x6 : Vec F S1x128 .f32) (x7 : Vec F S1x128 .f32) (x8 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare (out1_9 x0 x1 x2 x3 x4 x5 x6 x7 x8)) -∗ K ⟨⟩))
      ⊢ wp frame (wpE (defs₀ (F := F)) Variants.none c none) E (cc1__gcn_ln_relu_residual_kernel i arg1 harg1 arg2 harg2 arg3 harg3 arg4 harg4 arg5 harg5 arg6 harg6 arg7 harg7 arg8 harg8 arg9 harg9 arg10 harg10) K := by
  simp only [cc1__gcn_ln_relu_residual_kernel_eq_skeleton]; unfold cc1__gcn_ln_relu_residual_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The pipeline's proof data -/

/-- The proof data of region 1 on core c: the arrays as the region finds them; after the body at point t
    each input's buffer at its block and the output's at out1_9 of the input blocks; nothing owed; the array that windows 0 and 2 both read is held in two halves, the left half for window 0 and the right half for window 2, every other array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q w := match w with
    | ⟨0, _⟩ => fullShare.left
    | ⟨1, _⟩ => fullShare
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) :
    (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' buffers hold their blocks, so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Body

end
-- ==== Proof.BodyK2.lean ====
/-
  Region 2 (the last layer), at a generic point of its grid of 25 row blocks.

  The body reads eight staging buffers whole — a block h of 2000 rows of 128 entries, the block a of their
  averaged neighbour rows, the weight matrices Ws and Wn (128 by 128) and the rows bs, bn, g, be of 128
  entries — and overwrites the ninth, the output block, with one whole-buffer store: row by row, the sum
  v = (h·Ws + bs) + (a·Wn + bn) is formed and, with mu the row's mean and var the mean of the squared deviations, entry j of the sum v becomes
  (v j - mu) · rsqrt(var + eps) · g j + be j.
  Reading a buffer whole returns its contents, and one whole-buffer store leaves exactly its payload, so
  the output block after the body is the payload evaluated at the eight input blocks (out2_8_eq). Every
  window's block at a point is read off its array as the region finds it; an input window holds its block
  at every point whether or not it was fetched there, because an unfetched window's block index has not moved.
-/
import proofs.«176153_j4715874091025_1_alg».proof.Proof.Gen.Kernel.Launch
import proofs.«176153_j4715874091025_1_alg».proof.Proof.Gen.Kernel.Skeleton
import proofs.«176153_j4715874091025_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer access of a matrix are zero in both coordinates. -/
theorem hz2 : (![0, 0] : Fin 2 → Nat) = fun _ => 0 := by
  funext a; fin_cases a <;> rfl

section Region2
-- the buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the block of rows h) holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the block of averaged neighbour rows) holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the self weight matrix) holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the self bias row) holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (the neighbour weight matrix) holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5 (the neighbour bias row) holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6 (the scale row g) holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7 (the shift row be) holds its block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S2000x128 := Rect.unit (s := S2000x128) ![0, 0] S2000x128.size inb_S2000x128_S2000x128_0_0
abbrev r2_1 : Rect S2000x128 := Rect.unit (s := S2000x128) ![0, 0] S2000x128.size inb_S2000x128_S2000x128_0_0
abbrev r2_2 : Rect S128x128 := Rect.unit (s := S128x128) ![0, 0] S128x128.size inb_S128x128_S128x128_0_0
abbrev r2_3 : Rect S1x128 := Rect.unit (s := S1x128) ![0, 0] S1x128.size inb_S1x128_S1x128_0_0
abbrev r2_4 : Rect S128x128 := Rect.unit (s := S128x128) ![0, 0] S128x128.size inb_S128x128_S128x128_0_0
abbrev r2_5 : Rect S1x128 := Rect.unit (s := S1x128) ![0, 0] S1x128.size inb_S1x128_S1x128_0_0
abbrev r2_6 : Rect S1x128 := Rect.unit (s := S1x128) ![0, 0] S1x128.size inb_S1x128_S1x128_0_0
abbrev r2_7 : Rect S1x128 := Rect.unit (s := S1x128) ![0, 0] S1x128.size inb_S1x128_S1x128_0_0
abbrev r2_8 : Rect S2000x128 := Rect.unit (s := S2000x128) ![0, 0] S2000x128.size inb_S2000x128_S2000x128_0_0

/-! ## What the body leaves in the output window's buffer -/

/-- The output buffer after the body, from the input blocks: its one store, whose payload is
    row by row (v j - mu) · rsqrt(var + eps) · g j + be j for v = (h·Ws + bs) + (a·Wn + bn), mu its mean and var the mean of its squared deviations, of the blocks as the body reads them. -/
def out2_8 (x0 : Vec F S2000x128 .f32) (x1 : Vec F S2000x128 .f32) (x2 : Vec F S128x128 .f32) (x3 : Vec F S1x128 .f32) (x4 : Vec F S128x128 .f32) (x5 : Vec F S1x128 .f32) (x6 : Vec F S1x128 .f32) (x7 : Vec F S1x128 .f32) : Vec F S2000x128 .f32 :=
  View.canon [⟨r2_8, k2_pay1 (k2_pay2 (View.ld x0 r2_0) (View.ld x1 r2_1) (View.ld x2 r2_2) (View.ld x4 r2_4) (View.ld x3 r2_3) (View.ld x5 r2_5)) (View.ld x6 r2_6) (View.ld x7 r2_7)⟩]

/-- The one store covers the whole buffer. -/
theorem cover2_8 (p0 : Vec F S2000x128 .f32) (y : S2000x128.Idx) :
    ∃ pc ∈ ([⟨r2_8, p0⟩] : List (View.Piece (Elt F) S2000x128 .f32)), y ∈ pc.1.set :=
  View.cover_of_tiled [⟨r2_8, p0⟩] S2000x128.size (by rfl) y

/-- Whole-buffer reads return the contents and the one whole-buffer store leaves its payload: the output
    block is the payload at the input blocks. -/
theorem out2_8_eq (x0 : Vec F S2000x128 .f32) (x1 : Vec F S2000x128 .f32) (x2 : Vec F S128x128 .f32) (x3 : Vec F S1x128 .f32) (x4 : Vec F S128x128 .f32) (x5 : Vec F S1x128 .f32) (x6 : Vec F S1x128 .f32) (x7 : Vec F S1x128 .f32) :
    out2_8 x0 x1 x2 x3 x4 x5 x6 x7 = k2_pay1 (k2_pay2 x0 x1 x2 x4 x3 x5) x6 x7 := by
  unfold out2_8
  rw [View.canon_unit_zero hz2, View.ld_unit_zero hz2, View.ld_unit_zero hz2, View.ld_unit_zero hz2, View.ld_unit_zero hz2, View.ld_unit_zero hz2, View.ld_unit_zero hz2, View.ld_unit_zero hz2, View.ld_unit_zero hz2]

/-! ## The body's triple -/

set_option maxHeartbeats 1000000 in
/-- The body on whole staging buffers, the inputs' at contents x0 x1 x2 x3 x4 x5 x6 x7 and the output's at anything,
    runs to the continuation holding the inputs' as they were and the output's at out2_8 of them. -/
theorem sound_kernel2 (c : Dev nD) (E : Set ℕ) (i : grid2.Coords)
    (arg1 : Memref sig .tc .vmem S2000x128 .f32) (harg1 : arg1.IsWhole)
    (arg2 : Memref sig .tc .vmem S2000x128 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S2000x128 .f32) (harg9 : arg9.IsWhole)
    (x0 : Vec F S2000x128 .f32) (x1 : Vec F S2000x128 .f32) (x2 : Vec F S128x128 .f32) (x3 : Vec F S1x128 .f32) (x4 : Vec F S128x128 .f32) (x5 : Vec F S1x128 .f32) (x6 : Vec F S1x128 .f32) (x7 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (out2_8 x0 x1 x2 x3 x4 x5 x6 x7)) -∗ K ⟨⟩))
      ⊢ wp frame (wpE (defs₀ (F := F)) Variants.none c none) E (cc2__gcn_ln_kernel i arg1 harg1 arg2 harg2 arg3 harg3 arg4 harg4 arg5 harg5 arg6 harg6 arg7 harg7 arg8 harg8 arg9 harg9) K := by
  simp only [cc2__gcn_ln_kernel_eq_skeleton]; unfold cc2__gcn_ln_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-! ## The pipeline's proof data -/

/-- The proof data of region 2 on core c: the arrays as the region finds them; after the body at point t
    each input's buffer at its block and the output's at out2_8 of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) :
    (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' buffers hold their blocks, so the body's triple applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Body

end
-- ==== Proof.RunK.lean ====
/-
  The whole run of @main, region by region.

  @main is: a stretch of host operations (the in-degree of every node, its clamped reciprocal, the
  bias as a row), the input projection over 25 blocks of 2000 nodes, a stretch that aggregates the
  neighbours' rows (gather by source, scatter-add by target, times the reciprocal), the first layer
  over the same 25 blocks, the same aggregation of the first layer's rows, and the last layer.

  Between two items every unscoped buffer of the TensorCore is held whole at known contents: the
  launch memory, then the host operations' results, then, after a call, the same contents with the
  call's output array replaced by what its 25 write-backs leave. Each call enters with its windows'
  arrays split out of those buffers and leaves with them put back; the first layer reads the node
  features through two windows, so that one buffer is split by halves of the full share between
  them. The last valuation gives every argument array as launched and the result array at what the
  last call's write-backs leave.
-/
import proofs.«176153_j4715874091025_1_alg».proof.Proof.Gen.Kernel.Launch
import proofs.«176153_j4715874091025_1_alg».proof.Proof.Gen.Kernel.Skeleton
import proofs.«176153_j4715874091025_1_alg».proof.Proof.Gen.Kernel.Points
import proofs.«176153_j4715874091025_1_alg».proof.Proof.Gen.Kernel.Regions
import proofs.«176153_j4715874091025_1_alg».proof.Proof.Shared1K
import proofs.«176153_j4715874091025_1_alg».proof.Proof.BodyK0
import proofs.«176153_j4715874091025_1_alg».proof.Proof.BodyK1
import proofs.«176153_j4715874091025_1_alg».proof.Proof.BodyK2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen Cert.Kernel.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the TensorCore's buffers a call is entered at. -/
abbrev Entry (F : FTy → Type) [FloatOps F] : Type := (c : Dev nD) → (b : Ref sig .tc) → Buf (Elt F) ((c : Thread nD τ).loc b)

/-! ## The buffer contents at each boundary -/

/-- At launch. -/
abbrev W0 : Dev nD → Valuation τ sig (Elt F) := fun c b => m ((c : Dev nD), b)
/-- After the first host stretch: the input projection's entry. -/
abbrev W1 : Dev nD → Valuation τ sig (Elt F) := fun c => StableHlo.after hostOps0 (W0 m c)
abbrev Vt1 : Entry F := fun c b => W1 m c b
/-- After the input projection: its output array at what the 25 write-backs leave. -/
def W2 (c : Dev nD) : Valuation τ sig (Elt F) :=
  Function.update (W1 m c) (Proc.devRef .tc main_v14) ((dat0 (Vt1 m) c).arrAt 3 cfg0.N)
abbrev Vt2 : Entry F := fun c b => W2 m c b
/-- After the first aggregation: the first layer's entry. -/
abbrev W3 : Dev nD → Valuation τ sig (Elt F) := fun c => StableHlo.after hostOps1 (W2 m c)
abbrev Vt3 : Entry F := fun c b => W3 m c b
/-- After the first layer. -/
def W4 (c : Dev nD) : Valuation τ sig (Elt F) :=
  Function.update (W3 m c) (Proc.devRef .tc main_v31) ((dat1 (Vt3 m) c).arrAt 9 cfg1.N)
abbrev Vt4 : Entry F := fun c b => W4 m c b
/-- After the second aggregation: the last layer's entry. -/
abbrev W5 : Dev nD → Valuation τ sig (Elt F) := fun c => StableHlo.after hostOps2 (W4 m c)
abbrev Vt5 : Entry F := fun c b => W5 m c b
/-- After the last layer: the end. -/
def W6 (c : Dev nD) : Valuation τ sig (Elt F) :=
  Function.update (W5 m c) (Proc.devRef .tc main_v48) ((dat2 (Vt5 m) c).arrAt 8 cfg2.N)
abbrev Vt6 : Entry F := fun c b => W6 m c b

theorem W2_out (c : Dev nD) : W2 m c (Proc.devRef .tc main_v14) = (dat0 (Vt1 m) c).arrAt 3 cfg0.N := by
  unfold W2; exact Function.update_self _ _ _
theorem W2_of_ne (c : Dev nD) (b : Ref sig .tc) (hb : b ≠ main_v14) : W2 m c (Proc.devRef .tc b) = W1 m c (Proc.devRef .tc b) := by
  unfold W2; exact Function.update_of_ne (StableHlo.devRef_ne_of_ne hb) _ _
theorem W4_out (c : Dev nD) : W4 m c (Proc.devRef .tc main_v31) = (dat1 (Vt3 m) c).arrAt 9 cfg1.N := by
  unfold W4; exact Function.update_self _ _ _
theorem W4_of_ne (c : Dev nD) (b : Ref sig .tc) (hb : b ≠ main_v31) : W4 m c (Proc.devRef .tc b) = W3 m c (Proc.devRef .tc b) := by
  unfold W4; exact Function.update_of_ne (StableHlo.devRef_ne_of_ne hb) _ _
theorem W6_out (c : Dev nD) : W6 m c (Proc.devRef .tc main_v48) = (dat2 (Vt5 m) c).arrAt 8 cfg2.N := by
  unfold W6; exact Function.update_self _ _ _
theorem W6_of_ne (c : Dev nD) (b : Ref sig .tc) (hb : b ≠ main_v48) : W6 m c (Proc.devRef .tc b) = W5 m c (Proc.devRef .tc b) := by
  unfold W6; exact Function.update_of_ne (StableHlo.devRef_ne_of_ne hb) _ _

/-! ### At a call's exit each of its arrays holds what the pipeline leaves, every other buffer what it held at entry -/

theorem hF0 (c : Dev nD) : ∀ w : Fin cfg0.W, (dat0 (Vt1 m) c).arrAt w cfg0.N = Vt2 m c (Pipeline.arrRef spec0 w)
  | ⟨0, _⟩ => ((dat0 (Vt1 m) c).arrAt_in 0 rfl _).trans ((A_eq0 (Vt1 m) c 0).trans (W2_of_ne m c _ (by decide)).symm)
  | ⟨1, _⟩ => ((dat0 (Vt1 m) c).arrAt_in 1 rfl _).trans ((A_eq0 (Vt1 m) c 1).trans (W2_of_ne m c _ (by decide)).symm)
  | ⟨2, _⟩ => ((dat0 (Vt1 m) c).arrAt_in 2 rfl _).trans ((A_eq0 (Vt1 m) c 2).trans (W2_of_ne m c _ (by decide)).symm)
  | ⟨3, _⟩ => (W2_out m c).symm
theorem hrest0 (c : Dev nD) : ∀ b, b ∉ Finset.univ.image (Pipeline.arrRef spec0) → Vt2 m c b = Vt1 m c b :=
  fun b hb => W2_of_ne m c b fun e => hb (Finset.mem_image.mpr ⟨3, Finset.mem_univ _, e.symm⟩)

set_option maxHeartbeats 4000000 in
theorem hF1 (c : Dev nD) : ∀ w : Fin cfg1.W, (dat1 (Vt3 m) c).arrAt w cfg1.N = Vt4 m c (Pipeline.arrRef spec1 w)
  | ⟨0, _⟩ => ((dat1 (Vt3 m) c).arrAt_in 0 rfl _).trans ((A_eq1 (Vt3 m) c 0).trans (W4_of_ne m c (Pipeline.arrRef spec1 0) (by decide)).symm)
  | ⟨1, _⟩ => ((dat1 (Vt3 m) c).arrAt_in 1 rfl _).trans ((A_eq1 (Vt3 m) c 1).trans (W4_of_ne m c (Pipeline.arrRef spec1 1) (by decide)).symm)
  | ⟨2, _⟩ => ((dat1 (Vt3 m) c).arrAt_in 2 rfl _).trans ((A_eq1 (Vt3 m) c 2).trans (W4_of_ne m c (Pipeline.arrRef spec1 2) (by decide)).symm)
  | ⟨3, _⟩ => ((dat1 (Vt3 m) c).arrAt_in 3 rfl _).trans ((A_eq1 (Vt3 m) c 3).trans (W4_of_ne m c (Pipeline.arrRef spec1 3) (by decide)).symm)
  | ⟨4, _⟩ => ((dat1 (Vt3 m) c).arrAt_in 4 rfl _).trans ((A_eq1 (Vt3 m) c 4).trans (W4_of_ne m c (Pipeline.arrRef spec1 4) (by decide)).symm)
  | ⟨5, _⟩ => ((dat1 (Vt3 m) c).arrAt_in 5 rfl _).trans ((A_eq1 (Vt3 m) c 5).trans (W4_of_ne m c (Pipeline.arrRef spec1 5) (by decide)).symm)
  | ⟨6, _⟩ => ((dat1 (Vt3 m) c).arrAt_in 6 rfl _).trans ((A_eq1 (Vt3 m) c 6).trans (W4_of_ne m c (Pipeline.arrRef spec1 6) (by decide)).symm)
  | ⟨7, _⟩ => ((dat1 (Vt3 m) c).arrAt_in 7 rfl _).trans ((A_eq1 (Vt3 m) c 7).trans (W4_of_ne m c (Pipeline.arrRef spec1 7) (by decide)).symm)
  | ⟨8, _⟩ => ((dat1 (Vt3 m) c).arrAt_in 8 rfl _).trans ((A_eq1 (Vt3 m) c 8).trans (W4_of_ne m c (Pipeline.arrRef spec1 8) (by decide)).symm)
  | ⟨9, _⟩ => (W4_out m c).symm
theorem hrest1 (c : Dev nD) : ∀ b, b ∉ Finset.univ.image (Pipeline.arrRef spec1) → Vt4 m c b = Vt3 m c b :=
  fun b hb => W4_of_ne m c b fun e => hb (Finset.mem_image.mpr ⟨9, Finset.mem_univ _, e.symm⟩)

set_option maxHeartbeats 4000000 in
theorem hF2 (c : Dev nD) : ∀ w : Fin cfg2.W, (dat2 (Vt5 m) c).arrAt w cfg2.N = Vt6 m c (Pipeline.arrRef spec2 w)
  | ⟨0, _⟩ => ((dat2 (Vt5 m) c).arrAt_in 0 rfl _).trans ((A_eq2 (Vt5 m) c 0).trans (W6_of_ne m c (Pipeline.arrRef spec2 0) (by decide)).symm)
  | ⟨1, _⟩ => ((dat2 (Vt5 m) c).arrAt_in 1 rfl _).trans ((A_eq2 (Vt5 m) c 1).trans (W6_of_ne m c (Pipeline.arrRef spec2 1) (by decide)).symm)
  | ⟨2, _⟩ => ((dat2 (Vt5 m) c).arrAt_in 2 rfl _).trans ((A_eq2 (Vt5 m) c 2).trans (W6_of_ne m c (Pipeline.arrRef spec2 2) (by decide)).symm)
  | ⟨3, _⟩ => ((dat2 (Vt5 m) c).arrAt_in 3 rfl _).trans ((A_eq2 (Vt5 m) c 3).trans (W6_of_ne m c (Pipeline.arrRef spec2 3) (by decide)).symm)
  | ⟨4, _⟩ => ((dat2 (Vt5 m) c).arrAt_in 4 rfl _).trans ((A_eq2 (Vt5 m) c 4).trans (W6_of_ne m c (Pipeline.arrRef spec2 4) (by decide)).symm)
  | ⟨5, _⟩ => ((dat2 (Vt5 m) c).arrAt_in 5 rfl _).trans ((A_eq2 (Vt5 m) c 5).trans (W6_of_ne m c (Pipeline.arrRef spec2 5) (by decide)).symm)
  | ⟨6, _⟩ => ((dat2 (Vt5 m) c).arrAt_in 6 rfl _).trans ((A_eq2 (Vt5 m) c 6).trans (W6_of_ne m c (Pipeline.arrRef spec2 6) (by decide)).symm)
  | ⟨7, _⟩ => ((dat2 (Vt5 m) c).arrAt_in 7 rfl _).trans ((A_eq2 (Vt5 m) c 7).trans (W6_of_ne m c (Pipeline.arrRef spec2 7) (by decide)).symm)
  | ⟨8, _⟩ => (W6_out m c).symm
theorem hrest2 (c : Dev nD) : ∀ b, b ∉ Finset.univ.image (Pipeline.arrRef spec2) → Vt6 m c b = Vt5 m c b :=
  fun b hb => W6_of_ne m c b fun e => hb (Finset.mem_image.mpr ⟨8, Finset.mem_univ _, e.symm⟩)

/-! ## The proof data family and the thread state -/

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (Vt1 m) c
  | ⟨1, _⟩ => fun c => dat1 (Vt3 m) c
  | ⟨2, _⟩ => fun c => dat2 (Vt5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W6 m c) ∗ ∃ r, prngReg c r)

/-! ## The calls as segments -/

set_option backward.isDefEq.respectTransparency.types false in
/-- Call 0: entered from every unscoped buffer at the contents before it, left at the contents after it. Its arrays are
    split out of the unscoped buffers and put back with the output array at what the write-backs leave; the generator
    register goes into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vt1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vt1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vt1 m c) (Vt2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The middle call's shares: the left and right halves on the two windows over the node features, full elsewhere. -/
theorem q1_rest (V : Entry F) (c : Dev nD) : ∀ w : Fin cfg1.W, w ≠ 0 → w ≠ 2 → (dat1 V c).q w = fullShare
  | ⟨0, _⟩ => fun h _ => absurd rfl h
  | ⟨1, _⟩ => fun _ _ => rfl
  | ⟨2, _⟩ => fun _ h => absurd rfl h
  | ⟨3, _⟩ => fun _ _ => rfl
  | ⟨4, _⟩ => fun _ _ => rfl
  | ⟨5, _⟩ => fun _ _ => rfl
  | ⟨6, _⟩ => fun _ _ => rfl
  | ⟨7, _⟩ => fun _ _ => rfl
  | ⟨8, _⟩ => fun _ _ => rfl
  | ⟨9, _⟩ => fun _ _ => rfl

set_option backward.isDefEq.respectTransparency.types false in
/-- Call 1 (the first layer): as the others, except that two of its windows read one array. The nine distinct buffers behind
    its ten windows are split out of the unscoped buffers, the node features by halves between the two windows, and joined
    again at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vt3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (Vt3 m c)
  hentry c := by
    rw [Pipeline.ownSems0_none]
    have hsplit : (unscopedBufs c (Vt3 m c) : sProp 𝕄)
        ⊢ iprop((pdats m 1 c).arrays ((pdats m 1 c).arrAt · 0) ∗ Pipeline.unscopedRest spec1 c (Vt3 m c)) := by
      rw [Pipeline.unscopedBufs_split₀ (p := 1) cfgs winFacts₀1.arr_unscoped c (Vt3 m c)]
      refine sep_mono ?_ .rfl
      rw [show ((pdats m 1 c).arrAt · 0) = fun w => Vt3 m c (Pipeline.arrRef spec1 w) from funext (A_eq1 (Vt3 m) c)]
      exact Shared.arrays_of_arrBufs1 c (pdats m 1 c) rfl rfl (q1_rest (Vt3 m) c) (Vt3 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Vt3 m c))
        ⊢ (unscopedBufs c (Vt4 m c) : sProp 𝕄) := by
      rw [Pipeline.unscopedBufs_split₀ (p := 1) cfgs winFacts₀1.arr_unscoped c (Vt4 m c)]
      refine sep_mono ?_ (Entails.of_eq ?_)
      · rw [show ((pdats m 1 c).arrAt · cfg1.N) = fun w => Vt4 m c (Pipeline.arrRef spec1 w) from funext (hF1 m c)]
        exact Shared.arrBufs_of_arrays1 c (pdats m 1 c) rfl rfl (q1_rest (Vt3 m) c) (Vt4 m c)
      · unfold Pipeline.unscopedRest
        exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2: entered from every unscoped buffer at the contents before it, left at the contents after it. Its arrays are
    split out of the unscoped buffers and put back with the output array at what the write-backs leave; the generator
    register goes into the invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vt5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (Vt5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vt5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vt5 m c) (Vt6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six items in order. -/
abbrev segsW : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
/-- @main is the run of the segments. -/
theorem main_run (c : Dev nD) : main (F := F) c = Pipeline.Seg.run (segsW m) := (main_chain c).trans (by chain_rfl)

set_option backward.isDefEq.respectTransparency.types false in
/-- THE RUN: from any memory with zero counters every weakly fair execution of @main terminates, nothing faulting, and in
    every final state each unscoped buffer of the TensorCore holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segsW m)
    (fun c Q => by rw [main_run m c])
    (by simp only [segsW, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c =>
      (show iprop(StableHlo.held (c : Thread nD τ) (Pipeline.ucRefs τ sig) (W6 m c) ∗ R c)
          ⊢ (iprop(Tₙ m c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-! ## What the last boundary holds -/

/-- A buffer no host stretch writes and no call's output replaces holds its launch contents at the end. -/
theorem W6_kept (c : Dev nD) (r : Ref sig .tc) (h0 : r ∉ hostOps0_W) (h1 : r ∉ hostOps1_W) (h2 : r ∉ hostOps2_W)
    (h14 : r ≠ main_v14) (h31 : r ≠ main_v31) (h48 : r ≠ main_v48) :
    W6 m c (Proc.devRef .tc r) = m ((c : Thread nD τ).loc r) :=
  (W6_of_ne m c r h48).trans <| (StableHlo.after_of_writes_sub hostOps2 _ hostOps2_writes h2).trans <|
    (W4_of_ne m c r h31).trans <| (StableHlo.after_of_writes_sub hostOps1 _ hostOps1_writes h1).trans <|
    (W2_of_ne m c r h14).trans <| (StableHlo.after_of_writes_sub hostOps0 _ hostOps0_writes h0).trans rfl

end Cert.Kernel.Whole

end
-- ==== Proof.Frames.lean ====
/-
  The two frame claims: each of the two programs, the word-level one and the one over the extended reals,
  runs to the end from any launch memory and leaves its sixteen argument arrays as it found them.

  The run of a program ends with every unscoped buffer of every core at the last of its boundary
  valuations. An argument array is unscoped; no host operation of the three stretches between the regions
  writes it; and it is none of the three regions' output arrays. So the last valuation at it is the launch
  memory's contents, through every boundary in turn. The last region's output array ends at what that
  region's write-backs leave in it, which is what the value side of the certificate reads.
-/
import proofs.«176153_j4715874091025_1_alg».proof.Defs
import proofs.«176153_j4715874091025_1_alg».proof.Proof.Gen.Pre_finite_inputs
import proofs.«176153_j4715874091025_1_alg».proof.Proof.Run
import proofs.«176153_j4715874091025_1_alg».proof.Proof.RunK

set_option maxRecDepth 16384

noncomputable section

namespace Cert.Proof.Frames

open Idealize.ShloMosaic Idealize.ShloMosaic.TcCoe Idealize.SL.Sem

section KI
open Cert.KernelIdeal Cert.KernelIdeal.Gen Cert.KernelIdeal.Body Cert.KernelIdeal.Whole
variable {F : FTy → Type} [FloatOps F]

/-- If at the end every unscoped buffer of every core holds the last boundary valuation, then an array that
    is unscoped, that no host operation of the three stretches writes, and that is none of the three regions'
    output arrays, holds at the end what the launch memory held: the last valuation at it is the launch
    memory's contents. -/
theorem kept_KI (m : (ℓ : Loc nD τ sig) → Buf (Elt F) ℓ) (s : MemSt nD τ sig (Elt F))
    (h : ∀ c : Dev nD, ∀ b ∈ Pipeline.ucRefs τ sig, s.mem (((c : Thread nD τ)).1, b) = W6 m c b)
    (c : Dev nD) (r : Ref sig .tc) (hs : ¬ (Proc.devRef .tc r : DevRef τ sig).isScoped)
    (h0 : r ∉ hostOps0_W) (h1 : r ∉ hostOps1_W) (h2 : r ∉ hostOps2_W)
    (h14 : r ≠ main_v14) (h31 : r ≠ main_v31) (h48 : r ≠ main_v48) :
    s.mem ((c.tc : Thread nD τ).loc r) = m ((c.tc : Thread nD τ).loc r) :=
  (h c _ (mem_uc r hs)).trans (W6_kept m c r h0 h1 h2 h14 h31 h48)

/-- Under the same hypothesis the last region's output array holds at the end what the last region's
    write-backs leave in it. -/
theorem result_at_end_KI (m : (ℓ : Loc nD τ sig) → Buf (Elt F) ℓ) (s : MemSt nD τ sig (Elt F))
    (h : ∀ c : Dev nD, ∀ b ∈ Pipeline.ucRefs τ sig, s.mem (((c : Thread nD τ)).1, b) = W6 m c b) (c : Dev nD) :
    s.mem ((c.tc : Thread nD τ).loc main_v48) = (dat2 (Vt5 m) c).arrAt 8 cfg2.N :=
  (h c _ (mem_uc main_v48 (by decide))).trans (W6_out m c)

set_option maxHeartbeats 1000000 in
/-- The program runs to the end from any launch memory, and each of its sixteen argument arrays ends as the
    launch memory had it, on every core, at any float instance. -/
theorem frame_KernelIdeal_all (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)) :=
  (θ_run _ _ _).mono (fun r h c =>
    ⟨kept_KI m r.2 h c main_arg0 (by decide) (by decide) (by decide) (by decide) (by decide) (by decide) (by decide),
     kept_KI m r.2 h c main_arg1 (by decide) (by decide) (by decide) (by decide) (by decide) (by decide) (by decide),
     kept_KI m r.2 h c main_arg2 (by decide) (by decide) (by decide) (by decide) (by decide) (by decide) (by decide),
     kept_KI m r.2 h c main_arg3 (by decide) (by decide) (by decide) (by decide) (by decide) (by decide) (by decide),
     kept_KI m r.2 h c main_arg4 (by decide) (by decide) (by decide) (by decide) (by decide) (by decide) (by decide),
     kept_KI m r.2 h c main_arg5 (by decide) (by decide) (by decide) (by decide) (by decide) (by decide) (by decide),
     kept_KI m r.2 h c main_arg6 (by decide) (by decide) (by decide) (by decide) (by decide) (by decide) (by decide),
     kept_KI m r.2 h c main_arg7 (by decide) (by decide) (by decide) (by decide) (by decide) (by decide) (by decide),
     kept_KI m r.2 h c main_arg8 (by decide) (by decide) (by decide) (by decide) (by decide) (by decide) (by decide),
     kept_KI m r.2 h c main_arg9 (by decide) (by decide) (by decide) (by decide) (by decide) (by decide) (by decide),
     kept_KI m r.2 h c main_arg10 (by decide) (by decide) (by decide) (by decide) (by decide) (by decide) (by decide),
     kept_KI m r.2 h c main_arg11 (by decide) (by decide) (by decide) (by decide) (by decide) (by decide) (by decide),
     kept_KI m r.2 h c main_arg12 (by decide) (by decide) (by decide) (by decide) (by decide) (by decide) (by decide),
     kept_KI m r.2 h c main_arg13 (by decide) (by decide) (by decide) (by decide) (by decide) (by decide) (by decide),
     kept_KI m r.2 h c main_arg14 (by decide) (by decide) (by decide) (by decide) (by decide) (by decide) (by decide),
     kept_KI m r.2 h c main_arg15 (by decide) (by decide) (by decide) (by decide) (by decide) (by decide) (by decide)⟩)
    (run_all m ρ)

end KI

section K
open Cert.Kernel Cert.Kernel.Gen Cert.Kernel.Body Cert.Kernel.Whole
variable {F : FTy → Type} [FloatOps F]

/-- If at the end every unscoped buffer of every core holds the last boundary valuation, then an array that
    is unscoped, that no host operation of the three stretches writes, and that is none of the three regions'
    output arrays, holds at the end what the launch memory held: the last valuation at it is the launch
    memory's contents. -/
theorem kept_K (m : (ℓ : Loc nD τ sig) → Buf (Elt F) ℓ) (s : MemSt nD τ sig (Elt F))
    (h : ∀ c : Dev nD, ∀ b ∈ Pipeline.ucRefs τ sig, s.mem (((c : Thread nD τ)).1, b) = W6 m c b)
    (c : Dev nD) (r : Ref sig .tc) (hs : ¬ (Proc.devRef .tc r : DevRef τ sig).isScoped)
    (h0 : r ∉ hostOps0_W) (h1 : r ∉ hostOps1_W) (h2 : r ∉ hostOps2_W)
    (h14 : r ≠ main_v14) (h31 : r ≠ main_v31) (h48 : r ≠ main_v48) :
    s.mem ((c.tc : Thread nD τ).loc r) = m ((c.tc : Thread nD τ).loc r) :=
  (h c _ (mem_uc r hs)).trans (W6_kept m c r h0 h1 h2 h14 h31 h48)

/-- Under the same hypothesis the last region's output array holds at the end what the last region's
    write-backs leave in it. -/
theorem result_at_end_K (m : (ℓ : Loc nD τ sig) → Buf (Elt F) ℓ) (s : MemSt nD τ sig (Elt F))
    (h : ∀ c : Dev nD, ∀ b ∈ Pipeline.ucRefs τ sig, s.mem (((c : Thread nD τ)).1, b) = W6 m c b) (c : Dev nD) :
    s.mem ((c.tc : Thread nD τ).loc main_v48) = (dat2 (Vt5 m) c).arrAt 8 cfg2.N :=
  (h c _ (mem_uc main_v48 (by decide))).trans (W6_out m c)

set_option maxHeartbeats 1000000 in
/-- The program runs to the end from any launch memory, and each of its sixteen argument arrays ends as the
    launch memory had it, on every core, at any float instance. -/
theorem frame_Kernel_all (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)) :=
  (θ_run _ _ _).mono (fun r h c =>
    ⟨kept_K m r.2 h c main_arg0 (by decide) (by decide) (by decide) (by decide) (by decide) (by decide) (by decide),
     kept_K m r.2 h c main_arg1 (by decide) (by decide) (by decide) (by decide) (by decide) (by decide) (by decide),
     kept_K m r.2 h c main_arg2 (by decide) (by decide) (by decide) (by decide) (by decide) (by decide) (by decide),
     kept_K m r.2 h c main_arg3 (by decide) (by decide) (by decide) (by decide) (by decide) (by decide) (by decide),
     kept_K m r.2 h c main_arg4 (by decide) (by decide) (by decide) (by decide) (by decide) (by decide) (by decide),
     kept_K m r.2 h c main_arg5 (by decide) (by decide) (by decide) (by decide) (by decide) (by decide) (by decide),
     kept_K m r.2 h c main_arg6 (by decide) (by decide) (by decide) (by decide) (by decide) (by decide) (by decide),
     kept_K m r.2 h c main_arg7 (by decide) (by decide) (by decide) (by decide) (by decide) (by decide) (by decide),
     kept_K m r.2 h c main_arg8 (by decide) (by decide) (by decide) (by decide) (by decide) (by decide) (by decide),
     kept_K m r.2 h c main_arg9 (by decide) (by decide) (by decide) (by decide) (by decide) (by decide) (by decide),
     kept_K m r.2 h c main_arg10 (by decide) (by decide) (by decide) (by decide) (by decide) (by decide) (by decide),
     kept_K m r.2 h c main_arg11 (by decide) (by decide) (by decide) (by decide) (by decide) (by decide) (by decide),
     kept_K m r.2 h c main_arg12 (by decide) (by decide) (by decide) (by decide) (by decide) (by decide) (by decide),
     kept_K m r.2 h c main_arg13 (by decide) (by decide) (by decide) (by decide) (by decide) (by decide) (by decide),
     kept_K m r.2 h c main_arg14 (by decide) (by decide) (by decide) (by decide) (by decide) (by decide) (by decide),
     kept_K m r.2 h c main_arg15 (by decide) (by decide) (by decide) (by decide) (by decide) (by decide) (by decide)⟩)
    (run_all m ρ)

end K

/-- The frame claim of the program over the extended reals. -/
theorem frame_KI : Cert.frame_KernelIdeal := fun m ρ _ => frame_KernelIdeal_all m ρ

/-- The frame claim of the word-level program. -/
theorem frame_K : Cert.frame_Kernel := fun m ρ _ => frame_Kernel_all m ρ

end Cert.Proof.Frames

end
-- ==== Proof.Spec.lean ====
/-
  The mathematics both programs compute, row by row, over the extended reals.

  A node's feature row has 128 entries. The input projection sends a 32-entry row x to
  max(x·W + b, 0). A graph-convolution layer sends a node's row h and its averaged neighbour row a to
  the row (h·Ws + bs) + (a·Wn + bn), which is then normalised: with mu its mean and var the mean of
  the squared deviations, entry j becomes (v j - mu) · rsqrt(var + eps) · g j + be j. The first layer
  rectifies the normalised row and adds h back; the last layer returns the normalised row.

  Division by 128 and the epsilon are the same f32 words in both programs, so they stay words here.
  The one regrouping between the two programs is associativity of + on the extended reals.
-/
import Idealize.ShloMosaic.PureOps.Ideal
import Idealize.ShloMosaic.PureOps.Ideal.Laws
import Idealize.ShloMosaic.Lib.ValueIdx

noncomputable section

open Idealize.ShloMosaic
open scoped BigOperators

namespace Cert.Spec

/-- The word of 128.0 and of the layer-norm epsilon, as extended reals. -/
abbrev c128 : EReal := Ideal.ofBits .f32 0x43000000#32
abbrev cEps : EReal := Ideal.ofBits .f32 0x3727C5AC#32

/-- Entry j of x·W + b for one row x of K entries. -/
def dense {K : ℕ} (x : Fin K → EReal) (w : Fin K → Fin 128 → EReal) (b : Fin 128 → EReal) (j : Fin 128) : EReal :=
  (∑ k, x k * w k j) + b j

/-- Entry j of (h·Ws + bs) + (a·Wn + bn). -/
def comb (h a : Fin 128 → EReal) (ws wn : Fin 128 → Fin 128 → EReal) (bs bn : Fin 128 → EReal) (j : Fin 128) : EReal :=
  dense h ws bs j + dense a wn bn j

/-- The same entry grouped as ((h·Ws + bs) + a·Wn) + bn. -/
def combL (h a : Fin 128 → EReal) (ws wn : Fin 128 → Fin 128 → EReal) (bs bn : Fin 128 → EReal) (j : Fin 128) : EReal :=
  (dense h ws bs j + ∑ k, a k * wn k j) + bn j

/-- The two groupings agree: + is associative on the extended reals. -/
theorem combL_eq_comb (h a : Fin 128 → EReal) (ws wn : Fin 128 → Fin 128 → EReal) (bs bn : Fin 128 → EReal) (j : Fin 128) :
    combL h a ws wn bs bn j = comb h a ws wn bs bn j := by
  unfold combL comb dense
  exact add_assoc _ _ _

/-- The mean of a row of 128 entries. -/
def mean (v : Fin 128 → EReal) : EReal := Ideal.div (∑ j, v j) c128

/-- Entry j of the normalised row. -/
def lnorm (v g be : Fin 128 → EReal) (j : Fin 128) : EReal :=
  (v j - mean v) * Ideal.rsqrt (mean (fun i => (v i - mean v) * (v i - mean v)) + cEps) * g j + be j

/-- Entry j of the input projection of a row x of 32 entries. -/
def proj (x : Fin 32 → EReal) (w : Fin 32 → Fin 128 → EReal) (b : Fin 128 → EReal) (j : Fin 128) : EReal :=
  max (dense x w b j) 0

/-- Entry j of the first layer's row: rectified normalised row plus the residual h. -/
def layer0 (h a : Fin 128 → EReal) (ws wn : Fin 128 → Fin 128 → EReal) (bs bn g be : Fin 128 → EReal) (j : Fin 128) : EReal :=
  max (lnorm (comb h a ws wn bs bn) g be j) 0 + h j

/-- Entry j of the last layer's row. -/
def layer1 (h a : Fin 128 → EReal) (ws wn : Fin 128 → Fin 128 → EReal) (bs bn g be : Fin 128 → EReal) (j : Fin 128) : EReal :=
  lnorm (comb h a ws wn bs bn) g be j

/-- Multiplying by the reciprocal 1/c is dividing by c, for any nonzero c (real or infinite). -/
theorem mul_div_one_eq_div (s c : EReal) (hc : c ≠ 0) : s * Ideal.div 1 c = Ideal.div s c := by
  unfold Ideal.div
  rw [if_neg hc, if_neg hc, one_mul]

/-- A count clamped below by one is not zero. -/
theorem max_one_ne_zero (x : EReal) : max x 1 ≠ 0 := by
  have h : (0 : EReal) < max x 1 := lt_of_lt_of_le zero_lt_one (le_max_right _ _)
  exact ne_of_gt h

end Cert.Spec

end
-- ==== Proof.Forms.lean ====
/-
  What each of the three calls leaves in its output array, as one function of the arrays it reads.

  Each call works on 25 blocks of 2000 node rows, and entry (r, j) of its output depends only on row r
  of the node arrays it reads and on the whole weight matrices and bias rows: the input projection
  gives the rectified dense row of x; the first layer the rectified normalised row plus the node's own
  row; the last layer the normalised row. The bias-like operands arrive as [1,128] rows.
-/
import proofs.«176153_j4715874091025_1_alg».proof.KernelIdeal
import proofs.«176153_j4715874091025_1_alg».proof.Proof.Spec

noncomputable section

open Idealize.ShloMosaic Idealize.ShloMosaic.ValueIdx

namespace Cert.Forms

open Cert.KernelIdeal (S50000x32 S32x128 S1x128 S50000x128 S128x128)

/-- The input projection's output from x [50000,32], W [32,128] and the bias row [1,128]. -/
def G0 (X : S50000x32.Idx → EReal) (Wm : S32x128.Idx → EReal) (B : S1x128.Idx → EReal) : S50000x128.Idx → EReal :=
  fun i => Cert.Spec.proj (fun k => X (ix2 (i 0) k)) (fun k j => Wm (ix2 k j)) (fun j => B (ix2 0 j)) (i 1)

/-- The first layer's output from the node rows H, the aggregated rows A, the two weight matrices and the four rows. -/
def G1 (H A : S50000x128.Idx → EReal) (Ws : S128x128.Idx → EReal) (Bs : S1x128.Idx → EReal) (Wn : S128x128.Idx → EReal)
    (Bn Gm Be : S1x128.Idx → EReal) : S50000x128.Idx → EReal :=
  fun i => Cert.Spec.layer0 (fun k => H (ix2 (i 0) k)) (fun k => A (ix2 (i 0) k)) (fun k j => Ws (ix2 k j)) (fun k j => Wn (ix2 k j))
    (fun j => Bs (ix2 0 j)) (fun j => Bn (ix2 0 j)) (fun j => Gm (ix2 0 j)) (fun j => Be (ix2 0 j)) (i 1)

/-- The last layer's output, the same without the rectifier and the residual. -/
def G2 (H A : S50000x128.Idx → EReal) (Ws : S128x128.Idx → EReal) (Bs : S1x128.Idx → EReal) (Wn : S128x128.Idx → EReal)
    (Bn Gm Be : S1x128.Idx → EReal) : S50000x128.Idx → EReal :=
  fun i => Cert.Spec.layer1 (fun k => H (ix2 (i 0) k)) (fun k => A (ix2 (i 0) k)) (fun k j => Ws (ix2 k j)) (fun k j => Wn (ix2 k j))
    (fun j => Bs (ix2 0 j)) (fun j => Bn (ix2 0 j)) (fun j => Gm (ix2 0 j)) (fun j => Be (ix2 0 j)) (i 1)

end Cert.Forms

end
-- ==== Proof.Final.lean ====
/-
  The kernel's result as one closed function of the sixteen argument arrays, in the kernel program's own
  host operations.

  The host code around the three calls computes, once, the in-degree of every node (a scatter-add of
  ones by target), clamps it below by one and takes the reciprocal; and, before each layer, the
  neighbour aggregate: normalise the source indices (add the node count to a negative one), gather the
  node rows by source, scatter-add them by target into zeros, and multiply row r by the reciprocal for
  node r. The gather and the scatter-add stay closed terms here: both programs apply the same two
  operations to the same operands, so they are never read at an index. Bias-like vectors reach a call
  as [1,128] rows (a shape cast).
-/
import proofs.«176153_j4715874091025_1_alg».proof.KernelIdeal
import proofs.«176153_j4715874091025_1_alg».proof.Proof.Gen.KernelIdeal
import proofs.«176153_j4715874091025_1_alg».proof.Proof.Forms

noncomputable section

open Idealize.ShloMosaic

namespace Cert.Final

open Cert.KernelIdeal Cert.KernelIdeal.Gen

variable {F : FTy → Type} [FloatOps F]

/-- The edge list's source row and target row, as vectors of 800000 indices. -/
def kSrc (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000
def kTgt (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- A vector of 128 entries as a [1,128] row. -/
def kRow (b : (⟨S128, .f32⟩ : BufTy).Contents (Elt F)) : (⟨S1x128, .f32⟩ : BufTy).Contents (Elt F) :=
  shapeCast S1x128 b shapeCasts_S128_S1x128

/-- The reciprocal of the in-degree clamped below by one, as a [50000,1] column, from the target vector. -/
def kInvOf (tgt : (⟨S800000, .i32⟩ : BufTy).Contents (Elt F)) : (⟨S50000x1, .f32⟩ : BufTy).Contents (Elt F) :=
  Host.divf (broadcastInDim S50000x1 ![] bcast_S_S50000x1 (constant S_ .f32 0x3F800000#32))
    (maximumf
      (broadcastInDim S50000x1 ![0] bcast_S50000_S50000x1_0
        (Host.scatterAdd scatter_S50000_S800000x1_S800000_n_0_0_1
          (broadcastInDim S50000 ![] bcast_S_S50000 (constant S_ .f32 0x00000000#32))
          (broadcastInDim S800000x1 ![0] bcast_S800000_S800000x1_0 tgt)
          (broadcastInDim S800000 ![] bcast_S_S800000 (constant S_ .f32 0x3F800000#32))))
      (broadcastInDim S50000x1 ![] bcast_S_S50000x1 (constant S_ .f32 0x3F800000#32)))

/-- One neighbour aggregation of the node rows h, from the source and target vectors and the reciprocal column. -/
def kAggOf (h : (⟨S50000x128, .f32⟩ : BufTy).Contents (Elt F)) (src tgt : (⟨S800000, .i32⟩ : BufTy).Contents (Elt F))
    (inv : (⟨S50000x1, .f32⟩ : BufTy).Contents (Elt F)) : (⟨S50000x128, .f32⟩ : BufTy).Contents (Elt F) :=
  mulf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 tgt)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1 inv)

/-- The same from the edge list. -/
def kAgg (ei : (⟨S2x800000, .i32⟩ : BufTy).Contents (Elt F)) (h : (⟨S50000x128, .f32⟩ : BufTy).Contents (Elt F)) :
    (⟨S50000x128, .f32⟩ : BufTy).Contents (Elt F) :=
  kAggOf h (kSrc ei) (kTgt ei) (kInvOf (kTgt ei))

/-! ## The three calls composed, over the extended reals -/

/-- The node features after the input projection. -/
def K0 (x : (⟨S50000x32, .f32⟩ : BufTy).Contents (Elt Ideal)) (w : (⟨S32x128, .f32⟩ : BufTy).Contents (Elt Ideal))
    (b : (⟨S128, .f32⟩ : BufTy).Contents (Elt Ideal)) : (⟨S50000x128, .f32⟩ : BufTy).Contents (Elt Ideal) :=
  Cert.Forms.G0 x w (kRow b)

/-- The node features after the first layer, from those before it. -/
def K1 (ei : (⟨S2x800000, .i32⟩ : BufTy).Contents (Elt Ideal)) (h : (⟨S50000x128, .f32⟩ : BufTy).Contents (Elt Ideal))
    (ws : (⟨S128x128, .f32⟩ : BufTy).Contents (Elt Ideal)) (bs : (⟨S128, .f32⟩ : BufTy).Contents (Elt Ideal))
    (wn : (⟨S128x128, .f32⟩ : BufTy).Contents (Elt Ideal)) (bn g be : (⟨S128, .f32⟩ : BufTy).Contents (Elt Ideal)) :
    (⟨S50000x128, .f32⟩ : BufTy).Contents (Elt Ideal) :=
  Cert.Forms.G1 h (kAgg ei h) ws (kRow bs) wn (kRow bn) (kRow g) (kRow be)

/-- The result, from the node features before the last layer. -/
def K2 (ei : (⟨S2x800000, .i32⟩ : BufTy).Contents (Elt Ideal)) (h : (⟨S50000x128, .f32⟩ : BufTy).Contents (Elt Ideal))
    (ws : (⟨S128x128, .f32⟩ : BufTy).Contents (Elt Ideal)) (bs : (⟨S128, .f32⟩ : BufTy).Contents (Elt Ideal))
    (wn : (⟨S128x128, .f32⟩ : BufTy).Contents (Elt Ideal)) (bn g be : (⟨S128, .f32⟩ : BufTy).Contents (Elt Ideal)) :
    (⟨S50000x128, .f32⟩ : BufTy).Contents (Elt Ideal) :=
  Cert.Forms.G2 h (kAgg ei h) ws (kRow bs) wn (kRow bn) (kRow g) (kRow be)

/-- The kernel's result as a function of its sixteen arguments, in @main's argument order. -/
def KFinal (x : (⟨S50000x32, .f32⟩ : BufTy).Contents (Elt Ideal)) (ei : (⟨S2x800000, .i32⟩ : BufTy).Contents (Elt Ideal))
    (w_in : (⟨S32x128, .f32⟩ : BufTy).Contents (Elt Ideal)) (b_in : (⟨S128, .f32⟩ : BufTy).Contents (Elt Ideal))
    (ws0 : (⟨S128x128, .f32⟩ : BufTy).Contents (Elt Ideal)) (bs0 : (⟨S128, .f32⟩ : BufTy).Contents (Elt Ideal))
    (wn0 : (⟨S128x128, .f32⟩ : BufTy).Contents (Elt Ideal)) (bn0 g0 be0 : (⟨S128, .f32⟩ : BufTy).Contents (Elt Ideal))
    (ws1 : (⟨S128x128, .f32⟩ : BufTy).Contents (Elt Ideal)) (bs1 : (⟨S128, .f32⟩ : BufTy).Contents (Elt Ideal))
    (wn1 : (⟨S128x128, .f32⟩ : BufTy).Contents (Elt Ideal)) (bn1 g1 be1 : (⟨S128, .f32⟩ : BufTy).Contents (Elt Ideal)) :
    (⟨S50000x128, .f32⟩ : BufTy).Contents (Elt Ideal) :=
  K2 ei (K1 ei (K0 x w_in b_in) ws0 bs0 wn0 bn0 g0 be0) ws1 bs1 wn1 bn1 g1 be1

end Cert.Final

end
-- ==== Proof.HostRead.lean ====
/-
  What each stretch of host operations leaves in the buffers the calls read.

  The first stretch, from the argument arrays: the source and target vectors of the edge list, the
  reciprocal of the clamped in-degree, and the input bias as a row. Each of the two later stretches,
  from the node features the preceding call left and the three vectors above: the neighbour aggregate,
  and that layer's four bias-like vectors as rows. Every operation's result is a pure function of the
  contents it reads, so each buffer after a stretch is the composed function of the contents before it.
-/
import proofs.«176153_j4715874091025_1_alg».proof.Proof.Gen.KernelIdeal.Launch
import proofs.«176153_j4715874091025_1_alg».proof.Proof.Final
import Idealize.ShloMosaic.Lib.StableHlo.Run
import Idealize.ShloMosaic.Lib.Tactic

set_option maxRecDepth 16384

noncomputable section

namespace Cert.KernelIdeal.HostRead

open Idealize.ShloMosaic Idealize.ShloMosaic.TcCoe Idealize.ShloMosaic.Tactic
open Idealize.SL Idealize.SL.Sem
open Cert.KernelIdeal Cert.KernelIdeal.Gen Cert.Final

variable {F : FTy → Type} [FloatOps F] (Vv : Valuation τ sig (Elt F))

set_option maxHeartbeats 4000000 in
theorem first_src : StableHlo.after (hostOps0 (F := F)) Vv (Proc.devRef .tc main_v1) = kSrc (Vv (Proc.devRef .tc main_arg1)) := by
  after_results <;> rfl
set_option maxHeartbeats 4000000 in
theorem first_tgt : StableHlo.after (hostOps0 (F := F)) Vv (Proc.devRef .tc main_v3) = kTgt (Vv (Proc.devRef .tc main_arg1)) := by
  after_results <;> rfl
set_option maxHeartbeats 4000000 in
theorem first_inv : StableHlo.after (hostOps0 (F := F)) Vv (Proc.devRef .tc main_v12) = kInvOf (kTgt (Vv (Proc.devRef .tc main_arg1))) := by
  after_results <;> rfl
set_option maxHeartbeats 4000000 in
theorem first_bias : StableHlo.after (hostOps0 (F := F)) Vv (Proc.devRef .tc main_v13) = kRow (Vv (Proc.devRef .tc main_arg3)) := by
  after_results <;> rfl

set_option maxHeartbeats 8000000 in
theorem second_agg : StableHlo.after (hostOps1 (F := F)) Vv (Proc.devRef .tc main_v26)
    = kAggOf (Vv (Proc.devRef .tc main_v14)) (Vv (Proc.devRef .tc main_v1)) (Vv (Proc.devRef .tc main_v3)) (Vv (Proc.devRef .tc main_v12)) := by
  after_results <;> rfl
set_option maxHeartbeats 4000000 in
theorem second_bs : StableHlo.after (hostOps1 (F := F)) Vv (Proc.devRef .tc main_v27) = kRow (Vv (Proc.devRef .tc main_arg5)) := by
  after_results <;> rfl
set_option maxHeartbeats 4000000 in
theorem second_bn : StableHlo.after (hostOps1 (F := F)) Vv (Proc.devRef .tc main_v28) = kRow (Vv (Proc.devRef .tc main_arg7)) := by
  after_results <;> rfl
set_option maxHeartbeats 4000000 in
theorem second_g : StableHlo.after (hostOps1 (F := F)) Vv (Proc.devRef .tc main_v29) = kRow (Vv (Proc.devRef .tc main_arg8)) := by
  after_results <;> rfl
set_option maxHeartbeats 4000000 in
theorem second_be : StableHlo.after (hostOps1 (F := F)) Vv (Proc.devRef .tc main_v30) = kRow (Vv (Proc.devRef .tc main_arg9)) := by
  after_results <;> rfl

set_option maxHeartbeats 8000000 in
theorem third_agg : StableHlo.after (hostOps2 (F := F)) Vv (Proc.devRef .tc main_v43)
    = kAggOf (Vv (Proc.devRef .tc main_v31)) (Vv (Proc.devRef .tc main_v1)) (Vv (Proc.devRef .tc main_v3)) (Vv (Proc.devRef .tc main_v12)) := by
  after_results <;> rfl
set_option maxHeartbeats 4000000 in
theorem third_bs : StableHlo.after (hostOps2 (F := F)) Vv (Proc.devRef .tc main_v44) = kRow (Vv (Proc.devRef .tc main_arg11)) := by
  after_results <;> rfl
set_option maxHeartbeats 4000000 in
theorem third_bn : StableHlo.after (hostOps2 (F := F)) Vv (Proc.devRef .tc main_v45) = kRow (Vv (Proc.devRef .tc main_arg13)) := by
  after_results <;> rfl
set_option maxHeartbeats 4000000 in
theorem third_g : StableHlo.after (hostOps2 (F := F)) Vv (Proc.devRef .tc main_v46) = kRow (Vv (Proc.devRef .tc main_arg14)) := by
  after_results <;> rfl
set_option maxHeartbeats 4000000 in
theorem third_be : StableHlo.after (hostOps2 (F := F)) Vv (Proc.devRef .tc main_v47) = kRow (Vv (Proc.devRef .tc main_arg15)) := by
  after_results <;> rfl

end Cert.KernelIdeal.HostRead

end
-- ==== Proof.LibPlainMatmul.lean ====
import Idealize.ShloMosaic.Lib.ValueIdx
import Idealize.ShloMosaic.PureOps.Ideal.Laws

/-!
# A plain matrix product read at an index

The product of a left operand `[M, K]` and a right operand `[K, N]` into a zero accumulator `[M, N]` — contracting the
left operand's axis 1 with the right operand's axis 0, no batch axis — has, over the extended reals, at `(p, q)` the
element `∑ k, l[p, k] · r[k, q]`: the contraction index is its one coordinate, the left operand's index at `(p, q)`
and `k` is `(p, k)`, the right operand's `(k, q)`.

The statement comes twice: for the record of dimension numbers written out with its well-formedness proof as an
argument (`…_lit`), and for an arbitrary record whose fields are fixed by equations (each `rfl` for a literal record).
-/

noncomputable section

open scoped BigOperators

namespace Idealize.ShloMosaic.PlainMatmul

open Idealize.ShloMosaic Idealize.ShloMosaic.ValueIdx

/-- The dimension numbers of a plain product: `[M, K] · [K, N] → [M, N]`. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- The plain product into the zero accumulator, at `(p, q)`, is `∑ k, l[p, k] · r[k, q]`. -/
theorem matmul_plain_lit {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ =>
        show ((plainDims M K N wf).lhsIdx (ix2 p q) _ 0).val = p.val
        unfold DotDims.lhsIdx
        rw [dif_neg (show ¬ (0 : Fin 2) ∈ (plainDims M K N wf).lhsBatch from List.not_mem_nil),
          dif_pos (show (0 : Fin 2) ∈ (plainDims M K N wf).lhsNonContracting from List.mem_singleton.mpr rfl)]
        rfl
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ =>
        show ((plainDims M K N wf).rhsIdx (ix2 p q) _ 1).val = q.val
        unfold DotDims.rhsIdx
        rw [dif_neg (show ¬ (1 : Fin 2) ∈ (plainDims M K N wf).rhsBatch from List.not_mem_nil),
          dif_pos (show (1 : Fin 2) ∈ (plainDims M K N wf).rhsNonContracting from List.mem_singleton.mpr rfl)]
        rfl)
  rw [el, er]

/-- The same for ANY record of dimension numbers of these shapes whose fields are those of a plain product. -/
theorem matmul_plain_apply {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at hlc hrc hln hrn hlb hrb
  subst hlc hrc hln hrn hlb hrb
  exact matmul_plain_lit wf prec l r p q

end Idealize.ShloMosaic.PlainMatmul

end
-- ==== Proof.LibColumnForms.lean ====
import Idealize.ShloMosaic.Lib.ValueLayout

/-!
# Column forms read at an index

A vector kept as a one-column matrix (a sum with `keepdims`): the cast of a vector `[a]` to a column `[a, 1]`, and a
column `[a, 1]` repeated across the columns of `[a, b]`, each read at an index given by coordinates.
-/

namespace Idealize.ShloMosaic.ColumnForms

open Idealize.ShloMosaic Idealize.ShloMosaic.ValueIdx

variable {α : Type}

/-- A vector `[a]` cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` repeated across the columns of `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnForms
-- ==== Proof.PayLib.lean ====
/-
  The arithmetic of the kernel's three bodies, read at one entry of a 2000-row block over the extended reals.

  Every operation of a body is pointwise except four: the matrix product into a zero accumulator, the
  row [1,128] repeated over the 2000 rows, the sum along a row kept as a column [2000,1], and that column
  repeated across the 128 entries of its row. This file reads each of them at an entry (p, q), and from
  them the two composite pieces every body is made of: a dense layer x·W + b, and the normalisation of a
  row (subtract the mean, multiply by the reciprocal square root of the variance plus epsilon).
-/
import proofs.«176153_j4715874091025_1_alg».proof.Proof.Gen.KernelIdeal.Skeleton
import proofs.«176153_j4715874091025_1_alg».proof.Proof.Spec
import proofs.«176153_j4715874091025_1_alg».proof.Proof.LibPlainMatmul
import proofs.«176153_j4715874091025_1_alg».proof.Proof.LibColumnForms
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.ValueIdx
open scoped BigOperators

namespace Cert.KernelIdeal.Pay

open Cert.KernelIdeal.Gen

/-! ## A dense layer at an entry -/

/-- The product of a block x [2000,K] and a matrix w [K,128] into the zero accumulator, plus the row b
    [1,128] repeated over the rows, is at (p, q) the entry q of x[p,·]·w + b. Narrowing the operands to
    bf16 changes nothing over the extended reals. -/
theorem dense_apply {K : ℕ} (d : DotDims ⟨2, ![2000, K]⟩ ⟨2, ![K, 128]⟩ ⟨2, ![2000, 128]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![2000, K]⟩ .f32) (w : FVec Ideal ⟨2, ![K, 128]⟩ .f32) (b : FVec Ideal S1x128 .f32)
    (hbits : FTy.bits .bf16 < FTy.bits .f32) (hc : S1x128.ShapeCasts S1x128) (hb : S1x128.Broadcasts S2000x128)
    (p : Fin 2000) (q : Fin 128) :
    addf (matmul d none (truncf .bf16 x hbits) (truncf .bf16 w hbits) (constant (F := Ideal) S2000x128 .f32 0x00000000#32))
        (broadcastTo S2000x128 (shapeCast S1x128 b hc) hb) (ix2 p q)
      = Cert.Spec.dense (fun k => x (ix2 p k)) (fun k j => w (ix2 k j)) (fun j => b (ix2 0 j)) q := by
  show FloatOps.matmul d none (truncf .bf16 x hbits) (truncf .bf16 w hbits) (constant (F := Ideal) ⟨2, ![2000, 128]⟩ .f32 0x00000000#32) (ix2 p q)
      + broadcastTo S2000x128 (shapeCast S1x128 b hc) hb (ix2 p q) = _
  rw [PlainMatmul.matmul_plain_apply d hlc hrc hln hrn hlb hrb, broadcastTo_1b_ab_apply, shapeCast_self]
  rfl

/-! ## The sum along a row -/

/-- Inserting the coordinate k on the dropped axis of the row index p gives the entry (p, k). -/
theorem lift_row (h : S2000x128.Reduces [1] S2000) (p : Fin 2000) (k : Fin 128) : h.lift (ix1 p) k = ix2 p k :=
  funext fun c => Fin.ext (by
    match c with
    | ⟨0, _⟩ => rfl
    | ⟨1, _⟩ => rfl)

/-- The sum of a block along its rows, at row p, is the sum of the 128 entries of that row. -/
theorem rowSum_apply (x : FVec Ideal S2000x128 .f32) (h : S2000x128.Reduces [1] S2000) (hφ : FKind.Formats .f32)
    (hacc : (0x00000000#32 : BitVec FTy.f32.bits) = FKind.add.neutral .f32 hφ) (p : Fin 2000) :
    multiReduction (F := Ideal) .add [1] S2000 x 0x00000000#32 h hφ hacc (ix1 p) = ∑ k : Fin 128, x (ix2 p k) := by
  refine (Ideal.multiReduction_add_single x 0x00000000#32 h hφ hacc (ix1 p)).trans ?_
  exact Finset.sum_congr rfl fun k _ => congrArg x (lift_row h p k)

/-! ## The mean of a row, kept as a column -/

/-- The column of row means of a block: the row sums as a column [2000,1], divided by the word of 128. -/
def meanCol (x : FVec Ideal S2000x128 .f32) : FVec Ideal S2000x1 .f32 :=
  divf (shapeCast S2000x1 (multiReduction .add [1] S2000 x 0x00000000#32 reduces_S2000x128_S2000 (.inl rfl) rfl) shapeCasts_S2000_S2000x1)
    (broadcast S2000x1 (Scalar.ofBits .f32 0x43000000#32))

/-- At row p the column of means holds the mean of that row. -/
theorem meanCol_apply (x : FVec Ideal S2000x128 .f32) (p : Fin 2000) (u : Fin 1) :
    meanCol x (ix2 p u) = Cert.Spec.mean (fun j => x (ix2 p j)) := by
  unfold meanCol Cert.Spec.mean
  show Ideal.div (shapeCast S2000x1 _ shapeCasts_S2000_S2000x1 (ix2 p u)) (Ideal.ofBits .f32 0x43000000#32) = _
  rw [ColumnForms.shapeCast_a_a1_apply]
  exact congrArg (fun s => Ideal.div s Cert.Spec.c128) (rowSum_apply x _ _ _ p)

/-! ## The normalisation of a row -/

/-- A block with each row centred at its mean and scaled by the reciprocal square root of its variance
    plus epsilon: the part of a layer's body between the sum of the two dense layers and the scale g. -/
def core (v : FVec Ideal S2000x128 .f32) : FVec Ideal S2000x128 .f32 :=
  mulf (subf v (broadcastTo S2000x128 (meanCol v) broadcasts_S2000x1_S2000x128))
    (broadcastTo S2000x128
      (rsqrt (addf (meanCol (mulf (subf v (broadcastTo S2000x128 (meanCol v) broadcasts_S2000x1_S2000x128))
                                    (subf v (broadcastTo S2000x128 (meanCol v) broadcasts_S2000x1_S2000x128))))
                   (broadcast S2000x1 (Scalar.ofBits .f32 0x3727C5AC#32))))
      broadcasts_S2000x1_S2000x128)

/-- An entry of the centred block. -/
theorem centred_apply (v : FVec Ideal S2000x128 .f32) (p : Fin 2000) (q : Fin 128) :
    subf v (broadcastTo S2000x128 (meanCol v) broadcasts_S2000x1_S2000x128) (ix2 p q)
      = v (ix2 p q) - Cert.Spec.mean (fun j => v (ix2 p j)) := by
  show v (ix2 p q) - broadcastTo S2000x128 (meanCol v) broadcasts_S2000x1_S2000x128 (ix2 p q) = _
  rw [ColumnForms.broadcastTo_a1_ab_apply, meanCol_apply]

/-- An entry of the normalised block, in the words of the row-level specification. -/
theorem core_apply (v : FVec Ideal S2000x128 .f32) (p : Fin 2000) (q : Fin 128) :
    core v (ix2 p q)
      = (v (ix2 p q) - Cert.Spec.mean (fun j => v (ix2 p j)))
        * Ideal.rsqrt (Cert.Spec.mean (fun i => (v (ix2 p i) - Cert.Spec.mean (fun j => v (ix2 p j)))
                                               * (v (ix2 p i) - Cert.Spec.mean (fun j => v (ix2 p j)))) + Cert.Spec.cEps) := by
  unfold core
  show subf v (broadcastTo S2000x128 (meanCol v) broadcasts_S2000x1_S2000x128) (ix2 p q)
      * broadcastTo S2000x128 _ broadcasts_S2000x1_S2000x128 (ix2 p q) = _
  rw [ColumnForms.broadcastTo_a1_ab_apply, centred_apply]
  show _ * Ideal.rsqrt (meanCol _ (ix2 p (0 : Fin 1)) + Ideal.ofBits .f32 0x3727C5AC#32) = _
  rw [meanCol_apply]
  have hsq : (fun j => mulf (subf v (broadcastTo S2000x128 (meanCol v) broadcasts_S2000x1_S2000x128))
                            (subf v (broadcastTo S2000x128 (meanCol v) broadcasts_S2000x1_S2000x128)) (ix2 p j))
      = fun i => (v (ix2 p i) - Cert.Spec.mean (fun j => v (ix2 p j))) * (v (ix2 p i) - Cert.Spec.mean (fun j => v (ix2 p j))) :=
    funext fun i => by
      show subf v _ (ix2 p i) * subf v _ (ix2 p i) = _
      rw [centred_apply]
  rw [hsq]

/-- So with the scale row g and the shift row be repeated over the rows, an entry is the normalised row's. -/
theorem core_scale_apply (v : FVec Ideal S2000x128 .f32) (g be : FVec Ideal S1x128 .f32)
    (hc : S1x128.ShapeCasts S1x128) (hb : S1x128.Broadcasts S2000x128) (p : Fin 2000) (q : Fin 128) :
    addf (mulf (core v) (broadcastTo S2000x128 (shapeCast S1x128 g hc) hb)) (broadcastTo S2000x128 (shapeCast S1x128 be hc) hb) (ix2 p q)
      = Cert.Spec.lnorm (fun j => v (ix2 p j)) (fun j => g (ix2 0 j)) (fun j => be (ix2 0 j)) q := by
  show core v (ix2 p q) * broadcastTo S2000x128 (shapeCast S1x128 g hc) hb (ix2 p q)
      + broadcastTo S2000x128 (shapeCast S1x128 be hc) hb (ix2 p q) = _
  rw [core_apply, broadcastTo_1b_ab_apply, broadcastTo_1b_ab_apply, shapeCast_self, shapeCast_self]
  rfl

/-! ## The block a layer normalises -/

/-- The sum of the two dense layers of a layer's body (the node's own block through Ws, its averaged
    neighbour block through Wn): the block that is normalised. -/
def pre (v0 v3 : Vec Ideal S2000x128 .f32) (v6 v8 : Vec Ideal S128x128 .f32) (v11 v16 : Vec Ideal S1x128 .f32) :
    FVec Ideal S2000x128 .f32 :=
  addf (addf (matmul dot_S2000x128_S128x128_S2000x128_1_0_0_1_n_n none
                (truncf .bf16 (shapeCast S2000x128 v0 shapeCasts_S2000x128_S2000x128) bitsLt_bf16_f32)
                (truncf .bf16 v6 bitsLt_bf16_f32) (constant (F := Ideal) S2000x128 .f32 0x00000000#32))
              (broadcastTo S2000x128 (shapeCast S1x128 v11 shapeCasts_S1x128_S1x128) broadcasts_S1x128_S2000x128))
       (addf (matmul dot_S2000x128_S128x128_S2000x128_1_0_0_1_n_n none
                (truncf .bf16 (shapeCast S2000x128 v3 shapeCasts_S2000x128_S2000x128) bitsLt_bf16_f32)
                (truncf .bf16 v8 bitsLt_bf16_f32) (constant (F := Ideal) S2000x128 .f32 0x00000000#32))
              (broadcastTo S2000x128 (shapeCast S1x128 v16 shapeCasts_S1x128_S1x128) broadcasts_S1x128_S2000x128))

/-- Its row p is the row-level combination of the two dense layers. -/
theorem pre_row (v0 v3 : Vec Ideal S2000x128 .f32) (v6 v8 : Vec Ideal S128x128 .f32) (v11 v16 : Vec Ideal S1x128 .f32)
    (p : Fin 2000) :
    (fun j => pre v0 v3 v6 v8 v11 v16 (ix2 p j))
      = Cert.Spec.comb (fun k => v0 (ix2 p k)) (fun k => v3 (ix2 p k)) (fun k j => v6 (ix2 k j)) (fun k j => v8 (ix2 k j))
          (fun j => v11 (ix2 0 j)) (fun j => v16 (ix2 0 j)) :=
  funext fun j => by
    unfold pre Cert.Spec.comb
    show addf _ _ (ix2 p j) + addf _ _ (ix2 p j) = _
    rw [dense_apply dot_S2000x128_S128x128_S2000x128_1_0_0_1_n_n rfl rfl rfl rfl rfl rfl,
      dense_apply dot_S2000x128_S128x128_S2000x128_1_0_0_1_n_n rfl rfl rfl rfl rfl rfl,
      shapeCast_self, shapeCast_self]

/-- Both layers carry the same text to their store: the normalised block of `pre`. -/
theorem k1_pay2_eq (v0 v3 : Vec Ideal S2000x128 .f32) (v6 v8 : Vec Ideal S128x128 .f32) (v11 v16 : Vec Ideal S1x128 .f32) :
    k1_pay2 (F := Ideal) v0 v3 v6 v8 v11 v16 = core (pre v0 v3 v6 v8 v11 v16) := rfl

theorem k2_pay2_eq (v0 v3 : Vec Ideal S2000x128 .f32) (v6 v8 : Vec Ideal S128x128 .f32) (v11 v16 : Vec Ideal S1x128 .f32) :
    k2_pay2 (F := Ideal) v0 v3 v6 v8 v11 v16 = core (pre v0 v3 v6 v8 v11 v16) := rfl

end Cert.KernelIdeal.Pay

end
-- ==== Proof.Pay0.lean ====
/-
  The input projection's body at one entry: the block x [2000,32] times W [32,128] plus the bias row,
  rectified, is at (p, q) the entry q of the projection of row p.
-/
import proofs.«176153_j4715874091025_1_alg».proof.Proof.PayLib

noncomputable section

open Idealize.ShloMosaic Idealize.ShloMosaic.ValueIdx
open scoped BigOperators

namespace Cert.KernelIdeal.Pay

open Cert.KernelIdeal.Gen

/-- The stored block of the input projection, at (p, q), is max(x[p,·]·W + b, 0) at q. -/
theorem pay0 (v0 : Vec Ideal S2000x32 .f32) (v2 : Vec Ideal S32x128 .f32) (v5 : Vec Ideal S1x128 .f32)
    (p : Fin 2000) (q : Fin 128) :
    k0_pay1 (F := Ideal) v0 v2 v5 (ix2 p q)
      = Cert.Spec.proj (fun k => v0 (ix2 p k)) (fun k j => v2 (ix2 k j)) (fun j => v5 (ix2 0 j)) q := by
  unfold k0_pay1 Cert.Spec.proj
  show max (addf (matmul dot_S2000x32_S32x128_S2000x128_1_0_0_1_n_n none (truncf .bf16 v0 bitsLt_bf16_f32)
                (truncf .bf16 v2 bitsLt_bf16_f32) (constant (F := Ideal) S2000x128 .f32 0x00000000#32))
              (broadcastTo S2000x128 (shapeCast S1x128 v5 shapeCasts_S1x128_S1x128) broadcasts_S1x128_S2000x128) (ix2 p q))
          (Ideal.ofBits .f32 0x00000000#32) = _
  rw [dense_apply dot_S2000x32_S32x128_S2000x128_1_0_0_1_n_n rfl rfl rfl rfl rfl rfl, Ideal.ofBits_zero_f32]

end Cert.KernelIdeal.Pay

end
-- ==== Proof.Value0.lean ====
/-
  The input projection's output array after its 25 grid points.

  At point t the body reads rows 2000·t … 2000·t + 1999 of x, the whole weight matrix and the whole bias
  row, and writes back rows 2000·t … 2000·t + 1999 of the output. Entry (p, q) of the block it writes is
  max(x[2000·t + p, ·]·W + b, 0) at q, which is entry (2000·t + p, q) of the projection of the whole arrays.
  The 25 blocks of 2000 rows tile the 50000 rows, so the array ends holding that projection everywhere.
-/
import proofs.«176153_j4715874091025_1_alg».proof.Proof.Body0
import proofs.«176153_j4715874091025_1_alg».proof.Proof.Pay0
import proofs.«176153_j4715874091025_1_alg».proof.Proof.Forms
import Idealize.ShloMosaic.Lib.Pipeline.Value
import Idealize.ShloMosaic.Lib.ValueIdx

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Where the windows' blocks sit -/

/-- At grid point t the block of node rows and the output block are block t along the rows and block 0
    along the entries; the weight matrix and the bias row are their whole arrays at every point. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## One entry of one block -/

/-- If the block x0 holds row (i 0) of the array X at its row p, and the other two blocks are the whole
    arrays Wm and B, the body's value at (p, q) is the entry of the projection of X at i = (i 0, q). -/
theorem point0 (X : S50000x32.Idx → EReal) (Wm : S32x128.Idx → EReal) (B : S1x128.Idx → EReal)
    (x0 : Vec Ideal S2000x32 .f32) (x1 : Vec Ideal S32x128 .f32) (x2 : Vec Ideal S1x128 .f32)
    (p : Fin 2000) (q : Fin 128) (i : S50000x128.Idx)
    (h0 : ∀ k : Fin 32, x0 (ix2 p k) = X (ix2 (i 0) k))
    (h1 : ∀ (k : Fin 32) (j : Fin 128), x1 (ix2 k j) = Wm (ix2 k j))
    (h2 : ∀ j : Fin 128, x2 (ix2 0 j) = B (ix2 0 j))
    (hq : (i 1).val = q.val) :
    k0_pay1 (F := Ideal) x0 x1 x2 (ix2 p q) = Cert.Forms.G0 X Wm B i := by
  rw [Pay.pay0]
  unfold Cert.Forms.G0
  rw [show (fun k => x0 (ix2 p k)) = (fun k => X (ix2 (i 0) k)) from funext h0,
    show (fun k j => x1 (ix2 k j)) = (fun k j => Wm (ix2 k j)) from funext fun k => funext (h1 k),
    show (fun j => x2 (ix2 0 j)) = (fun j => B (ix2 0 j)) from funext h2]
  exact congrArg _ (Fin.ext hq).symm

/-! ## What a point writes back -/

/-- Point t writes back block t of the projection of the arrays the region finds. -/
theorem flushed0_eq (c : Dev nD) (t : Fin cfg0.N) :
    (Body.dat0 (F := Ideal) V c).flushed 3 t
      = ((cfg0.win 3).blk t).view.read (Elt Ideal) (Cert.Forms.G0 (V c main_arg0) (V c main_arg2) (V c main_v13)) := by
  show (cfg0.win 3).cut (grid0.coords t) ((Body.dat0 V c).after 3 t) = _
  rw [Body.after0_3, Body.out0_3_eq]
  obtain ⟨e00, e01, e10, e11, e20, e21, e30, e31⟩ := idx0 t
  funext j
  obtain ⟨p, q, rfl⟩ : ∃ (p : Fin 2000) (q : Fin 128), j = ix2 p q := ⟨j 0, j 1, eq_ix2 j⟩
  refine point0 (V c main_arg0) (V c main_arg2) (V c main_v13) (Body.iblk0 V c 0 t) (Body.iblk0 V c 1 t) (Body.iblk0 V c 2 t)
    p q (((cfg0.win 3).blk t).view.emb (ix2 p q)) (fun k => ?_) (fun k j => ?_) (fun j => ?_) ?_
  · show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_3.index t (0 : Fin 2) * 2000 + 1 * p.val; rw [e00, e30]
    | ⟨1, _⟩ => show win0_0.index t (1 : Fin 2) * 32 + 1 * k.val = k.val; rw [e01]; omega
  · show V c main_arg2 (((cfg0.win 1).blk t).view.emb (ix2 k j)) = _
    refine congrArg (V c main_arg2) (funext fun a => Fin.ext ?_)
    match a with
    | ⟨0, _⟩ => show win0_1.index t (0 : Fin 2) * 32 + 1 * k.val = k.val; rw [e10]; omega
    | ⟨1, _⟩ => show win0_1.index t (1 : Fin 2) * 128 + 1 * j.val = j.val; rw [e11]; omega
  · show V c main_v13 (((cfg0.win 2).blk t).view.emb (ix2 0 j)) = _
    refine congrArg (V c main_v13) (funext fun a => Fin.ext ?_)
    match a with
    | ⟨0, _⟩ => show win0_2.index t (0 : Fin 2) * 1 + 1 * (0 : Fin 1).val = (0 : Fin 1).val; rw [e20]; rfl
    | ⟨1, _⟩ => show win0_2.index t (1 : Fin 2) * 128 + 1 * j.val = j.val; rw [e21]; omega
  · show win0_3.index t (1 : Fin 2) * 128 + 1 * q.val = q.val
    rw [e31]; omega

/-! ## The blocks tile the array -/

/-- An entry is in point t's block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v14).slice (win0_3.rect t)).set ↔ _
  rw [View.set_slice_whole, Rect.mem_set_unit]
  exact Iff.rfl

/-- Every entry (r, j) of the array is in the block of the point r / 2000, which writes back. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by show (i 0).val / 2000 < 25; omega⟩, rfl⟩
  obtain ⟨-, -, -, -, -, -, e30, e31⟩ := idx0 t
  refine ⟨t, flush0_3 t, ?_⟩
  rw [mem_blk0]
  intro a
  match a with
  | ⟨0, _⟩ =>
    show win0_3.index t (0 : Fin 2) * 2000 ≤ (i 0).val ∧ (i 0).val < win0_3.index t (0 : Fin 2) * 2000 + 2000
    rw [e30, ht]; omega
  | ⟨1, _⟩ =>
    show win0_3.index t (1 : Fin 2) * 128 ≤ (i 1).val ∧ (i 1).val < win0_3.index t (1 : Fin 2) * 128 + 128
    rw [e31]; omega

/-! ## The output array after the region -/

/-- After the 25 points the output array is the projection of the arrays the region found. -/
theorem final0 (c : Dev nD) :
    (Body.dat0 (F := Ideal) V c).arrAt 3 cfg0.N = Cert.Forms.G0 (V c main_arg0) (V c main_arg2) (V c main_v13) :=
  (Body.dat0 (F := Ideal) V c).arrAt_eq_of_cover 3 _ (fun t _ => flushed0_eq V c t) cover0

end Cert.KernelIdeal.Val

end
-- ==== Proof.Pay1.lean ====
/-
  The first layer's body at one entry: the sum of the two dense layers (the node's own row through Ws,
  its averaged neighbour row through Wn), normalised along the row, scaled and shifted, rectified, plus the
  node's own row.
-/
import proofs.«176153_j4715874091025_1_alg».proof.Proof.PayLib

noncomputable section

open Idealize.ShloMosaic Idealize.ShloMosaic.ValueIdx
open scoped BigOperators

namespace Cert.KernelIdeal.Pay

open Cert.KernelIdeal.Gen

/-- The stored block of the first layer, at (p, q): the rectified normalised row plus the node's own entry. -/
theorem pay1 (v0 v3 v47 : Vec Ideal S2000x128 .f32) (v6 v8 : Vec Ideal S128x128 .f32)
    (v11 v16 v37 v41 : Vec Ideal S1x128 .f32) (p : Fin 2000) (q : Fin 128) :
    k1_pay1 (F := Ideal) (k1_pay2 v0 v3 v6 v8 v11 v16) v37 v41 v47 (ix2 p q)
      = max (Cert.Spec.lnorm (Cert.Spec.comb (fun k => v0 (ix2 p k)) (fun k => v3 (ix2 p k)) (fun k j => v6 (ix2 k j))
                (fun k j => v8 (ix2 k j)) (fun j => v11 (ix2 0 j)) (fun j => v16 (ix2 0 j)))
              (fun j => v37 (ix2 0 j)) (fun j => v41 (ix2 0 j)) q) 0 + v47 (ix2 p q) := by
  rw [k1_pay2_eq]
  unfold k1_pay1
  show max (addf (mulf (core (pre v0 v3 v6 v8 v11 v16)) (broadcastTo S2000x128 (shapeCast S1x128 v37 shapeCasts_S1x128_S1x128) broadcasts_S1x128_S2000x128))
              (broadcastTo S2000x128 (shapeCast S1x128 v41 shapeCasts_S1x128_S1x128) broadcasts_S1x128_S2000x128) (ix2 p q))
          (Ideal.ofBits .f32 0x00000000#32)
      + shapeCast S2000x128 v47 shapeCasts_S2000x128_S2000x128 (ix2 p q) = _
  rw [core_scale_apply, pre_row, Ideal.ofBits_zero_f32, shapeCast_self]

/-- When the residual block holds the node's own entry at (p, q), that is the first layer's row at q. -/
theorem pay1_layer0 (v0 v3 v47 : Vec Ideal S2000x128 .f32) (v6 v8 : Vec Ideal S128x128 .f32)
    (v11 v16 v37 v41 : Vec Ideal S1x128 .f32) (p : Fin 2000) (q : Fin 128) (hres : v47 (ix2 p q) = v0 (ix2 p q)) :
    k1_pay1 (F := Ideal) (k1_pay2 v0 v3 v6 v8 v11 v16) v37 v41 v47 (ix2 p q)
      = Cert.Spec.layer0 (fun k => v0 (ix2 p k)) (fun k => v3 (ix2 p k)) (fun k j => v6 (ix2 k j)) (fun k j => v8 (ix2 k j))
          (fun j => v11 (ix2 0 j)) (fun j => v16 (ix2 0 j)) (fun j => v37 (ix2 0 j)) (fun j => v41 (ix2 0 j)) q := by
  rw [pay1, hres]
  rfl

end Cert.KernelIdeal.Pay

end
-- ==== Proof.Value1.lean ====
/-
  The first layer's output array after its 25 grid points.

  At point t the body reads rows 2000·t … 2000·t + 1999 of the node array twice (once for the dense layer,
  once as the residual), the same rows of the averaged neighbour array, the two whole weight matrices and
  the four whole rows (two biases, scale, shift), and writes back rows 2000·t … 2000·t + 1999 of the output.
  The two reads of the node array are the same block, so the residual added at (p, q) is the node's own
  entry, and entry (p, q) of the block written is the rectified normalised row of node 2000·t + p at q plus
  that entry: entry (2000·t + p, q) of the first layer's output of the whole arrays. The 25 blocks of 2000
  rows tile the 50000 rows, so the array ends holding that output everywhere.
-/
import proofs.«176153_j4715874091025_1_alg».proof.Proof.Body1
import proofs.«176153_j4715874091025_1_alg».proof.Proof.Pay1
import proofs.«176153_j4715874091025_1_alg».proof.Proof.Forms
import Idealize.ShloMosaic.Lib.Pipeline.Value
import Idealize.ShloMosaic.Lib.ValueIdx

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Where the windows' blocks sit -/

/-- At grid point t the blocks of node rows (the node's own rows, the averaged neighbour rows, the residual rows)
    and the output block are block t along the rows and block 0 along the entries; the two weight
    matrices and the four rows are their whole arrays at every point. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = t.val
    ∧ win1_9.index t (1 : Fin 2) = 0 :=
  (by decide +kernel : ∀ t : Fin grid1.N, _)

/-! ## One entry of one block -/

/-- If the two blocks of node rows hold row (i 0) of the arrays H and A at their row p, the residual block holds
    H's entry (i 0, q) at (p, q), and the other blocks
    are the whole arrays, the body's value at (p, q) is the entry of the layer's output at i = (i 0, q). -/
theorem point1 (H A : S50000x128.Idx → EReal) (Ws : S128x128.Idx → EReal) (Bs : S1x128.Idx → EReal) (Wn : S128x128.Idx → EReal)
    (Bn Gm Be : S1x128.Idx → EReal)
    (x0 : Vec Ideal S2000x128 .f32) (x1 : Vec Ideal S2000x128 .f32) (x2 : Vec Ideal S2000x128 .f32) (x3 : Vec Ideal S128x128 .f32) (x4 : Vec Ideal S1x128 .f32) (x5 : Vec Ideal S128x128 .f32) (x6 : Vec Ideal S1x128 .f32) (x7 : Vec Ideal S1x128 .f32) (x8 : Vec Ideal S1x128 .f32)
    (p : Fin 2000) (q : Fin 128) (i : S50000x128.Idx)
    (h0 : ∀ k : Fin 128, x0 (ix2 p k) = H (ix2 (i 0) k))
    (h1 : ∀ k : Fin 128, x1 (ix2 p k) = A (ix2 (i 0) k))
    (h2 : x2 (ix2 p q) = H (ix2 (i 0) q))
    (h3 : ∀ k j : Fin 128, x3 (ix2 k j) = Ws (ix2 k j))
    (h4 : ∀ j : Fin 128, x4 (ix2 0 j) = Bs (ix2 0 j))
    (h5 : ∀ k j : Fin 128, x5 (ix2 k j) = Wn (ix2 k j))
    (h6 : ∀ j : Fin 128, x6 (ix2 0 j) = Bn (ix2 0 j))
    (h7 : ∀ j : Fin 128, x7 (ix2 0 j) = Gm (ix2 0 j))
    (h8 : ∀ j : Fin 128, x8 (ix2 0 j) = Be (ix2 0 j))
    (hq : (i 1).val = q.val) :
    k1_pay1 (F := Ideal) (k1_pay2 x0 x1 x3 x5 x4 x6) x7 x8 x2 (ix2 p q) = Cert.Forms.G1 H A Ws Bs Wn Bn Gm Be i := by
  rw [Pay.pay1_layer0 _ _ _ _ _ _ _ _ _ p q (h2.trans (h0 q).symm)]
  unfold Cert.Forms.G1
  rw [show (fun k => x0 (ix2 p k)) = (fun k => H (ix2 (i 0) k)) from funext h0,
    show (fun k => x1 (ix2 p k)) = (fun k => A (ix2 (i 0) k)) from funext h1,
    show (fun k j => x3 (ix2 k j)) = (fun k j => Ws (ix2 k j)) from funext fun k => funext (h3 k),
    show (fun j => x4 (ix2 0 j)) = (fun j => Bs (ix2 0 j)) from funext h4,
    show (fun k j => x5 (ix2 k j)) = (fun k j => Wn (ix2 k j)) from funext fun k => funext (h5 k),
    show (fun j => x6 (ix2 0 j)) = (fun j => Bn (ix2 0 j)) from funext h6,
    show (fun j => x7 (ix2 0 j)) = (fun j => Gm (ix2 0 j)) from funext h7,
    show (fun j => x8 (ix2 0 j)) = (fun j => Be (ix2 0 j)) from funext h8]
  exact congrArg _ (Fin.ext hq).symm

/-! ## What a point writes back -/

/-- Point t writes back block t of the layer's output of the arrays the region finds. -/
theorem flushed1_eq (c : Dev nD) (t : Fin cfg1.N) :
    (Body.dat1 (F := Ideal) V c).flushed 9 t
      = ((cfg1.win 9).blk t).view.read (Elt Ideal) (Cert.Forms.G1 (V c main_v14) (V c main_v26) (V c main_arg4) (V c main_v27) (V c main_arg6) (V c main_v28) (V c main_v29) (V c main_v30)) := by
  show (cfg1.win 9).cut (grid1.coords t) ((Body.dat1 V c).after 9 t) = _
  rw [Body.after1_9, Body.out1_9_eq]
  obtain ⟨e00, e01, e10, e11, e20, e21, e30, e31, e40, e41, e50, e51, e60, e61, e70, e71, e80, e81, e90, e91⟩ := idx1 t
  funext j
  obtain ⟨p, q, rfl⟩ : ∃ (p : Fin 2000) (q : Fin 128), j = ix2 p q := ⟨j 0, j 1, eq_ix2 j⟩
  refine point1 (V c main_v14) (V c main_v26) (V c main_arg4) (V c main_v27) (V c main_arg6) (V c main_v28) (V c main_v29) (V c main_v30)
    (Body.iblk1 V c 0 t) (Body.iblk1 V c 1 t) (Body.iblk1 V c 2 t) (Body.iblk1 V c 3 t) (Body.iblk1 V c 4 t) (Body.iblk1 V c 5 t) (Body.iblk1 V c 6 t) (Body.iblk1 V c 7 t) (Body.iblk1 V c 8 t)
    p q (((cfg1.win 9).blk t).view.emb (ix2 p q)) (fun k => ?_) (fun k => ?_) ?_ (fun k j => ?_) (fun j => ?_) (fun k j => ?_) (fun j => ?_) (fun j => ?_) (fun j => ?_) ?_
  · show V c main_v14 (((cfg1.win 0).blk t).view.emb (ix2 p k)) = _
    refine congrArg (V c main_v14) (funext fun a => Fin.ext ?_)
    match a with
    | ⟨0, _⟩ => show win1_0.index t (0 : Fin 2) * 2000 + 1 * p.val = win1_9.index t (0 : Fin 2) * 2000 + 1 * p.val; rw [e00, e90]
    | ⟨1, _⟩ => show win1_0.index t (1 : Fin 2) * 128 + 1 * k.val = k.val; rw [e01]; omega
  · show V c main_v26 (((cfg1.win 1).blk t).view.emb (ix2 p k)) = _
    refine congrArg (V c main_v26) (funext fun a => Fin.ext ?_)
    match a with
    | ⟨0, _⟩ => show win1_1.index t (0 : Fin 2) * 2000 + 1 * p.val = win1_9.index t (0 : Fin 2) * 2000 + 1 * p.val; rw [e10, e90]
    | ⟨1, _⟩ => show win1_1.index t (1 : Fin 2) * 128 + 1 * k.val = k.val; rw [e11]; omega
  · show V c main_v14 (((cfg1.win 2).blk t).view.emb (ix2 p q)) = _
    refine congrArg (V c main_v14) (funext fun a => Fin.ext ?_)
    match a with
    | ⟨0, _⟩ => show win1_2.index t (0 : Fin 2) * 2000 + 1 * p.val = win1_9.index t (0 : Fin 2) * 2000 + 1 * p.val; rw [e20, e90]
    | ⟨1, _⟩ => show win1_2.index t (1 : Fin 2) * 128 + 1 * q.val = q.val; rw [e21]; omega
  · show V c main_arg4 (((cfg1.win 3).blk t).view.emb (ix2 k j)) = _
    refine congrArg (V c main_arg4) (funext fun a => Fin.ext ?_)
    match a with
    | ⟨0, _⟩ => show win1_3.index t (0 : Fin 2) * 128 + 1 * k.val = k.val; rw [e30]; omega
    | ⟨1, _⟩ => show win1_3.index t (1 : Fin 2) * 128 + 1 * j.val = j.val; rw [e31]; omega
  · show V c main_v27 (((cfg1.win 4).blk t).view.emb (ix2 0 j)) = _
    refine congrArg (V c main_v27) (funext fun a => Fin.ext ?_)
    match a with
    | ⟨0, _⟩ => show win1_4.index t (0 : Fin 2) * 1 + 1 * (0 : Fin 1).val = (0 : Fin 1).val; rw [e40]; rfl
    | ⟨1, _⟩ => show win1_4.index t (1 : Fin 2) * 128 + 1 * j.val = j.val; rw [e41]; omega
  · show V c main_arg6 (((cfg1.win 5).blk t).view.emb (ix2 k j)) = _
    refine congrArg (V c main_arg6) (funext fun a => Fin.ext ?_)
    match a with
    | ⟨0, _⟩ => show win1_5.index t (0 : Fin 2) * 128 + 1 * k.val = k.val; rw [e50]; omega
    | ⟨1, _⟩ => show win1_5.index t (1 : Fin 2) * 128 + 1 * j.val = j.val; rw [e51]; omega
  · show V c main_v28 (((cfg1.win 6).blk t).view.emb (ix2 0 j)) = _
    refine congrArg (V c main_v28) (funext fun a => Fin.ext ?_)
    match a with
    | ⟨0, _⟩ => show win1_6.index t (0 : Fin 2) * 1 + 1 * (0 : Fin 1).val = (0 : Fin 1).val; rw [e60]; rfl
    | ⟨1, _⟩ => show win1_6.index t (1 : Fin 2) * 128 + 1 * j.val = j.val; rw [e61]; omega
  · show V c main_v29 (((cfg1.win 7).blk t).view.emb (ix2 0 j)) = _
    refine congrArg (V c main_v29) (funext fun a => Fin.ext ?_)
    match a with
    | ⟨0, _⟩ => show win1_7.index t (0 : Fin 2) * 1 + 1 * (0 : Fin 1).val = (0 : Fin 1).val; rw [e70]; rfl
    | ⟨1, _⟩ => show win1_7.index t (1 : Fin 2) * 128 + 1 * j.val = j.val; rw [e71]; omega
  · show V c main_v30 (((cfg1.win 8).blk t).view.emb (ix2 0 j)) = _
    refine congrArg (V c main_v30) (funext fun a => Fin.ext ?_)
    match a with
    | ⟨0, _⟩ => show win1_8.index t (0 : Fin 2) * 1 + 1 * (0 : Fin 1).val = (0 : Fin 1).val; rw [e80]; rfl
    | ⟨1, _⟩ => show win1_8.index t (1 : Fin 2) * 128 + 1 * j.val = j.val; rw [e81]; omega
  · show win1_9.index t (1 : Fin 2) * 128 + 1 * q.val = q.val
    rw [e91]; omega

/-! ## The blocks tile the array -/

/-- An entry is in point t's block iff each coordinate is in the block's range on its axis. -/
theorem mem_blk1 (t : Fin cfg1.N) (i : S50000x128.Idx) :
    i ∈ ((cfg1.win 9).blk t).view.set ↔ ∀ a : Fin 2, win1_9.index t a * S2000x128.size a ≤ (i a).val
      ∧ (i a).val < win1_9.index t a * S2000x128.size a + S2000x128.size a := by
  show i ∈ ((View.whole main_v31).slice (win1_9.rect t)).set ↔ _
  rw [View.set_slice_whole, Rect.mem_set_unit]
  exact Iff.rfl

/-- Every entry (r, j) of the array is in the block of the point r / 2000, which writes back. -/
theorem cover1 (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by show (i 0).val / 2000 < 25; omega⟩, rfl⟩
  obtain ⟨-, -, -, -, -, -, -, -, -, -, -, -, -, -, -, -, -, -, eo0, eo1⟩ := idx1 t
  refine ⟨t, flush1_9 t, ?_⟩
  rw [mem_blk1]
  intro a
  match a with
  | ⟨0, _⟩ =>
    show win1_9.index t (0 : Fin 2) * 2000 ≤ (i 0).val ∧ (i 0).val < win1_9.index t (0 : Fin 2) * 2000 + 2000
    rw [eo0, ht]; omega
  | ⟨1, _⟩ =>
    show win1_9.index t (1 : Fin 2) * 128 ≤ (i 1).val ∧ (i 1).val < win1_9.index t (1 : Fin 2) * 128 + 128
    rw [eo1]; omega

/-! ## The output array after the region -/

/-- After the 25 points the output array is the layer's output of the arrays the region found. -/
theorem final1 (c : Dev nD) :
    (Body.dat1 (F := Ideal) V c).arrAt 9 cfg1.N = Cert.Forms.G1 (V c main_v14) (V c main_v26) (V c main_arg4) (V c main_v27) (V c main_arg6) (V c main_v28) (V c main_v29) (V c main_v30) :=
  (Body.dat1 (F := Ideal) V c).arrAt_eq_of_cover 9 _ (fun t _ => flushed1_eq V c t) cover1

end Cert.KernelIdeal.Val

end
-- ==== Proof.Pay2.lean ====
/-
  The last layer's body at one entry: the sum of the two dense layers, normalised along the row, scaled
  and shifted — the last layer's row, with no rectification and no residual.
-/
import proofs.«176153_j4715874091025_1_alg».proof.Proof.PayLib

noncomputable section

open Idealize.ShloMosaic Idealize.ShloMosaic.ValueIdx
open scoped BigOperators

namespace Cert.KernelIdeal.Pay

open Cert.KernelIdeal.Gen

/-- The stored block of the last layer, at (p, q), is the entry q of the last layer's row p. -/
theorem pay2 (v0 v3 : Vec Ideal S2000x128 .f32) (v6 v8 : Vec Ideal S128x128 .f32)
    (v11 v16 v37 v41 : Vec Ideal S1x128 .f32) (p : Fin 2000) (q : Fin 128) :
    k2_pay1 (F := Ideal) (k2_pay2 v0 v3 v6 v8 v11 v16) v37 v41 (ix2 p q)
      = Cert.Spec.layer1 (fun k => v0 (ix2 p k)) (fun k => v3 (ix2 p k)) (fun k j => v6 (ix2 k j)) (fun k j => v8 (ix2 k j))
          (fun j => v11 (ix2 0 j)) (fun j => v16 (ix2 0 j)) (fun j => v37 (ix2 0 j)) (fun j => v41 (ix2 0 j)) q := by
  rw [k2_pay2_eq]
  unfold k2_pay1 Cert.Spec.layer1
  show addf (mulf (core (pre v0 v3 v6 v8 v11 v16)) (broadcastTo S2000x128 (shapeCast S1x128 v37 shapeCasts_S1x128_S1x128) broadcasts_S1x128_S2000x128))
          (broadcastTo S2000x128 (shapeCast S1x128 v41 shapeCasts_S1x128_S1x128) broadcasts_S1x128_S2000x128) (ix2 p q) = _
  rw [core_scale_apply, pre_row]

end Cert.KernelIdeal.Pay

end
-- ==== Proof.Value2.lean ====
/-
  The last layer's output array after its 25 grid points.

  At point t the body reads rows 2000·t … 2000·t + 1999 of the node array and of the averaged neighbour
  array, the two whole weight matrices and the four whole rows (two biases, scale, shift), and writes back
  rows 2000·t … 2000·t + 1999 of the output. Entry (p, q) of the block it writes is the normalised row of
  node 2000·t + p at q, which is entry (2000·t + p, q) of the last layer's output of the whole arrays. The
  25 blocks of 2000 rows tile the 50000 rows, so the array ends holding that output everywhere.
-/
import proofs.«176153_j4715874091025_1_alg».proof.Proof.Body2
import proofs.«176153_j4715874091025_1_alg».proof.Proof.Pay2
import proofs.«176153_j4715874091025_1_alg».proof.Proof.Forms
import Idealize.ShloMosaic.Lib.Pipeline.Value
import Idealize.ShloMosaic.Lib.ValueIdx

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Where the windows' blocks sit -/

/-- At grid point t the blocks of node rows (the node's own rows, the averaged neighbour rows)
    and the output block are block t along the rows and block 0 along the entries; the two weight
    matrices and the four rows are their whole arrays at every point. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = t.val
    ∧ win2_8.index t (1 : Fin 2) = 0 :=
  (by decide +kernel : ∀ t : Fin grid2.N, _)

/-! ## One entry of one block -/

/-- If the two blocks of node rows hold row (i 0) of the arrays H and A at their row p and the other blocks
    are the whole arrays, the body's value at (p, q) is the entry of the layer's output at i = (i 0, q). -/
theorem point2 (H A : S50000x128.Idx → EReal) (Ws : S128x128.Idx → EReal) (Bs : S1x128.Idx → EReal) (Wn : S128x128.Idx → EReal)
    (Bn Gm Be : S1x128.Idx → EReal)
    (x0 : Vec Ideal S2000x128 .f32) (x1 : Vec Ideal S2000x128 .f32) (x2 : Vec Ideal S128x128 .f32) (x3 : Vec Ideal S1x128 .f32) (x4 : Vec Ideal S128x128 .f32) (x5 : Vec Ideal S1x128 .f32) (x6 : Vec Ideal S1x128 .f32) (x7 : Vec Ideal S1x128 .f32)
    (p : Fin 2000) (q : Fin 128) (i : S50000x128.Idx)
    (h0 : ∀ k : Fin 128, x0 (ix2 p k) = H (ix2 (i 0) k))
    (h1 : ∀ k : Fin 128, x1 (ix2 p k) = A (ix2 (i 0) k))
    (h2 : ∀ k j : Fin 128, x2 (ix2 k j) = Ws (ix2 k j))
    (h3 : ∀ j : Fin 128, x3 (ix2 0 j) = Bs (ix2 0 j))
    (h4 : ∀ k j : Fin 128, x4 (ix2 k j) = Wn (ix2 k j))
    (h5 : ∀ j : Fin 128, x5 (ix2 0 j) = Bn (ix2 0 j))
    (h6 : ∀ j : Fin 128, x6 (ix2 0 j) = Gm (ix2 0 j))
    (h7 : ∀ j : Fin 128, x7 (ix2 0 j) = Be (ix2 0 j))
    (hq : (i 1).val = q.val) :
    k2_pay1 (F := Ideal) (k2_pay2 x0 x1 x2 x4 x3 x5) x6 x7 (ix2 p q) = Cert.Forms.G2 H A Ws Bs Wn Bn Gm Be i := by
  rw [Pay.pay2]
  unfold Cert.Forms.G2
  rw [show (fun k => x0 (ix2 p k)) = (fun k => H (ix2 (i 0) k)) from funext h0,
    show (fun k => x1 (ix2 p k)) = (fun k => A (ix2 (i 0) k)) from funext h1,
    show (fun k j => x2 (ix2 k j)) = (fun k j => Ws (ix2 k j)) from funext fun k => funext (h2 k),
    show (fun j => x3 (ix2 0 j)) = (fun j => Bs (ix2 0 j)) from funext h3,
    show (fun k j => x4 (ix2 k j)) = (fun k j => Wn (ix2 k j)) from funext fun k => funext (h4 k),
    show (fun j => x5 (ix2 0 j)) = (fun j => Bn (ix2 0 j)) from funext h5,
    show (fun j => x6 (ix2 0 j)) = (fun j => Gm (ix2 0 j)) from funext h6,
    show (fun j => x7 (ix2 0 j)) = (fun j => Be (ix2 0 j)) from funext h7]
  exact congrArg _ (Fin.ext hq).symm

/-! ## What a point writes back -/

/-- Point t writes back block t of the layer's output of the arrays the region finds. -/
theorem flushed2_eq (c : Dev nD) (t : Fin cfg2.N) :
    (Body.dat2 (F := Ideal) V c).flushed 8 t
      = ((cfg2.win 8).blk t).view.read (Elt Ideal) (Cert.Forms.G2 (V c main_v31) (V c main_v43) (V c main_arg10) (V c main_v44) (V c main_arg12) (V c main_v45) (V c main_v46) (V c main_v47)) := by
  show (cfg2.win 8).cut (grid2.coords t) ((Body.dat2 V c).after 8 t) = _
  rw [Body.after2_8, Body.out2_8_eq]
  obtain ⟨e00, e01, e10, e11, e20, e21, e30, e31, e40, e41, e50, e51, e60, e61, e70, e71, e80, e81⟩ := idx2 t
  funext j
  obtain ⟨p, q, rfl⟩ : ∃ (p : Fin 2000) (q : Fin 128), j = ix2 p q := ⟨j 0, j 1, eq_ix2 j⟩
  refine point2 (V c main_v31) (V c main_v43) (V c main_arg10) (V c main_v44) (V c main_arg12) (V c main_v45) (V c main_v46) (V c main_v47)
    (Body.iblk2 V c 0 t) (Body.iblk2 V c 1 t) (Body.iblk2 V c 2 t) (Body.iblk2 V c 3 t) (Body.iblk2 V c 4 t) (Body.iblk2 V c 5 t) (Body.iblk2 V c 6 t) (Body.iblk2 V c 7 t)
    p q (((cfg2.win 8).blk t).view.emb (ix2 p q)) (fun k => ?_) (fun k => ?_) (fun k j => ?_) (fun j => ?_) (fun k j => ?_) (fun j => ?_) (fun j => ?_) (fun j => ?_) ?_
  · show V c main_v31 (((cfg2.win 0).blk t).view.emb (ix2 p k)) = _
    refine congrArg (V c main_v31) (funext fun a => Fin.ext ?_)
    match a with
    | ⟨0, _⟩ => show win2_0.index t (0 : Fin 2) * 2000 + 1 * p.val = win2_8.index t (0 : Fin 2) * 2000 + 1 * p.val; rw [e00, e80]
    | ⟨1, _⟩ => show win2_0.index t (1 : Fin 2) * 128 + 1 * k.val = k.val; rw [e01]; omega
  · show V c main_v43 (((cfg2.win 1).blk t).view.emb (ix2 p k)) = _
    refine congrArg (V c main_v43) (funext fun a => Fin.ext ?_)
    match a with
    | ⟨0, _⟩ => show win2_1.index t (0 : Fin 2) * 2000 + 1 * p.val = win2_8.index t (0 : Fin 2) * 2000 + 1 * p.val; rw [e10, e80]
    | ⟨1, _⟩ => show win2_1.index t (1 : Fin 2) * 128 + 1 * k.val = k.val; rw [e11]; omega
  · show V c main_arg10 (((cfg2.win 2).blk t).view.emb (ix2 k j)) = _
    refine congrArg (V c main_arg10) (funext fun a => Fin.ext ?_)
    match a with
    | ⟨0, _⟩ => show win2_2.index t (0 : Fin 2) * 128 + 1 * k.val = k.val; rw [e20]; omega
    | ⟨1, _⟩ => show win2_2.index t (1 : Fin 2) * 128 + 1 * j.val = j.val; rw [e21]; omega
  · show V c main_v44 (((cfg2.win 3).blk t).view.emb (ix2 0 j)) = _
    refine congrArg (V c main_v44) (funext fun a => Fin.ext ?_)
    match a with
    | ⟨0, _⟩ => show win2_3.index t (0 : Fin 2) * 1 + 1 * (0 : Fin 1).val = (0 : Fin 1).val; rw [e30]; rfl
    | ⟨1, _⟩ => show win2_3.index t (1 : Fin 2) * 128 + 1 * j.val = j.val; rw [e31]; omega
  · show V c main_arg12 (((cfg2.win 4).blk t).view.emb (ix2 k j)) = _
    refine congrArg (V c main_arg12) (funext fun a => Fin.ext ?_)
    match a with
    | ⟨0, _⟩ => show win2_4.index t (0 : Fin 2) * 128 + 1 * k.val = k.val; rw [e40]; omega
    | ⟨1, _⟩ => show win2_4.index t (1 : Fin 2) * 128 + 1 * j.val = j.val; rw [e41]; omega
  · show V c main_v45 (((cfg2.win 5).blk t).view.emb (ix2 0 j)) = _
    refine congrArg (V c main_v45) (funext fun a => Fin.ext ?_)
    match a with
    | ⟨0, _⟩ => show win2_5.index t (0 : Fin 2) * 1 + 1 * (0 : Fin 1).val = (0 : Fin 1).val; rw [e50]; rfl
    | ⟨1, _⟩ => show win2_5.index t (1 : Fin 2) * 128 + 1 * j.val = j.val; rw [e51]; omega
  · show V c main_v46 (((cfg2.win 6).blk t).view.emb (ix2 0 j)) = _
    refine congrArg (V c main_v46) (funext fun a => Fin.ext ?_)
    match a with
    | ⟨0, _⟩ => show win2_6.index t (0 : Fin 2) * 1 + 1 * (0 : Fin 1).val = (0 : Fin 1).val; rw [e60]; rfl
    | ⟨1, _⟩ => show win2_6.index t (1 : Fin 2) * 128 + 1 * j.val = j.val; rw [e61]; omega
  · show V c main_v47 (((cfg2.win 7).blk t).view.emb (ix2 0 j)) = _
    refine congrArg (V c main_v47) (funext fun a => Fin.ext ?_)
    match a with
    | ⟨0, _⟩ => show win2_7.index t (0 : Fin 2) * 1 + 1 * (0 : Fin 1).val = (0 : Fin 1).val; rw [e70]; rfl
    | ⟨1, _⟩ => show win2_7.index t (1 : Fin 2) * 128 + 1 * j.val = j.val; rw [e71]; omega
  · show win2_8.index t (1 : Fin 2) * 128 + 1 * q.val = q.val
    rw [e81]; omega

/-! ## The blocks tile the array -/

/-- An entry is in point t's block iff each coordinate is in the block's range on its axis. -/
theorem mem_blk2 (t : Fin cfg2.N) (i : S50000x128.Idx) :
    i ∈ ((cfg2.win 8).blk t).view.set ↔ ∀ a : Fin 2, win2_8.index t a * S2000x128.size a ≤ (i a).val
      ∧ (i a).val < win2_8.index t a * S2000x128.size a + S2000x128.size a := by
  show i ∈ ((View.whole main_v48).slice (win2_8.rect t)).set ↔ _
  rw [View.set_slice_whole, Rect.mem_set_unit]
  exact Iff.rfl

/-- Every entry (r, j) of the array is in the block of the point r / 2000, which writes back. -/
theorem cover2 (i : S50000x128.Idx) :
    ∃ t : Fin cfg2.N, (cfg2.win 8).flush t = true ∧ i ∈ ((cfg2.win 8).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, by show (i 0).val / 2000 < 25; omega⟩, rfl⟩
  obtain ⟨-, -, -, -, -, -, -, -, -, -, -, -, -, -, -, -, eo0, eo1⟩ := idx2 t
  refine ⟨t, flush2_8 t, ?_⟩
  rw [mem_blk2]
  intro a
  match a with
  | ⟨0, _⟩ =>
    show win2_8.index t (0 : Fin 2) * 2000 ≤ (i 0).val ∧ (i 0).val < win2_8.index t (0 : Fin 2) * 2000 + 2000
    rw [eo0, ht]; omega
  | ⟨1, _⟩ =>
    show win2_8.index t (1 : Fin 2) * 128 ≤ (i 1).val ∧ (i 1).val < win2_8.index t (1 : Fin 2) * 128 + 128
    rw [eo1]; omega

/-! ## The output array after the region -/

/-- After the 25 points the output array is the layer's output of the arrays the region found. -/
theorem final2 (c : Dev nD) :
    (Body.dat2 (F := Ideal) V c).arrAt 8 cfg2.N = Cert.Forms.G2 (V c main_v31) (V c main_v43) (V c main_arg10) (V c main_v44) (V c main_arg12) (V c main_v45) (V c main_v46) (V c main_v47) :=
  (Body.dat2 (F := Ideal) V c).arrAt_eq_of_cover 8 _ (fun t _ => flushed2_eq V c t) cover2

end Cert.KernelIdeal.Val

end
-- ==== Proof.KernelValue.lean ====
/-
  The kernel's result array after the run, as a function of the launch memory.

  Reading the run backwards: the result is what the last call's 25 write-backs leave, a function of
  the buffers the last call reads. Of those, the node features are what the first layer left, the
  aggregate is the third host stretch's function of those features and of the edge vectors and the
  reciprocal column the first stretch computed (nothing in between writes them), the weights are
  argument arrays no item writes, and the bias-like rows are shape casts of argument arrays. The
  same holds one layer earlier, down to the input projection of the argument arrays themselves.
-/
import proofs.«176153_j4715874091025_1_alg».proof.Proof.Run
import proofs.«176153_j4715874091025_1_alg».proof.Proof.HostRead
import proofs.«176153_j4715874091025_1_alg».proof.Proof.Value0
import proofs.«176153_j4715874091025_1_alg».proof.Proof.Value1
import proofs.«176153_j4715874091025_1_alg».proof.Proof.Value2

set_option maxRecDepth 16384

noncomputable section

namespace Cert.KernelIdeal.KValue

open Idealize.ShloMosaic Idealize.ShloMosaic.TcCoe
open Idealize.SL Idealize.SL.Sem
open Cert.KernelIdeal Cert.KernelIdeal.Gen Cert.KernelIdeal.Body Cert.KernelIdeal.Whole Cert.KernelIdeal.HostRead Cert.Final

variable (m : (ℓ : Loc nD τ sig) → Buf (Elt Ideal) ℓ) (c : Dev nD)

/-! ## Buffers an item does not write keep their contents across it -/

theorem W1_kept (r : Ref sig .tc) (h0 : r ∉ hostOps0_W) : W1 m c (Proc.devRef .tc r) = m ((c : Thread nD τ).loc r) :=
  (StableHlo.after_of_writes_sub hostOps0 _ hostOps0_writes h0).trans rfl
theorem W3_eq_W2 (r : Ref sig .tc) (h1 : r ∉ hostOps1_W) : W3 m c (Proc.devRef .tc r) = W2 m c (Proc.devRef .tc r) :=
  StableHlo.after_of_writes_sub hostOps1 _ hostOps1_writes h1
theorem W5_eq_W4 (r : Ref sig .tc) (h2 : r ∉ hostOps2_W) : W5 m c (Proc.devRef .tc r) = W4 m c (Proc.devRef .tc r) :=
  StableHlo.after_of_writes_sub hostOps2 _ hostOps2_writes h2

/-- An argument array holds its launch contents at every boundary up to the last layer's entry. -/
theorem W2_arg (r : Ref sig .tc) (h0 : r ∉ hostOps0_W) (h14 : r ≠ main_v14) : W2 m c (Proc.devRef .tc r) = m ((c : Thread nD τ).loc r) :=
  (W2_of_ne m c r h14).trans (W1_kept m c r h0)
theorem W3_arg (r : Ref sig .tc) (h0 : r ∉ hostOps0_W) (h14 : r ≠ main_v14) (h1 : r ∉ hostOps1_W) :
    W3 m c (Proc.devRef .tc r) = m ((c : Thread nD τ).loc r) :=
  (W3_eq_W2 m c r h1).trans (W2_arg m c r h0 h14)
theorem W4_arg (r : Ref sig .tc) (h0 : r ∉ hostOps0_W) (h14 : r ≠ main_v14) (h1 : r ∉ hostOps1_W) (h31 : r ≠ main_v31) :
    W4 m c (Proc.devRef .tc r) = m ((c : Thread nD τ).loc r) :=
  (W4_of_ne m c r h31).trans (W3_arg m c r h0 h14 h1)
theorem W5_arg (r : Ref sig .tc) (h0 : r ∉ hostOps0_W) (h14 : r ≠ main_v14) (h1 : r ∉ hostOps1_W) (h31 : r ≠ main_v31) (h2 : r ∉ hostOps2_W) :
    W5 m c (Proc.devRef .tc r) = m ((c : Thread nD τ).loc r) :=
  (W5_eq_W4 m c r h2).trans (W4_arg m c r h0 h14 h1 h31)

/-- What the first stretch computed stays until the last layer's entry: no later item writes it. -/
theorem W2_first (r : Ref sig .tc) (h14 : r ≠ main_v14) : W2 m c (Proc.devRef .tc r) = W1 m c (Proc.devRef .tc r) := W2_of_ne m c r h14
theorem W4_first (r : Ref sig .tc) (h14 : r ≠ main_v14) (h1 : r ∉ hostOps1_W) (h31 : r ≠ main_v31) :
    W4 m c (Proc.devRef .tc r) = W1 m c (Proc.devRef .tc r) :=
  (W4_of_ne m c r h31).trans ((W3_eq_W2 m c r h1).trans (W2_of_ne m c r h14))

/-! ## The argument arrays, named -/

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)
abbrev a11 := m ((c : Thread nD τ).loc main_arg11)
abbrev a12 := m ((c : Thread nD τ).loc main_arg12)
abbrev a13 := m ((c : Thread nD τ).loc main_arg13)
abbrev a14 := m ((c : Thread nD τ).loc main_arg14)
abbrev a15 := m ((c : Thread nD τ).loc main_arg15)

/-- The node features after the input projection, and after the first layer. -/
abbrev h0 := K0 (a0 m c) (a2 m c) (a3 m c)
abbrev h1 := K1 (a1 m c) (h0 m c) (a4 m c) (a5 m c) (a6 m c) (a7 m c) (a8 m c) (a9 m c)

/-! ## The first stretch's results -/

theorem W1_src : W1 m c (Proc.devRef .tc main_v1) = kSrc (a1 m c) := first_src (W0 m c)
theorem W1_tgt : W1 m c (Proc.devRef .tc main_v3) = kTgt (a1 m c) := first_tgt (W0 m c)
theorem W1_inv : W1 m c (Proc.devRef .tc main_v12) = kInvOf (kTgt (a1 m c)) := first_inv (W0 m c)
theorem W1_bias : W1 m c (Proc.devRef .tc main_v13) = kRow (a3 m c) := first_bias (W0 m c)

/-! ## The input projection's output -/

theorem W2_feat : W2 m c (Proc.devRef .tc main_v14) = h0 m c := by
  rw [W2_out, Cert.KernelIdeal.Val.final0 (Vt1 m) c]
  show Cert.Forms.G0 (W1 m c (Proc.devRef .tc main_arg0)) (W1 m c (Proc.devRef .tc main_arg2)) (W1 m c (Proc.devRef .tc main_v13)) = _
  rw [W1_kept m c main_arg0 (by decide), W1_kept m c main_arg2 (by decide), W1_bias]
  rfl

/-! ## The first aggregation and the first layer -/

theorem W3_agg : W3 m c (Proc.devRef .tc main_v26) = kAgg (a1 m c) (h0 m c) := by
  show StableHlo.after hostOps1 (W2 m c) (Proc.devRef .tc main_v26) = _
  rw [second_agg (W2 m c), W2_feat, W2_first m c main_v1 (by decide), W2_first m c main_v3 (by decide), W2_first m c main_v12 (by decide),
    W1_src, W1_tgt, W1_inv]
  rfl

theorem W4_feat : W4 m c (Proc.devRef .tc main_v31) = h1 m c := by
  rw [W4_out, Cert.KernelIdeal.Val.final1 (Vt3 m) c]
  show Cert.Forms.G1 (W3 m c (Proc.devRef .tc main_v14)) (W3 m c (Proc.devRef .tc main_v26)) (W3 m c (Proc.devRef .tc main_arg4))
    (W3 m c (Proc.devRef .tc main_v27)) (W3 m c (Proc.devRef .tc main_arg6)) (W3 m c (Proc.devRef .tc main_v28))
    (W3 m c (Proc.devRef .tc main_v29)) (W3 m c (Proc.devRef .tc main_v30)) = _
  rw [W3_eq_W2 m c main_v14 (by decide), W2_feat, W3_agg, W3_arg m c main_arg4 (by decide) (by decide) (by decide),
    W3_arg m c main_arg6 (by decide) (by decide) (by decide)]
  rw [show W3 m c (Proc.devRef .tc main_v27) = kRow (a5 m c) from (second_bs (W2 m c)).trans (congrArg kRow (W2_arg m c main_arg5 (by decide) (by decide))),
    show W3 m c (Proc.devRef .tc main_v28) = kRow (a7 m c) from (second_bn (W2 m c)).trans (congrArg kRow (W2_arg m c main_arg7 (by decide) (by decide))),
    show W3 m c (Proc.devRef .tc main_v29) = kRow (a8 m c) from (second_g (W2 m c)).trans (congrArg kRow (W2_arg m c main_arg8 (by decide) (by decide))),
    show W3 m c (Proc.devRef .tc main_v30) = kRow (a9 m c) from (second_be (W2 m c)).trans (congrArg kRow (W2_arg m c main_arg9 (by decide) (by decide)))]
  rfl

/-! ## The second aggregation and the last layer -/

theorem W5_agg : W5 m c (Proc.devRef .tc main_v43) = kAgg (a1 m c) (h1 m c) := by
  show StableHlo.after hostOps2 (W4 m c) (Proc.devRef .tc main_v43) = _
  rw [third_agg (W4 m c), W4_feat, W4_first m c main_v1 (by decide) (by decide) (by decide), W4_first m c main_v3 (by decide) (by decide) (by decide),
    W4_first m c main_v12 (by decide) (by decide) (by decide), W1_src, W1_tgt, W1_inv]
  rfl

/-- THE RESULT: what the last call's write-backs leave is the kernel's closed form of the launch memory's argument arrays. -/
theorem result_eq : (dat2 (Vt5 m) c).arrAt 8 cfg2.N
    = KFinal (a0 m c) (a1 m c) (a2 m c) (a3 m c) (a4 m c) (a5 m c) (a6 m c) (a7 m c) (a8 m c) (a9 m c)
        (a10 m c) (a11 m c) (a12 m c) (a13 m c) (a14 m c) (a15 m c) := by
  rw [Cert.KernelIdeal.Val.final2 (Vt5 m) c]
  show Cert.Forms.G2 (W5 m c (Proc.devRef .tc main_v31)) (W5 m c (Proc.devRef .tc main_v43)) (W5 m c (Proc.devRef .tc main_arg10))
    (W5 m c (Proc.devRef .tc main_v44)) (W5 m c (Proc.devRef .tc main_arg12)) (W5 m c (Proc.devRef .tc main_v45))
    (W5 m c (Proc.devRef .tc main_v46)) (W5 m c (Proc.devRef .tc main_v47)) = _
  rw [W5_eq_W4 m c main_v31 (by decide), W4_feat, W5_agg,
    W5_arg m c main_arg10 (by decide) (by decide) (by decide) (by decide) (by decide),
    W5_arg m c main_arg12 (by decide) (by decide) (by decide) (by decide) (by decide)]
  rw [show W5 m c (Proc.devRef .tc main_v44) = kRow (a11 m c) from (third_bs (W4 m c)).trans (congrArg kRow (W4_arg m c main_arg11 (by decide) (by decide) (by decide) (by decide))),
    show W5 m c (Proc.devRef .tc main_v45) = kRow (a13 m c) from (third_bn (W4 m c)).trans (congrArg kRow (W4_arg m c main_arg13 (by decide) (by decide) (by decide) (by decide))),
    show W5 m c (Proc.devRef .tc main_v46) = kRow (a14 m c) from (third_g (W4 m c)).trans (congrArg kRow (W4_arg m c main_arg14 (by decide) (by decide) (by decide) (by decide))),
    show W5 m c (Proc.devRef .tc main_v47) = kRow (a15 m c) from (third_be (W4 m c)).trans (congrArg kRow (W4_arg m c main_arg15 (by decide) (by decide) (by decide) (by decide)))]
  rfl

end Cert.KernelIdeal.KValue

end
-- ==== Proof.RefLayers.lean ====
/-
  The reference read back, layer by layer.

  Every stage of the reference between two aggregations acts on one node's row at a time: the input
  projection, the pre-normalisation sum ((h·Ws + bs) + a·Wn) + bn of a layer, and the layer
  normalisation. Each lemma below reads one such stretch of stages at the entry (p, q) — node p,
  feature q — as the row function of the specification applied to row p of the arrays the stretch
  starts from. The arrays a stretch starts from (the projected features, an aggregated neighbour
  array, a pre-normalisation sum) stay closed terms: nothing here looks inside an aggregation.

  The index equations say where a stage reads: a contraction reads row p of its left operand and
  column q of its right; a bias vector broadcast along the rows is read at q; a row statistic kept as
  a one-column array and broadcast back along the columns is read at (p, 0), i.e. at node p; a sum
  over the feature axis at node p reads the entries (p, k).
-/
import proofs.«176153_j4715874091025_1_alg».proof.Proof.Gen.ReferenceIdeal.Read
import proofs.«176153_j4715874091025_1_alg».proof.Proof.Spec

noncomputable section

open Idealize.ShloMosaic Idealize.ShloMosaic.ValueIdx
open Cert.ReferenceIdeal Cert.ReferenceIdeal.Read
open scoped BigOperators

namespace Cert.RefForm

/-! ### Where each stage reads -/

-- input projection: x·W_in, then the bias row
theorem lidx4 (p : Fin 50000) (q : Fin 128) (k : Fin 32) : lidx_main_v4 (ix2 p q) k = ix2 p k := funext fun a => Fin.ext (by match a with | ⟨0, _⟩ => rfl | ⟨1, _⟩ => rfl)
theorem ridx4 (p : Fin 50000) (q : Fin 128) (k : Fin 32) : ridx_main_v4 (ix2 p q) k = ix2 k q := funext fun a => Fin.ext (by match a with | ⟨0, _⟩ => rfl | ⟨1, _⟩ => rfl)
theorem idx5_6 (p : Fin 50000) (q : Fin 128) : idx_main_v5 (idx_main_v6 (ix2 p q)) = ix1 q := funext fun a => Fin.ext (by match a with | ⟨0, _⟩ => rfl)

-- first layer, the sum before normalisation
theorem lidx9 (p : Fin 50000) (q k : Fin 128) : lidx_main_v9 (ix2 p q) k = ix2 p k := funext fun a => Fin.ext (by match a with | ⟨0, _⟩ => rfl | ⟨1, _⟩ => rfl)
theorem ridx9 (p : Fin 50000) (q k : Fin 128) : ridx_main_v9 (ix2 p q) k = ix2 k q := funext fun a => Fin.ext (by match a with | ⟨0, _⟩ => rfl | ⟨1, _⟩ => rfl)
theorem idx10_11 (p : Fin 50000) (q : Fin 128) : idx_main_v10 (idx_main_v11 (ix2 p q)) = ix1 q := funext fun a => Fin.ext (by match a with | ⟨0, _⟩ => rfl)
theorem lidx32 (p : Fin 50000) (q k : Fin 128) : lidx_main_v32 (ix2 p q) k = ix2 p k := funext fun a => Fin.ext (by match a with | ⟨0, _⟩ => rfl | ⟨1, _⟩ => rfl)
theorem ridx32 (p : Fin 50000) (q k : Fin 128) : ridx_main_v32 (ix2 p q) k = ix2 k q := funext fun a => Fin.ext (by match a with | ⟨0, _⟩ => rfl | ⟨1, _⟩ => rfl)
theorem idx34_35 (p : Fin 50000) (q : Fin 128) : idx_main_v34 (idx_main_v35 (ix2 p q)) = ix1 q := funext fun a => Fin.ext (by match a with | ⟨0, _⟩ => rfl)

-- first layer, the normalisation
theorem idx37 (p : Fin 50000) (k : Fin 128) : idx_main_v37 (ix1 p) k = ix2 p k := funext fun a => Fin.ext (by match a with | ⟨0, _⟩ => rfl | ⟨1, _⟩ => rfl)
theorem idx38 (p : Fin 50000) (u : Fin 1) : idx_main_v38 (ix2 p u) = ix1 p := funext fun a => Fin.ext (by match a with | ⟨0, _⟩ => rfl)
theorem idx41 (p : Fin 50000) (q : Fin 128) : idx_main_v41 (ix2 p q) = ix2 p (0 : Fin 1) := funext fun a => Fin.ext (by match a with | ⟨0, _⟩ => rfl | ⟨1, _⟩ => rfl)
theorem idx44 (p : Fin 50000) (k : Fin 128) : idx_main_v44 (ix1 p) k = ix2 p k := funext fun a => Fin.ext (by match a with | ⟨0, _⟩ => rfl | ⟨1, _⟩ => rfl)
theorem idx45 (p : Fin 50000) (u : Fin 1) : idx_main_v45 (ix2 p u) = ix1 p := funext fun a => Fin.ext (by match a with | ⟨0, _⟩ => rfl)
theorem idx48 (p : Fin 50000) (q : Fin 128) : idx_main_v48 (ix2 p q) = ix2 p (0 : Fin 1) := funext fun a => Fin.ext (by match a with | ⟨0, _⟩ => rfl | ⟨1, _⟩ => rfl)
theorem idx53 (p : Fin 50000) (q : Fin 128) : idx_main_v53 (ix2 p q) = ix2 p (0 : Fin 1) := funext fun a => Fin.ext (by match a with | ⟨0, _⟩ => rfl | ⟨1, _⟩ => rfl)
theorem idx55_56 (p : Fin 50000) (q : Fin 128) : idx_main_v55 (idx_main_v56 (ix2 p q)) = ix1 q := funext fun a => Fin.ext (by match a with | ⟨0, _⟩ => rfl)
theorem idx58_59 (p : Fin 50000) (q : Fin 128) : idx_main_v58 (idx_main_v59 (ix2 p q)) = ix1 q := funext fun a => Fin.ext (by match a with | ⟨0, _⟩ => rfl)

-- second layer, the sum before normalisation
theorem lidx63 (p : Fin 50000) (q k : Fin 128) : lidx_main_v63 (ix2 p q) k = ix2 p k := funext fun a => Fin.ext (by match a with | ⟨0, _⟩ => rfl | ⟨1, _⟩ => rfl)
theorem ridx63 (p : Fin 50000) (q k : Fin 128) : ridx_main_v63 (ix2 p q) k = ix2 k q := funext fun a => Fin.ext (by match a with | ⟨0, _⟩ => rfl | ⟨1, _⟩ => rfl)
theorem idx64_65 (p : Fin 50000) (q : Fin 128) : idx_main_v64 (idx_main_v65 (ix2 p q)) = ix1 q := funext fun a => Fin.ext (by match a with | ⟨0, _⟩ => rfl)
theorem lidx86 (p : Fin 50000) (q k : Fin 128) : lidx_main_v86 (ix2 p q) k = ix2 p k := funext fun a => Fin.ext (by match a with | ⟨0, _⟩ => rfl | ⟨1, _⟩ => rfl)
theorem ridx86 (p : Fin 50000) (q k : Fin 128) : ridx_main_v86 (ix2 p q) k = ix2 k q := funext fun a => Fin.ext (by match a with | ⟨0, _⟩ => rfl | ⟨1, _⟩ => rfl)
theorem idx88_89 (p : Fin 50000) (q : Fin 128) : idx_main_v88 (idx_main_v89 (ix2 p q)) = ix1 q := funext fun a => Fin.ext (by match a with | ⟨0, _⟩ => rfl)

-- second layer, the normalisation
theorem idx91 (p : Fin 50000) (k : Fin 128) : idx_main_v91 (ix1 p) k = ix2 p k := funext fun a => Fin.ext (by match a with | ⟨0, _⟩ => rfl | ⟨1, _⟩ => rfl)
theorem idx92 (p : Fin 50000) (u : Fin 1) : idx_main_v92 (ix2 p u) = ix1 p := funext fun a => Fin.ext (by match a with | ⟨0, _⟩ => rfl)
theorem idx95 (p : Fin 50000) (q : Fin 128) : idx_main_v95 (ix2 p q) = ix2 p (0 : Fin 1) := funext fun a => Fin.ext (by match a with | ⟨0, _⟩ => rfl | ⟨1, _⟩ => rfl)
theorem idx98 (p : Fin 50000) (k : Fin 128) : idx_main_v98 (ix1 p) k = ix2 p k := funext fun a => Fin.ext (by match a with | ⟨0, _⟩ => rfl | ⟨1, _⟩ => rfl)
theorem idx99 (p : Fin 50000) (u : Fin 1) : idx_main_v99 (ix2 p u) = ix1 p := funext fun a => Fin.ext (by match a with | ⟨0, _⟩ => rfl)
theorem idx102 (p : Fin 50000) (q : Fin 128) : idx_main_v102 (ix2 p q) = ix2 p (0 : Fin 1) := funext fun a => Fin.ext (by match a with | ⟨0, _⟩ => rfl | ⟨1, _⟩ => rfl)
theorem idx107 (p : Fin 50000) (q : Fin 128) : idx_main_v107 (ix2 p q) = ix2 p (0 : Fin 1) := funext fun a => Fin.ext (by match a with | ⟨0, _⟩ => rfl | ⟨1, _⟩ => rfl)
theorem idx109_110 (p : Fin 50000) (q : Fin 128) : idx_main_v109 (idx_main_v110 (ix2 p q)) = ix1 q := funext fun a => Fin.ext (by match a with | ⟨0, _⟩ => rfl)
theorem idx112_113 (p : Fin 50000) (q : Fin 128) : idx_main_v112 (idx_main_v113 (ix2 p q)) = ix1 q := funext fun a => Fin.ext (by match a with | ⟨0, _⟩ => rfl)

/-! ### The stretches of stages, each at an entry -/

variable (x0 : FVec Ideal S50000x32 .f32) (x1 : Vec Ideal S2x800000 .i32) (x2 : FVec Ideal S32x128 .f32)
  (x3 : FVec Ideal S128 .f32) (x4 : FVec Ideal S128x128 .f32) (x5 : FVec Ideal S128 .f32)
  (x6 : FVec Ideal S128x128 .f32) (x7 x8 x9 : FVec Ideal S128 .f32) (x10 : FVec Ideal S128x128 .f32)
  (x11 : FVec Ideal S128 .f32) (x12 : FVec Ideal S128x128 .f32) (x13 x14 x15 : FVec Ideal S128 .f32)

/-- The projected features: entry (p, q) is max(x_p·W_in + b_in, 0) at q. The rectifier's zero is the f32 zero word. -/
theorem proj_read (p : Fin 50000) (q : Fin 128) :
    val_main_v8 (F := Ideal) x0 x2 x3 (ix2 p q) =
      Cert.Spec.proj (fun k => x0 (ix2 p k)) (fun k j => x2 (ix2 k j)) (fun j => x3 (ix1 j)) q := by
  simp only [val_main_v8_apply, val_main_v7_apply, val_main_v4_apply, val_main_v6_apply, val_main_v5_apply,
    val_main_call0_v0_apply, val_main_call0_cst_apply, lidx4, ridx4, idx5_6,
    Ideal.addf_def, Ideal.maximumf_def, Ideal.ofBits_def, Ideal.ofBits_zero_f32]
  rfl

/-- First layer, the sum before normalisation, grouped as the reference groups it:
    ((h_p·Ws + bs) + a_p·Wn) + bn at q, with h the projected features and a the first aggregated array. -/
theorem pre0_read (p : Fin 50000) (q : Fin 128) :
    val_main_v36 (F := Ideal) x0 x1 x2 x3 x4 x5 x6 x7 (ix2 p q) =
      Cert.Spec.combL (fun k => val_main_v8 (F := Ideal) x0 x2 x3 (ix2 p k))
        (fun k => val_main_v31 (F := Ideal) x0 x1 x2 x3 (ix2 p k))
        (fun k j => x4 (ix2 k j)) (fun k j => x6 (ix2 k j)) (fun j => x5 (ix1 j)) (fun j => x7 (ix1 j)) q := by
  simp only [val_main_v36_apply, val_main_v35_apply, val_main_v34_apply, val_main_v33_apply, val_main_v32_apply,
    val_main_v12_apply, val_main_v11_apply, val_main_v10_apply, val_main_v9_apply,
    lidx9, ridx9, idx10_11, lidx32, ridx32, idx34_35, Ideal.addf_def]
  rfl

/-- First layer, the normalisation of a row of the sum: the mean is the row's sum (a reduction started from the zero
    word) over the word of 128, the variance the same of the squared deviations, the epsilon its word. -/
theorem ln0_read (p : Fin 50000) (q : Fin 128) :
    val_main_v60 (F := Ideal) x0 x1 x2 x3 x4 x5 x6 x7 x8 x9 (ix2 p q) =
      Cert.Spec.lnorm (fun j => val_main_v36 (F := Ideal) x0 x1 x2 x3 x4 x5 x6 x7 (ix2 p j))
        (fun j => x8 (ix1 j)) (fun j => x9 (ix1 j)) q := by
  simp only [val_main_v60_apply, val_main_v59_apply, val_main_v58_apply, val_main_v57_apply, val_main_v56_apply, val_main_v55_apply,
    val_main_v54_apply, val_main_v53_apply, val_main_v52_apply, val_main_v51_apply, val_main_v50_apply, val_main_cst_8_apply,
    val_main_v49_apply, val_main_v48_apply, val_main_v47_apply, val_main_v46_apply, val_main_cst_7_apply, val_main_v45_apply,
    val_main_v44_apply, val_main_cst_6_apply, val_main_v43_apply, val_main_v42_apply, val_main_v41_apply, val_main_v40_apply,
    val_main_v39_apply, val_main_cst_5_apply, val_main_v38_apply, val_main_v37_apply, val_main_cst_4_apply,
    idx37, idx38, idx41, idx44, idx45, idx48, idx53, idx55_56, idx58_59,
    Ideal.addf_def, Ideal.subf_def, Ideal.mulf_def, Ideal.hostDivf_def, Ideal.hostUnary_rsqrt_def, Ideal.ofBits_def,
    Ideal.ofBits_zero_f32, zero_add]
  rfl

/-- The two groupings of a layer's sum agree as row functions. -/
theorem combL_eq_comb_fun (h a : Fin 128 → EReal) (ws wn : Fin 128 → Fin 128 → EReal) (bs bn : Fin 128 → EReal) :
    Cert.Spec.combL h a ws wn bs bn = Cert.Spec.comb h a ws wn bs bn :=
  funext fun j => Cert.Spec.combL_eq_comb h a ws wn bs bn j

/-- The first layer at an entry: the rectified normalised row plus the residual, as the specification's layer0 of
    row p of the projected features and row p of the first aggregated array. -/
theorem layer0_read (p : Fin 50000) (q : Fin 128) :
    val_main_v62 (F := Ideal) x0 x1 x2 x3 x4 x5 x6 x7 x8 x9 (ix2 p q) =
      Cert.Spec.layer0 (fun k => val_main_v8 (F := Ideal) x0 x2 x3 (ix2 p k))
        (fun k => val_main_v31 (F := Ideal) x0 x1 x2 x3 (ix2 p k))
        (fun k j => x4 (ix2 k j)) (fun k j => x6 (ix2 k j)) (fun j => x5 (ix1 j)) (fun j => x7 (ix1 j))
        (fun j => x8 (ix1 j)) (fun j => x9 (ix1 j)) q := by
  rw [val_main_v62_apply, val_main_v61_apply, val_main_call1_v0_apply, val_main_call1_cst_apply, ln0_read]
  simp only [pre0_read, combL_eq_comb_fun, Ideal.addf_def, Ideal.maximumf_def, Ideal.ofBits_def, Ideal.ofBits_zero_f32]
  rfl

/-- Second layer, the sum before normalisation: h is the first layer's result, a the second aggregated array. -/
theorem pre1_read (p : Fin 50000) (q : Fin 128) :
    val_main_v90 (F := Ideal) x0 x1 x2 x3 x4 x5 x6 x7 x8 x9 x10 x11 x12 x13 (ix2 p q) =
      Cert.Spec.combL (fun k => val_main_v62 (F := Ideal) x0 x1 x2 x3 x4 x5 x6 x7 x8 x9 (ix2 p k))
        (fun k => val_main_v85 (F := Ideal) x0 x1 x2 x3 x4 x5 x6 x7 x8 x9 (ix2 p k))
        (fun k j => x10 (ix2 k j)) (fun k j => x12 (ix2 k j)) (fun j => x11 (ix1 j)) (fun j => x13 (ix1 j)) q := by
  simp only [val_main_v90_apply, val_main_v89_apply, val_main_v88_apply, val_main_v87_apply, val_main_v86_apply,
    val_main_v66_apply, val_main_v65_apply, val_main_v64_apply, val_main_v63_apply,
    lidx63, ridx63, idx64_65, lidx86, ridx86, idx88_89, Ideal.addf_def]
  rfl

/-- Second layer, the normalisation of a row of the sum. -/
theorem ln1_read (p : Fin 50000) (q : Fin 128) :
    val_main_v114 (F := Ideal) x0 x1 x2 x3 x4 x5 x6 x7 x8 x9 x10 x11 x12 x13 x14 x15 (ix2 p q) =
      Cert.Spec.lnorm (fun j => val_main_v90 (F := Ideal) x0 x1 x2 x3 x4 x5 x6 x7 x8 x9 x10 x11 x12 x13 (ix2 p j))
        (fun j => x14 (ix1 j)) (fun j => x15 (ix1 j)) q := by
  simp only [val_main_v114_apply, val_main_v113_apply, val_main_v112_apply, val_main_v111_apply, val_main_v110_apply, val_main_v109_apply,
    val_main_v108_apply, val_main_v107_apply, val_main_v106_apply, val_main_v105_apply, val_main_v104_apply, val_main_cst_19_apply,
    val_main_v103_apply, val_main_v102_apply, val_main_v101_apply, val_main_v100_apply, val_main_cst_18_apply, val_main_v99_apply,
    val_main_v98_apply, val_main_cst_17_apply, val_main_v97_apply, val_main_v96_apply, val_main_v95_apply, val_main_v94_apply,
    val_main_v93_apply, val_main_cst_16_apply, val_main_v92_apply, val_main_v91_apply, val_main_cst_15_apply,
    idx91, idx92, idx95, idx98, idx99, idx102, idx107, idx109_110, idx112_113,
    Ideal.addf_def, Ideal.subf_def, Ideal.mulf_def, Ideal.hostDivf_def, Ideal.hostUnary_rsqrt_def, Ideal.ofBits_def,
    Ideal.ofBits_zero_f32, zero_add]
  rfl

/-- The second layer at an entry, as the specification's layer1 of row p of the first layer's result and row p of the
    second aggregated array. -/
theorem layer1_read (p : Fin 50000) (q : Fin 128) :
    val_main_v114 (F := Ideal) x0 x1 x2 x3 x4 x5 x6 x7 x8 x9 x10 x11 x12 x13 x14 x15 (ix2 p q) =
      Cert.Spec.layer1 (fun k => val_main_v62 (F := Ideal) x0 x1 x2 x3 x4 x5 x6 x7 x8 x9 (ix2 p k))
        (fun k => val_main_v85 (F := Ideal) x0 x1 x2 x3 x4 x5 x6 x7 x8 x9 (ix2 p k))
        (fun k j => x10 (ix2 k j)) (fun k j => x12 (ix2 k j)) (fun j => x11 (ix1 j)) (fun j => x13 (ix1 j))
        (fun j => x14 (ix1 j)) (fun j => x15 (ix1 j)) q := by
  rw [ln1_read]
  simp only [pre1_read, combL_eq_comb_fun]
  rfl

end Cert.RefForm

end
-- ==== Proof.RefAgg.lean ====
/-
  One neighbour aggregation of the reference, as a closed whole-array function.

  For node features h the reference gathers, for every edge, the row of h at the edge's source node
  (source numbers below zero are first moved up by the number of nodes), adds each gathered row into
  the row of its target node, starting from zeros, and divides row t by max(count t, 1), where
  count t — the number of edges into t — is obtained the same way by adding a one per edge. The
  divisor is kept as a one-column array and repeated along the feature axis.

  The aggregation is never opened: the function below is built from the reference's own host
  operations, and the two aggregations of the program are instances of it by unfolding alone.

  The law at the end is the only arithmetic about the divisor: multiplying a row by the reciprocal
  1 / max(count, 1) is dividing it by max(count, 1), because the divisor is at least one and so not
  zero. It is stated for arbitrary sums and counts.
-/
import proofs.«176153_j4715874091025_1_alg».proof.Proof.Gen.ReferenceIdeal.Read
import proofs.«176153_j4715874091025_1_alg».proof.Proof.Spec
import Idealize.ShloMosaic.Lib.IdealHost

noncomputable section

open Idealize.ShloMosaic Idealize.ShloMosaic.ValueIdx
open Cert.ReferenceIdeal Cert.ReferenceIdeal.Gen Cert.ReferenceIdeal.Read
open scoped BigOperators

namespace Cert.RefForm

/-- Row 0 of the edge list: the source node of every edge. -/
def rSrc (ei : Vec Ideal S2x800000 .i32) : Vec Ideal S800000 .i32 :=
  shapeCast _ (extractStridedSlice S1x800000 ![0, 0] ei slices_S2x800000_S1x800000_0_0) shapeCasts_S1x800000_S800000

/-- Row 1 of the edge list: the target node of every edge. -/
def rTgt (ei : Vec Ideal S2x800000 .i32) : Vec Ideal S800000 .i32 :=
  shapeCast _ (extractStridedSlice S1x800000 ![1, 0] ei slices_S2x800000_S1x800000_1_0) shapeCasts_S1x800000_S800000

/-- The source column the gather reads: a source number below zero is moved up by the number of nodes. -/
def rSrcCol (ei : Vec Ideal S2x800000 .i32) : Vec Ideal S800000x1 .i32 :=
  broadcastInDim S800000x1 ![0] bcast_S800000_S800000x1_0
    (select (cmpi .slt (rSrc ei) (broadcastInDim S800000 ![] bcast_S_S800000 (constantI S_ 32 0#32)))
      (addi (rSrc ei) (broadcastInDim S800000 ![] bcast_S_S800000 (constantI S_ 32 50000#32)))
      (rSrc ei))

/-- The target column the scatter-adds write through. -/
def rTgtCol (ei : Vec Ideal S2x800000 .i32) : Vec Ideal S800000x1 .i32 :=
  broadcastInDim S800000x1 ![0] bcast_S800000_S800000x1_0 (rTgt ei)

/-- The sum, for every node, of the rows of h at the sources of its incoming edges. -/
def rSum (ei : Vec Ideal S2x800000 .i32) (h : FVec Ideal S50000x128 .f32) : FVec Ideal S50000x128 .f32 :=
  Host.scatterAdd scatter_S50000x128_S800000x1_S800000x128_1_0_0_1
    (broadcastInDim S50000x128 ![] bcast_S_S50000x128 (constant S_ .f32 0x00000000#32))
    (rTgtCol ei)
    (Host.gather gather_S50000x128_S800000x1_S800000x128_1_0_n_n_0_1_1128 h (rSrcCol ei))

/-- The number of incoming edges of every node, as a one-column array. -/
def rCntCol (ei : Vec Ideal S2x800000 .i32) : FVec Ideal S50000x1 .f32 :=
  broadcastInDim S50000x1 ![0] bcast_S50000_S50000x1_0
    (Host.scatterAdd scatter_S50000_S800000x1_S800000_n_0_0_1
      (broadcastInDim S50000 ![] bcast_S_S50000 (constant S_ .f32 0x00000000#32))
      (rTgtCol ei)
      (broadcastInDim S800000 ![] bcast_S_S800000 (constant S_ .f32 0x3F800000#32)))

/-- The one-column array of ones the count is clamped by. -/
def rOnesCol : FVec Ideal S50000x1 .f32 :=
  broadcastInDim S50000x1 ![] bcast_S_S50000x1 (constant S_ .f32 0x3F800000#32)

/-- One aggregation: the summed source rows of every node divided by max(count, 1). -/
def rAgg (ei : Vec Ideal S2x800000 .i32) (h : FVec Ideal S50000x128 .f32) : FVec Ideal S50000x128 .f32 :=
  Host.divf (rSum ei h)
    (broadcastInDim S50000x128 ![0, 1] bcast_S50000x1_S50000x128_0_1 (maximumf (rCntCol ei) rOnesCol))

variable (x0 : FVec Ideal S50000x32 .f32) (x1 : Vec Ideal S2x800000 .i32) (x2 : FVec Ideal S32x128 .f32)
  (x3 : FVec Ideal S128 .f32) (x4 : FVec Ideal S128x128 .f32) (x5 : FVec Ideal S128 .f32)
  (x6 : FVec Ideal S128x128 .f32) (x7 x8 x9 : FVec Ideal S128 .f32)

/-- The first aggregated array of the reference is the aggregation of the projected features. -/
theorem agg0_eq : val_main_v31 (F := Ideal) x0 x1 x2 x3 = rAgg x1 (val_main_v8 (F := Ideal) x0 x2 x3) := rfl

/-- The second aggregated array of the reference is the aggregation of the first layer's result. -/
theorem agg1_eq : val_main_v85 (F := Ideal) x0 x1 x2 x3 x4 x5 x6 x7 x8 x9 =
    rAgg x1 (val_main_v62 (F := Ideal) x0 x1 x2 x3 x4 x5 x6 x7 x8 x9) := rfl

/-- The f32 word of 1.0 is the extended real 1. -/
theorem ofBits_one_f32 : Ideal.ofBits .f32 0x3F800000#32 = 1 := by
  simp [Ideal.ofBits, Ideal.ieee]
  rw [← EReal.coe_mul]
  norm_num

/-! ### Multiplying by the reciprocal of the clamped count is dividing by it -/

/-- A one-column array repeated along the feature axis reads, at (p, q), the column at node p. -/
theorem colBcast_apply {α : Type} (hb : S50000x1.BroadcastsInDim S50000x128 (![0, 1] : Fin 2 → Fin S50000x128.rank))
    (y : S50000x1.Idx → α) (p : Fin 50000) (q : Fin 128) :
    broadcastInDim S50000x128 ![0, 1] hb y (ix2 p q) = y (ix2 p (0 : Fin 1)) :=
  broadcastInDim_apply _ hb y (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])

/-- The column of ones is 1 at every node. -/
theorem onesCol_apply (h1 : S_.BroadcastsInDim S50000x1 (![] : Fin 0 → Fin S50000x1.rank)) (j : S50000x1.Idx) :
    broadcastInDim S50000x1 ![] h1 (constant (F := Ideal) S_ .f32 0x3F800000#32) j = 1 := by
  rw [broadcastInDim_apply _ h1 _ j ix0 (fun a => a.elim0)]
  exact ofBits_one_f32

/-- For any array S of row sums and any one-column array c of counts: S times the repeated column 1 / max(c, 1) is S
    divided by the repeated column max(c, 1). Entry by entry this is s · (1 / d) = s / d for d = max(c p, 1) ≠ 0. -/
theorem mul_recip_eq_div (hb : S50000x1.BroadcastsInDim S50000x128 (![0, 1] : Fin 2 → Fin S50000x128.rank))
    (h1 : S_.BroadcastsInDim S50000x1 (![] : Fin 0 → Fin S50000x1.rank))
    (S : FVec Ideal S50000x128 .f32) (c : FVec Ideal S50000x1 .f32) :
    mulf S (broadcastInDim S50000x128 ![0, 1] hb
        (Host.divf (broadcastInDim S50000x1 ![] h1 (constant (F := Ideal) S_ .f32 0x3F800000#32))
          (maximumf c (broadcastInDim S50000x1 ![] h1 (constant (F := Ideal) S_ .f32 0x3F800000#32))))) =
      Host.divf S (broadcastInDim S50000x128 ![0, 1] hb
        (maximumf c (broadcastInDim S50000x1 ![] h1 (constant (F := Ideal) S_ .f32 0x3F800000#32)))) := by
  funext i
  obtain ⟨p, q, rfl⟩ : ∃ (p : Fin 50000) (q : Fin 128), i = ix2 p q := ⟨i 0, i 1, eq_ix2 i⟩
  rw [mulf_apply, hostDivf_apply, colBcast_apply, colBcast_apply, hostDivf_apply, maximumf_apply, onesCol_apply]
  exact Cert.Spec.mul_div_one_eq_div _ _ (Cert.Spec.max_one_ne_zero _)

end Cert.RefForm

end
-- ==== Proof.RefFinal.lean ====
/-
  The reference's result as one closed whole-array form.

  H0 is the projected features, row by row. A layer's result is, row by row, the specification's layer
  function of row p of the layer's input and row p of the aggregation of that input; the aggregation
  is the closed function of the edge list and the whole input array. The reference's last stage is
  the second layer's result of the first layer's result of H0.
-/
import proofs.«176153_j4715874091025_1_alg».proof.Proof.RefLayers
import proofs.«176153_j4715874091025_1_alg».proof.Proof.RefAgg

noncomputable section

open Idealize.ShloMosaic Idealize.ShloMosaic.ValueIdx
open Cert.ReferenceIdeal Cert.ReferenceIdeal.Gen Cert.ReferenceIdeal.Read
open scoped BigOperators

namespace Cert.RefForm

/-- The projected features max(x·W_in + b_in, 0), row by row. -/
def rH0 (x : FVec Ideal S50000x32 .f32) (w : FVec Ideal S32x128 .f32) (b : FVec Ideal S128 .f32) :
    FVec Ideal S50000x128 .f32 :=
  fun i => Cert.Spec.proj (fun k => x (ix2 (i 0) k)) (fun k j => w (ix2 k j)) (fun j => b (ix1 j)) (i 1)

/-- The first layer applied to node features h: normalise (h·Ws + bs) + (agg h·Wn + bn) row by row, rectify, add h. -/
def rL0 (ei : Vec Ideal S2x800000 .i32) (h : FVec Ideal S50000x128 .f32)
    (ws : FVec Ideal S128x128 .f32) (bs : FVec Ideal S128 .f32) (wn : FVec Ideal S128x128 .f32)
    (bn g be : FVec Ideal S128 .f32) : FVec Ideal S50000x128 .f32 :=
  fun i => Cert.Spec.layer0 (fun k => h (ix2 (i 0) k)) (fun k => rAgg ei h (ix2 (i 0) k))
    (fun k j => ws (ix2 k j)) (fun k j => wn (ix2 k j)) (fun j => bs (ix1 j)) (fun j => bn (ix1 j))
    (fun j => g (ix1 j)) (fun j => be (ix1 j)) (i 1)

/-- The last layer applied to node features h: normalise (h·Ws + bs) + (agg h·Wn + bn) row by row. -/
def rL1 (ei : Vec Ideal S2x800000 .i32) (h : FVec Ideal S50000x128 .f32)
    (ws : FVec Ideal S128x128 .f32) (bs : FVec Ideal S128 .f32) (wn : FVec Ideal S128x128 .f32)
    (bn g be : FVec Ideal S128 .f32) : FVec Ideal S50000x128 .f32 :=
  fun i => Cert.Spec.layer1 (fun k => h (ix2 (i 0) k)) (fun k => rAgg ei h (ix2 (i 0) k))
    (fun k j => ws (ix2 k j)) (fun k j => wn (ix2 k j)) (fun j => bs (ix1 j)) (fun j => bn (ix1 j))
    (fun j => g (ix1 j)) (fun j => be (ix1 j)) (i 1)

variable (x0 : FVec Ideal S50000x32 .f32) (x1 : Vec Ideal S2x800000 .i32) (x2 : FVec Ideal S32x128 .f32)
  (x3 : FVec Ideal S128 .f32) (x4 : FVec Ideal S128x128 .f32) (x5 : FVec Ideal S128 .f32)
  (x6 : FVec Ideal S128x128 .f32) (x7 x8 x9 : FVec Ideal S128 .f32) (x10 : FVec Ideal S128x128 .f32)
  (x11 : FVec Ideal S128 .f32) (x12 : FVec Ideal S128x128 .f32) (x13 x14 x15 : FVec Ideal S128 .f32)

/-- The first layer's result of the reference's arguments. -/
def rH1 : FVec Ideal S50000x128 .f32 := rL0 x1 (rH0 x0 x2 x3) x4 x5 x6 x7 x8 x9

/-- The second layer's result of the reference's arguments. -/
def rH2 : FVec Ideal S50000x128 .f32 := rL1 x1 (rH1 x0 x1 x2 x3 x4 x5 x6 x7 x8 x9) x10 x11 x12 x13 x14 x15

/-- The reference's projected features are H0. -/
theorem ref_h0 : val_main_v8 (F := Ideal) x0 x2 x3 = rH0 x0 x2 x3 := by
  funext i
  obtain ⟨p, q, rfl⟩ : ∃ (p : Fin 50000) (q : Fin 128), i = ix2 p q := ⟨i 0, i 1, eq_ix2 i⟩
  rw [proj_read]
  rfl

/-- The reference's first layer result is H1. -/
theorem ref_h1 : val_main_v62 (F := Ideal) x0 x1 x2 x3 x4 x5 x6 x7 x8 x9 = rH1 x0 x1 x2 x3 x4 x5 x6 x7 x8 x9 := by
  funext i
  obtain ⟨p, q, rfl⟩ : ∃ (p : Fin 50000) (q : Fin 128), i = ix2 p q := ⟨i 0, i 1, eq_ix2 i⟩
  rw [layer0_read, agg0_eq, ref_h0]
  rfl

/-- The reference's result, its last stage, is H2. -/
theorem ref_final : val_main_v114 (F := Ideal) x0 x1 x2 x3 x4 x5 x6 x7 x8 x9 x10 x11 x12 x13 x14 x15 =
    rH2 x0 x1 x2 x3 x4 x5 x6 x7 x8 x9 x10 x11 x12 x13 x14 x15 := by
  funext i
  obtain ⟨p, q, rfl⟩ : ∃ (p : Fin 50000) (q : Fin 128), i = ix2 p q := ⟨i 0, i 1, eq_ix2 i⟩
  rw [layer1_read, agg1_eq, ref_h1]
  rfl

end Cert.RefForm

end
-- ==== Proof.RefBridge.lean ====
/-
  The reference's result is the kernel's closed form.

  Both programs aggregate with the same gather and the same two scatter-adds over the same operands;
  the kernel multiplies the summed rows by the reciprocal 1 / max(count, 1), the reference divides
  them by max(count, 1), and the two agree because the divisor is never zero. A bias-like vector
  reaches a kernel call as a [1,128] row whose entry (0, j) is the vector's entry j. With these two
  facts the kernel's three calls composed are, row by row, the reference's layers.
-/
import proofs.«176153_j4715874091025_1_alg».proof.Proof.RefFinal
import proofs.«176153_j4715874091025_1_alg».proof.Proof.Final

noncomputable section

open Idealize.ShloMosaic Idealize.ShloMosaic.ValueIdx
open Cert.ReferenceIdeal Cert.ReferenceIdeal.Gen Cert.ReferenceIdeal.Read
open scoped BigOperators

namespace Cert.RefForm

/-- One aggregation of the kernel is the reference's: multiplying the summed rows by the reciprocal of
    max(count, 1) is dividing them by it. The two programs' shape records are the same literals. -/
theorem kAgg_eq_rAgg (ei : Vec Ideal S2x800000 .i32) (h : FVec Ideal S50000x128 .f32) :
    Cert.Final.kAgg (F := Ideal) ei h = rAgg ei h :=
  mul_recip_eq_div bcast_S50000x1_S50000x128_0_1 bcast_S_S50000x1 (rSum ei h) (rCntCol ei)

/-- A vector of 128 entries cast to a [1,128] row reads, at (0, j), the vector at j. -/
theorem kRow_apply (b : FVec Ideal S128 .f32) (j : Fin 128) :
    Cert.Final.kRow (F := Ideal) b (ix2 (0 : Fin 1) j) = b (ix1 j) := by
  unfold Cert.Final.kRow
  exact shapeCast_apply b _ (ix2 (0 : Fin 1) j) (ix1 j)
    (by rw [Shape.rowMajor_val_two, Shape.rowMajor_val_one]; show j.val = 0 * 128 + j.val; omega)

variable (x0 : FVec Ideal S50000x32 .f32) (x1 : Vec Ideal S2x800000 .i32) (x2 : FVec Ideal S32x128 .f32)
  (x3 : FVec Ideal S128 .f32) (x4 : FVec Ideal S128x128 .f32) (x5 : FVec Ideal S128 .f32)
  (x6 : FVec Ideal S128x128 .f32) (x7 x8 x9 : FVec Ideal S128 .f32) (x10 : FVec Ideal S128x128 .f32)
  (x11 : FVec Ideal S128 .f32) (x12 : FVec Ideal S128x128 .f32) (x13 x14 x15 : FVec Ideal S128 .f32)

/-- The first call's closed form is the projected features. -/
theorem k0_eq : Cert.Final.K0 x0 x2 x3 = rH0 x0 x2 x3 := by
  funext i
  unfold rH0 Cert.Final.K0 Cert.Forms.G0
  simp only [kRow_apply]

/-- The second call's closed form is the first layer applied to the same node features. -/
theorem k1_eq (ei : Vec Ideal S2x800000 .i32) (h : FVec Ideal S50000x128 .f32)
    (ws : FVec Ideal S128x128 .f32) (bs : FVec Ideal S128 .f32) (wn : FVec Ideal S128x128 .f32)
    (bn g be : FVec Ideal S128 .f32) : Cert.Final.K1 ei h ws bs wn bn g be = rL0 ei h ws bs wn bn g be := by
  funext i
  unfold rL0 Cert.Final.K1 Cert.Forms.G1
  simp only [kRow_apply, kAgg_eq_rAgg]

/-- The third call's closed form is the last layer applied to the same node features. -/
theorem k2_eq (ei : Vec Ideal S2x800000 .i32) (h : FVec Ideal S50000x128 .f32)
    (ws : FVec Ideal S128x128 .f32) (bs : FVec Ideal S128 .f32) (wn : FVec Ideal S128x128 .f32)
    (bn g be : FVec Ideal S128 .f32) : Cert.Final.K2 ei h ws bs wn bn g be = rL1 ei h ws bs wn bn g be := by
  funext i
  unfold rL1 Cert.Final.K2 Cert.Forms.G2
  simp only [kRow_apply, kAgg_eq_rAgg]

/-- The kernel's closed form of the sixteen arguments is the reference's. -/
theorem kfinal_eq_ref : Cert.Final.KFinal x0 x1 x2 x3 x4 x5 x6 x7 x8 x9 x10 x11 x12 x13 x14 x15 =
    rH2 x0 x1 x2 x3 x4 x5 x6 x7 x8 x9 x10 x11 x12 x13 x14 x15 := by
  unfold Cert.Final.KFinal rH2 rH1
  rw [k0_eq, k1_eq, k2_eq]

/-- The reference's result, its last stage, is the kernel's closed form of the same sixteen arguments. -/
theorem ref_is_kfinal : val_main_v114 (F := Ideal) x0 x1 x2 x3 x4 x5 x6 x7 x8 x9 x10 x11 x12 x13 x14 x15 =
    Cert.Final.KFinal x0 x1 x2 x3 x4 x5 x6 x7 x8 x9 x10 x11 x12 x13 x14 x15 :=
  (ref_final x0 x1 x2 x3 x4 x5 x6 x7 x8 x9 x10 x11 x12 x13 x14 x15).trans
    (kfinal_eq_ref x0 x1 x2 x3 x4 x5 x6 x7 x8 x9 x10 x11 x12 x13 x14 x15).symm

end Cert.RefForm

end
-- ==== Proof.lean ====
/-
  The certificate of the two-layer graph convolution: three tiled calls with host-side neighbour
  aggregation against the plain reference.

  Both programs compute, for every node, the rectified input projection of its 32 features; then, per
  layer, the normalised row of (h·Ws + bs) + (a·Wn + bn), where a is the mean of the neighbours' rows
  (the sum over incoming edges divided by the in-degree clamped below by one); the first layer rectifies
  and adds h back. The kernel tiles the 50000 nodes in 25 blocks of 2000 rows and multiplies the
  neighbour sum by the reciprocal of the clamped in-degree; the reference divides by it and groups the
  four summands differently. Over the extended reals the reciprocal form equals the quotient because the
  clamped in-degree is at least one, hence not zero, and the regrouping is associativity of +; format
  changes are the identity; the gather and scatter-add are the same host operations on both sides.

  The frames: each program terminates without a fault and leaves its argument arrays as launched. For
  the kernel programs this is the run through the three calls (each call's arrays split out of the
  TensorCore's buffers and put back, the middle call's two windows on one array holding it by halves);
  for the reference it is its host run with the result dropped. The idealization changed nothing in
  the kernel's text, so the preservation claim is trivial.
-/
import proofs.«176153_j4715874091025_1_alg».proof.Defs
import proofs.«176153_j4715874091025_1_alg».proof.Proof.Gen.Kernel
import proofs.«176153_j4715874091025_1_alg».proof.Proof.Gen.KernelIdeal
import proofs.«176153_j4715874091025_1_alg».proof.Proof.Gen.ReferenceIdeal
import proofs.«176153_j4715874091025_1_alg».proof.Proof.Gen.ReferenceIdeal.Run
import proofs.«176153_j4715874091025_1_alg».proof.Proof.Gen.ReferenceIdeal.Read
import proofs.«176153_j4715874091025_1_alg».proof.Proof.Gen.Pre_finite_inputs
import proofs.«176153_j4715874091025_1_alg».proof.Proof.Frames
import proofs.«176153_j4715874091025_1_alg».proof.Proof.KernelValue
import proofs.«176153_j4715874091025_1_alg».proof.Proof.RefBridge
import Idealize.ShloMosaic.Adequacy
import Idealize.ShloMosaic.Init

set_option maxRecDepth 16384

noncomputable section

namespace Cert.Proof

open Idealize.ShloMosaic Idealize.SL.Sem

/-- The reference terminates and keeps its arguments: its host run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing in the kernel. -/
theorem preserves : Cert.preserves_Kernel_KernelIdeal := trivial

set_option maxHeartbeats 4000000 in
/-- Run from memories that agree on the arguments, both idealized programs end with the result array at one and the
    same function of those arguments: the three calls composed with the host aggregation on the kernel's side, the
    reference's host run on the other, equal index by index over the extended reals. -/
theorem algebraic : Cert.algebraic_KernelIdeal_ReferenceIdeal := by
  intro m ρ m' ρ' _ hagree
  refine ⟨fun c => Cert.Final.KFinal (Cert.KernelIdeal.KValue.a0 m c) (Cert.KernelIdeal.KValue.a1 m c) (Cert.KernelIdeal.KValue.a2 m c) (Cert.KernelIdeal.KValue.a3 m c) (Cert.KernelIdeal.KValue.a4 m c) (Cert.KernelIdeal.KValue.a5 m c) (Cert.KernelIdeal.KValue.a6 m c) (Cert.KernelIdeal.KValue.a7 m c) (Cert.KernelIdeal.KValue.a8 m c) (Cert.KernelIdeal.KValue.a9 m c) (Cert.KernelIdeal.KValue.a10 m c) (Cert.KernelIdeal.KValue.a11 m c) (Cert.KernelIdeal.KValue.a12 m c) (Cert.KernelIdeal.KValue.a13 m c) (Cert.KernelIdeal.KValue.a14 m c) (Cert.KernelIdeal.KValue.a15 m c), ?_, ?_⟩
  · refine (θ_run Cert.KernelIdeal.defs _ _).mono (fun r h c => ⟨(Cert.Proof.Frames.result_at_end_KI m r.2 h c).trans (Cert.KernelIdeal.KValue.result_eq m c), ?_⟩)
      (Cert.KernelIdeal.Whole.run_all m ρ)
    exact ⟨Cert.Proof.Frames.kept_KI m r.2 h c Cert.KernelIdeal.main_arg0 (by decide) (by decide) (by decide) (by decide) (by decide) (by decide) (by decide),
        Cert.Proof.Frames.kept_KI m r.2 h c Cert.KernelIdeal.main_arg1 (by decide) (by decide) (by decide) (by decide) (by decide) (by decide) (by decide),
        Cert.Proof.Frames.kept_KI m r.2 h c Cert.KernelIdeal.main_arg2 (by decide) (by decide) (by decide) (by decide) (by decide) (by decide) (by decide),
        Cert.Proof.Frames.kept_KI m r.2 h c Cert.KernelIdeal.main_arg3 (by decide) (by decide) (by decide) (by decide) (by decide) (by decide) (by decide),
        Cert.Proof.Frames.kept_KI m r.2 h c Cert.KernelIdeal.main_arg4 (by decide) (by decide) (by decide) (by decide) (by decide) (by decide) (by decide),
        Cert.Proof.Frames.kept_KI m r.2 h c Cert.KernelIdeal.main_arg5 (by decide) (by decide) (by decide) (by decide) (by decide) (by decide) (by decide),
        Cert.Proof.Frames.kept_KI m r.2 h c Cert.KernelIdeal.main_arg6 (by decide) (by decide) (by decide) (by decide) (by decide) (by decide) (by decide),
        Cert.Proof.Frames.kept_KI m r.2 h c Cert.KernelIdeal.main_arg7 (by decide) (by decide) (by decide) (by decide) (by decide) (by decide) (by decide),
        Cert.Proof.Frames.kept_KI m r.2 h c Cert.KernelIdeal.main_arg8 (by decide) (by decide) (by decide) (by decide) (by decide) (by decide) (by decide),
        Cert.Proof.Frames.kept_KI m r.2 h c Cert.KernelIdeal.main_arg9 (by decide) (by decide) (by decide) (by decide) (by decide) (by decide) (by decide),
        Cert.Proof.Frames.kept_KI m r.2 h c Cert.KernelIdeal.main_arg10 (by decide) (by decide) (by decide) (by decide) (by decide) (by decide) (by decide),
        Cert.Proof.Frames.kept_KI m r.2 h c Cert.KernelIdeal.main_arg11 (by decide) (by decide) (by decide) (by decide) (by decide) (by decide) (by decide),
        Cert.Proof.Frames.kept_KI m r.2 h c Cert.KernelIdeal.main_arg12 (by decide) (by decide) (by decide) (by decide) (by decide) (by decide) (by decide),
        Cert.Proof.Frames.kept_KI m r.2 h c Cert.KernelIdeal.main_arg13 (by decide) (by decide) (by decide) (by decide) (by decide) (by decide) (by decide),
        Cert.Proof.Frames.kept_KI m r.2 h c Cert.KernelIdeal.main_arg14 (by decide) (by decide) (by decide) (by decide) (by decide) (by decide) (by decide),
        Cert.Proof.Frames.kept_KI m r.2 h c Cert.KernelIdeal.main_arg15 (by decide) (by decide) (by decide) (by decide) (by decide) (by decide) (by decide)⟩
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15⟩ := hagree c
    rw [Cert.ReferenceIdeal.Read.val_main_v114_eq, e0, e1, e2, e3, e4, e5, e6, e7, e8, e9, e10, e11, e12, e13, e14, e15]
    exact Cert.RefForm.ref_is_kfinal _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  Cert.Proof.Frames.frame_K, Cert.Proof.Frames.frame_KI, frame_ri, preserves, algebraic⟩

end Cert.Proof

end
